-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S32x1 : Shape := ⟨2, ![32, 1]⟩
abbrev S100000x128 : Shape := ⟨2, ![100000, 128]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000 : S_.BroadcastsInDim S100000 (![] : Fin 0 → Fin S100000.rank)
  reducesTo_S100000_S_d0 : S100000.ReducesTo [0] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg0 : IVec S32x1 32) (main_v13 : IVec S_ 1) (main_v15 : IVec S32x1 1) (main_c_5 : IVec S_ 32) : IVec S_ 1 :=
  let main_v16 : IVec S32x1 32 := broadcastInDim S32x1 ![] bcast_S_S32x1 main_c_5
  let main_v17 : IVec S32x1 1 := cmpi .sle main_arg0 main_v16
  let main_v18 : IVec S32x1 1 := andi main_v15 main_v17
  let main_c_6 : IVec S_ 1 := constantI S_ 1 1#1
  let main_v19 : IVec S_ 1 := (fun x v => Host.reduce IntOp.andi x v reducesTo_S32x1_S_d0_1 h_S_) main_v18 main_c_6
  let main_v20 : IVec S_ 1 := andi main_v13 main_v19
  main_v20

def fn {F : FTy → Type} [FloatOps F] (main_arg0 : IVec S32x1 32) (main_arg1 : FVec F S100000x128 .f32) (main_arg2 : FVec F S100000x128 .f32) (main_arg3 : FVec F S100000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S32x1 32 := broadcastInDim S32x1 ![] bcast_S_S32x1 main_c_4
  let main_v15 : IVec S32x1 1 := cmpi .sge main_arg0 main_v14
  let main_c_5 : IVec S_ 32 := constantI S_ 32 99999#32
  fn_part1 (F := F) main_arg0 main_v13 main_v15 main_c_5
-- ==== Kernel.lean ====
abbrev S32x1 : Shape := ⟨2, ![32, 1]⟩
abbrev S100000x128 : Shape := ⟨2, ![100000, 128]⟩
abbrev S100000 : Shape := ⟨1, ![100000]⟩
abbrev S32 : Shape := ⟨1, ![32]⟩
abbrev S32x128 : Shape := ⟨2, ![32, 128]⟩
abbrev S8 : Shape := ⟨1, ![8]⟩
abbrev S8x128 : Shape := ⟨2, ![8, 128]⟩
abbrev S_ : Shape := ⟨0, ![]⟩
abbrev S1x100000 : Shape := ⟨2, ![1, 100000]⟩
abbrev S32x1x100000 : Shape := ⟨3, ![32, 1, 100000]⟩
abbrev S12800x128 : Shape := ⟨2, ![12800, 128]⟩
abbrev S1x12800 : Shape := ⟨2, ![1, 12800]⟩
abbrev S32x1x12800 : Shape := ⟨3, ![32, 1, 12800]⟩
abbrev S32x12800 : Shape := ⟨2, ![32, 12800]⟩

abbrev nBuf : Table → Nat
  | .hbm => 8
  | .local .tc .vmem => 7
  | .local .scVector .vmem => 2
  | _ => 0

abbrev bufTy : (tb : Table) → Fin (nBuf tb) → BufTy
  | .hbm, ⟨0, _⟩ => ⟨S32x1, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S32, .i32⟩
  | .hbm, ⟨5, _⟩ => ⟨S32x128, .f32⟩
  | .hbm, ⟨6, _⟩ => ⟨S1x100000, .f32⟩
  | .hbm, ⟨7, _⟩ => ⟨S32x1x100000, .f32⟩
  | .local .tc .vmem, ⟨0, _⟩ => ⟨S32x128, .f32⟩
  | .local .tc .vmem, ⟨1, _⟩ => ⟨S12800x128, .f32⟩
  | .local .tc .vmem, ⟨2, _⟩ => ⟨S12800x128, .f32⟩
  | .local .tc .vmem, ⟨3, _⟩ => ⟨S1x12800, .f32⟩
  | .local .tc .vmem, ⟨4, _⟩ => ⟨S1x12800, .f32⟩
  | .local .tc .vmem, ⟨5, _⟩ => ⟨S32x1x12800, .f32⟩
  | .local .tc .vmem, ⟨6, _⟩ => ⟨S32x1x12800, .f32⟩
  | .local .scVector .vmem, ⟨0, _⟩ => ⟨S8, .i32⟩
  | .local .scVector .vmem, ⟨1, _⟩ => ⟨S8x128, .f32⟩
  | _, _ => ⟨S32x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  ![v5.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v5 : BitVec 32 := Scalar.muli v1 c8_i32
  let c0_i32_4_r1 : BitVec 32 := 0#32
  ![v5.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S32x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S12800x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12800 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x1x12800 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S32x1_S32 : S32x1.ShapeCasts S32
  inb_S100000x128_S100000x128_0_0 : ∀ a, (![0, 0] : Fin 2 → Nat) a + S100000x128.size a ≤ S100000x128.size a
  gathers_S100000x128_S8x128 : S100000x128.Gathers 0 S8x128
  shapeCasts_S100000_S1x100000 : S100000.ShapeCasts S1x100000
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S12800x128_S12800x128_0_0 : ∀ a, (![0, 0] : Fin 2 → Nat) a + S12800x128.size a ≤ S12800x128.size a
  h_S12800x128 : 0 < S12800x128.numel
  inb_S1x12800_S1x12800_0_0 : ∀ a, (![0, 0] : Fin 2 → Nat) a + S1x12800.size a ≤ S1x12800.size a
  h_S1x12800 : 0 < S1x12800.numel
  shapeCasts_S1x12800_S1x12800 : S1x12800.ShapeCasts S1x12800
  broadcasts_S1x12800_S32x12800 : S1x12800.Broadcasts S32x12800
  shapeCasts_S32x12800_S32x1x12800 : S32x12800.ShapeCasts S32x1x12800
  inb_S32x1x12800_S32x1x12800_0_0_0 : ∀ a, (![0, 0, 0] : Fin 3 → Nat) a + S32x1x12800.size a ≤ S32x1x12800.size a
  h_S32x1x12800 : 0 < S32x1x12800.numel
  dot_S32x128_S12800x128_S32x12800_1_1_0_0_n_n_wf : DotDims.WF S32x128 S12800x128 S32x12800 [1] [1] [0] [0] [] []
  hcc0_scratch2 : 0 + S_.numel ≤ 10
  hcc0_scoped0 : 1 + S_.numel ≤ 10
  hcc0_scoped1 : 2 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S8.size a ≤ S32.size a
  k0_off2_inb : ∀ i : grid0.Coords, ∀ (k0_h1 : k0_cond1 i = 1#1), ∀ a, (k0_off2 i) a + S8x128.size a ≤ S32x128.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x128.size a ≤ S32x128.size a
  hwx1_0 : ∀ i : grid1.Coords, EltTy.bits .f32 = 32 ∨ (Rect.block (s := S32x128) S32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S12800x128.size a < S100000x128.size a
  hwx1_1 : ∀ i : grid1.Coords, EltTy.bits .f32 = 32 ∨ (Rect.unit (s := S100000x128) (fun a => cc1_transform_1 i a * S12800x128.size a) (fun a => (Pipeline.Clip.of (cc1_transform_1 i a) (S12800x128.size a) (S100000x128.size a)).extent (S12800x128.size a)) fun a => Pipeline.Clip.inb (Pipeline.Clip.ok_of (hstart1_1 i a))).WholeWords (EltTy.packing .f32)
  hwxs1_1 : ∀ i : grid1.Coords, EltTy.bits .f32 = 32 ∨ (Rect.unit (s := S12800x128) (fun _ => 0) (fun a => (Pipeline.Clip.of (cc1_transform_1 i a) (S12800x128.size a) (S100000x128.size a)).extent (S12800x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x12800.size a < S1x100000.size a
  hwx1_2 : ∀ i : grid1.Coords, EltTy.bits .f32 = 32 ∨ (Rect.unit (s := S1x100000) (fun a => cc1_transform_2 i a * S1x12800.size a) (fun a => (Pipeline.Clip.of (cc1_transform_2 i a) (S1x12800.size a) (S1x100000.size a)).extent (S1x12800.size a)) fun a => Pipeline.Clip.inb (Pipeline.Clip.ok_of (hstart1_2 i a))).WholeWords (EltTy.packing .f32)
  hwxs1_2 : ∀ i : grid1.Coords, EltTy.bits .f32 = 32 ∨ (Rect.unit (s := S1x12800) (fun _ => 0) (fun a => (Pipeline.Clip.of (cc1_transform_2 i a) (S1x12800.size a) (S1x100000.size a)).extent (S1x12800.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S32x1x12800.size a < S32x1x100000.size a
  hwx1_3 : ∀ i : grid1.Coords, EltTy.bits .f32 = 32 ∨ (Rect.unit (s := S32x1x100000) (fun a => cc1_transform_3 i a * S32x1x12800.size a) (fun a => (Pipeline.Clip.of (cc1_transform_3 i a) (S32x1x12800.size a) (S32x1x100000.size a)).extent (S32x1x12800.size a)) fun a => Pipeline.Clip.inb (Pipeline.Clip.ok_of (hstart1_3 i a))).WholeWords (EltTy.packing .f32)
  hwxs1_3 : ∀ i : grid1.Coords, EltTy.bits .f32 = 32 ∨ (Rect.unit (s := S32x1x12800) (fun _ => 0) (fun a => (Pipeline.Clip.of (cc1_transform_3 i a) (S32x1x12800.size a) (S32x1x100000.size a)).extent (S32x1x12800.size a)) fun a => (Nat.zero_add _).trans_le (Pipeline.Clip.extent_le (Pipeline.Clip.ok_of (hstart1_3 i a)))).WholeWords (EltTy.packing .f32)

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
def dot_S32x128_S12800x128_S32x12800_1_1_0_0_n_n : DotDims S32x128 S12800x128 S32x12800 where
  lhsContracting := [1]
  rhsContracting := [1]
  lhsNonContracting := [0]
  rhsNonContracting := [0]
  lhsBatch := []
  rhsBatch := []
  wf := dot_S32x128_S12800x128_S32x12800_1_1_0_0_n_n_wf

abbrev win1_0 : Pipeline.Window sig grid1 :=
  Pipeline.Window.ofSpec (Memref.whole main_v1) S32x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg2) S12800x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v2) S1x12800.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v3) S32x1x12800.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1 : Shape := ⟨2, ![32, 1]⟩
abbrev S100000x128 : Shape := ⟨2, ![100000, 128]⟩
abbrev S100000 : Shape := ⟨1, ![100000]⟩
abbrev S_ : Shape := ⟨0, ![]⟩
abbrev S32x1x1 : Shape := ⟨3, ![32, 1, 1]⟩
abbrev S1 : Shape := ⟨1, ![1]⟩
abbrev S1x1x1 : Shape := ⟨3, ![1, 1, 1]⟩
abbrev S32x1x128 : Shape := ⟨3, ![32, 1, 128]⟩
abbrev S32x1x100000 : Shape := ⟨3, ![32, 1, 100000]⟩
abbrev S1x1x100000 : Shape := ⟨3, ![1, 1, 100000]⟩

abbrev nBuf : Space → Nat
  | .hbm => 31
  | .vmem => 0
  | .smem => 0
  | _ => 0

abbrev bufTy : (tb : Table) → Fin (tcTables nBuf tb) → BufTy
  | .hbm, ⟨0, _⟩ => ⟨S32x1, .i32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S_, .i32⟩
  | .hbm, ⟨5, _⟩ => ⟨S32x1, .i32⟩
  | .hbm, ⟨6, _⟩ => ⟨S32x1, .i1⟩
  | .hbm, ⟨7, _⟩ => ⟨S_, .i32⟩
  | .hbm, ⟨8, _⟩ => ⟨S32x1, .i32⟩
  | .hbm, ⟨9, _⟩ => ⟨S32x1, .i32⟩
  | .hbm, ⟨10, _⟩ => ⟨S32x1, .i32⟩
  | .hbm, ⟨11, _⟩ => ⟨S32x1x1, .i32⟩
  | .hbm, ⟨12, _⟩ => ⟨S1, .i32⟩
  | .hbm, ⟨13, _⟩ => ⟨S_, .i32⟩
  | .hbm, ⟨14, _⟩ => ⟨S32x1x1, .i32⟩
  | .hbm, ⟨15, _⟩ => ⟨S32x1x1, .i1⟩
  | .hbm, ⟨16, _⟩ => ⟨S1x1x1, .i32⟩
  | .hbm, ⟨17, _⟩ => ⟨S32x1x1, .i32⟩
  | .hbm, ⟨18, _⟩ => ⟨S32x1x1, .i1⟩
  | .hbm, ⟨19, _⟩ => ⟨S32x1x1, .i1⟩
  | .hbm, ⟨20, _⟩ => ⟨S_, .i1⟩
  | .hbm, ⟨21, _⟩ => ⟨S32x1, .i1⟩
  | .hbm, ⟨22, _⟩ => ⟨S32x1x128, .f32⟩
  | .hbm, ⟨23, _⟩ => ⟨S32x1x128, .i1⟩
  | .hbm, ⟨24, _⟩ => ⟨S_, .f32⟩
  | .hbm, ⟨25, _⟩ => ⟨S32x1x128, .f32⟩
  | .hbm, ⟨26, _⟩ => ⟨S32x1x128, .f32⟩
  | .hbm, ⟨27, _⟩ => ⟨S32x1x100000, .f32⟩
  | .hbm, ⟨28, _⟩ => ⟨S1x1x100000, .f32⟩
  | .hbm, ⟨29, _⟩ => ⟨S32x1x100000, .f32⟩
  | .hbm, ⟨30, _⟩ => ⟨S32x1x100000, .f32⟩
  | _, _ => ⟨S32x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S32x1 : S_.BroadcastsInDim S32x1 (![] : Fin 0 → Fin S32x1.rank)
  bcast_S32x1_S32x1x1_0_1 : S32x1.BroadcastsInDim S32x1x1 (![0, 1] : Fin 2 → Fin S32x1x1.rank)
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  h_S_ : 0 < S_.numel
  bcast_S32x1_S32x1x128_0_1 : S32x1.BroadcastsInDim S32x1x128 (![0, 1] : Fin 2 → Fin S32x1x128.rank)
  bcast_S_S32x1x128 : S_.BroadcastsInDim S32x1x128 (![] : Fin 0 → Fin S32x1x128.rank)
  bcast_S100000_S1x1x100000_2 : S100000.BroadcastsInDim S1x1x100000 (![2] : Fin 1 → Fin S1x1x100000.rank)
  bcast_S1x1x100000_S32x1x100000_0_1_2 : S1x1x100000.BroadcastsInDim S32x1x100000 (![0, 1, 2] : Fin 3 → Fin S32x1x100000.rank)
  gather_S100000x128_S32x1x1_S32x1x128_2_0_n_n_0_2_1128_wf : GatherDims.WF S100000x128 S32x1x1 S32x1x128 [2] [0] [] [0] [] 2 ![1, 128]
  dot_S32x1x128_S100000x128_S32x1x100000_2_1_01_0_n_n_wf : DotDims.WF S32x1x128 S100000x128 S32x1x100000 [2] [1] [0, 1] [0] [] []

variable [Facts₀]

def gather_S100000x128_S32x1x1_S32x1x128_2_0_n_n_0_2_1128 : GatherDims S100000x128 S32x1x1 S32x1x128 where
  offsetDims := [2]
  collapsedSliceDims := [0]
  operandBatchingDims := []
  startIndicesBatchingDims := []
  startIndexMap := [0]
  indexVectorDim := 2
  sliceSizes := ![1, 128]
  wf := gather_S100000x128_S32x1x1_S32x1x128_2_0_n_n_0_2_1128_wf
def dot_S32x1x128_S100000x128_S32x1x100000_2_1_01_0_n_n : DotDims S32x1x128 S100000x128 S32x1x100000 where
  lhsContracting := [2]
  rhsContracting := [1]
  lhsNonContracting := [0, 1]
  rhsNonContracting := [0]
  lhsBatch := []
  rhsBatch := []
  wf := dot_S32x1x128_S100000x128_S32x1x100000_2_1_01_0_n_n_wf

class Facts : Prop extends Facts₀ where

variable [Facts]
-- ==== Proof.Spec.lean ====
/-
  What both programs compute, as one function of the four argument arrays.

  Batch row `r` (of 32) carries one index word `x[r, 0]`; the word names a row of the embedding table
  `E` (100000 rows of 128 numbers).  The hidden vector of batch row `r` is that table row, and the result at
  `(r, 0, v)` is the dot product of the hidden vector with row `v` of the weight matrix `W`, plus the bias `b[v]`:

      out[r, 0, v] = (Σ_{k < 128} E[x[r,0], k] · W[v, k]) + b[v]

  over the extended reals.  The row number is taken as the word's unsigned value, cut off at the last row, so that
  the function is total; where every index word is below 100000 (`InRange`) the cut does nothing.
-/
import Idealize.ShloMosaic.PureOps.Ideal
import Idealize.ShloMosaic.Lib.ValueIdx

noncomputable section

open scoped BigOperators

namespace Cert.Spec

open Idealize.ShloMosaic Idealize.ShloMosaic.ValueIdx

abbrev Sx : Shape := ⟨2, ![32, 1]⟩
abbrev Stab : Shape := ⟨2, ![100000, 128]⟩
abbrev Sbias : Shape := ⟨1, ![100000]⟩
abbrev Shid : Shape := ⟨2, ![32, 128]⟩
abbrev Sout : Shape := ⟨3, ![32, 1, 100000]⟩

/-- The table row batch row `r` looks up: its index word read unsigned, cut off at the last row. -/
def row (x : IVec Sx 32) (r : Fin 32) : Fin 100000 :=
  ⟨min (x (ix2 r (0 : Fin 1))).toNat 99999, by omega⟩

/-- Every index word names a row of the table. -/
def InRange (x : IVec Sx 32) : Prop := ∀ r : Fin 32, (x (ix2 r (0 : Fin 1))).toNat < 100000

theorem row_val {x : IVec Sx 32} (hx : InRange x) (r : Fin 32) : (row x r).val = (x (ix2 r (0 : Fin 1))).toNat := by
  have := hx r
  show min _ 99999 = _
  omega

/-- The hidden vectors: row `r` is the table row its index word names. -/
def hidden {α : Type} (x : IVec Sx 32) (E : Stab.Idx → α) : Shid.Idx → α :=
  fun j => E (ix2 (row x (j 0)) (j 1))

/-- One logit: the hidden vector of batch row `r` against weight row `v`, plus the bias at `v`. -/
def logit (x : IVec Sx 32) (E W : Stab.Idx → EReal) (b : Sbias.Idx → EReal) (r : Fin 32) (v : Fin 100000) : EReal :=
  (∑ k : Fin 128, E (ix2 (row x r) k) * W (ix2 v k)) + b (ix1 v)

/-- The whole result array. -/
def G (x : IVec Sx 32) (E W : Stab.Idx → EReal) (b : Sbias.Idx → EReal) : Sout.Idx → EReal :=
  fun i => logit x E W b (i 0) (i 2)

theorem G_apply (x : IVec Sx 32) (E W : Stab.Idx → EReal) (b : Sbias.Idx → EReal) (r : Fin 32) (z : Fin 1) (v : Fin 100000) :
    G x E W b (ix3 r z v) = logit x E W b r v := rfl

/-- The projection alone, from given hidden vectors: what the second stage computes of the first stage's result. -/
def proj (h : Shid.Idx → EReal) (W : Stab.Idx → EReal) (b : Sbias.Idx → EReal) : Sout.Idx → EReal :=
  fun i => (∑ k : Fin 128, h (ix2 (i 0) k) * W (ix2 (i 2) k)) + b (ix1 (i 2))

theorem proj_hidden (x : IVec Sx 32) (E W : Stab.Idx → EReal) (b : Sbias.Idx → EReal) :
    proj (hidden x E) W b = G x E W b := rfl

end Cert.Spec

end
-- ==== Proof.PreRange.lean ====
/-
  The precondition, read back as an index range.

  The precondition is the conjunction of four tests, each an "all entries" reduction: every entry of the three float
  arrays is finite, and every index word `v` satisfies `0 ≤ v` and `v ≤ 99999` as a signed word.  Only the last
  conjunct matters here.  A conjunction of one-bit words that is 1 has both sides 1; an "all" reduction that is 1 had a 1 at
  every entry; and a word that is non-negative and at most 99999 when read signed has its top bit clear, so its unsigned
  value is its signed value and lies below 100000.  Nothing depends on the float arithmetic, so the statement is generic
  in it.
-/
import proofs.«217564_g44109314130489_cont_8to1_b_132_32_alg».proof.Pre_input_domain
import proofs.«217564_g44109314130489_cont_8to1_b_132_32_alg».proof.Proof.Gen.Pre_input_domain
import proofs.«217564_g44109314130489_cont_8to1_b_132_32_alg».proof.Proof.Spec
import Idealize.ShloMosaic.Lib.ReduceAll
import Idealize.ShloMosaic.Lib.ValueIdx

namespace Cert.PreSide

open Idealize.ShloMosaic Idealize.ShloMosaic.ValueIdx

/-- The rank-0 shape has exactly one index. -/
instance : Subsingleton Cert.Pre_input_domain.S_.Idx := ⟨fun a b => funext fun d => d.elim0⟩

/-- One index word: if `0 ≤ v` and `v ≤ 99999` both hold of `v` read as a signed word, then `v` read unsigned is
    below 100000.  (Were the top bit set, the signed value would be `v.toNat - 2^32 < 0`.) -/
theorem word_lt (v : BitVec 32)
    (e : IntOp.andi (IntOp.cmpi .sge v 0#32) (IntOp.cmpi .sle v 99999#32) = 1#1) : v.toNat < 100000 := by
  obtain ⟨h0, h1⟩ := IntOp.andi_eq_one.1 e
  rw [IntOp.cmpi_sge] at h0
  rw [IntOp.cmpi_sle] at h1
  rw [show (0#32 : BitVec 32).toInt = 0 from by decide] at h0
  rw [show (99999#32 : BitVec 32).toInt = 99999 from by decide] at h1
  rw [BitVec.toInt_eq_toNat_cond] at h0 h1
  split at h0 <;> omega

/-- Where the precondition holds, every index word names a row of the table.  The precondition's value at its one index is
    `((finite E ∧ finite W) ∧ finite b) ∧ all (0 ≤ x ∧ x ≤ 99999)`; the right conjunct, read at the entry `(r, 0)`, is the
    hypothesis of `word_lt` for the word `x[r, 0]` (the two bounds are scalars broadcast to the index array's shape, so
    at any entry they are the literals themselves). -/
theorem inRange_of_pre {F : FTy → Type} [FloatOps F] (x : IVec Cert.Pre_input_domain.S32x1 32)
    (E W : FVec F Cert.Pre_input_domain.S100000x128 .f32) (b : FVec F Cert.Pre_input_domain.S100000 .f32)
    (h : Cert.Pre_input_domain.fn (F := F) x E W b = (fun _ => 1#1)) : Cert.Spec.InRange x := by
  intro r
  have h0 := congrFun h ValueIdx.ix0
  dsimp only [Cert.Pre_input_domain.fn, Cert.Pre_input_domain.fn_part1] at h0
  have h1 : Host.reduce IntOp.andi _ _ _ _ ix0 = 1#1 := (IntOp.andi_eq_one.1 h0).2
  have h2 := Host.reduce_andi_all _ _ _ _ _ h1 (ix2 r (0 : Fin 1))
  exact word_lt _ h2

end Cert.PreSide
-- ==== Proof.Common.lean ====
/-
  What the parts of the kernel's proof share: the program as the launch theorem for SparseCore programs sees it,
  and the resource algebra — the handshakes' rounds between the TensorCore, the sequencers and the tiles; the
  rounds of the projection's staging semaphores; and the counters of the tiles' own copies.
-/
import proofs.«217564_g44109314130489_cont_8to1_b_132_32_alg».proof.KernelIdeal
import proofs.«217564_g44109314130489_cont_8to1_b_132_32_alg».proof.Proof.Gen.KernelIdeal
import proofs.«217564_g44109314130489_cont_8to1_b_132_32_alg».proof.Proof.Gen.KernelIdeal.Launch
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the projection's staging semaphores. -/
abbrev UP : Type := URounds (GSem nD τ sig) Unit
abbrev UU : Type := UH × (UP × Counters)

abbrev MM (F : FTy → Type) : Type := MT nD τ sig (HIx 1) (Elt F) ℕ UU ℕ

abbrev EH : Emb UH (MM F) := embL
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MM F)).LandsIn (upEmb : UEmb _ (MM F)) := by unfold EP; infer_instance

end Cert.KernelIdeal.Hand

end
-- ==== Proof.Pay.lean ====
/-
  What the handshakes of the row gather carry.  The index array (32 words) and the hidden array (32 rows of 128) are cut
  into four parts of eight rows, one per worker w = 2·s + c (tile s of SparseCore c, s < 2); the embedding table is read
  by all four workers at once, each holding a quarter share of it.  A SparseCore is handed its two workers' parts, a tile
  its own (a tile with s ≥ 2 nothing), and they come back with the hidden rows written: row r of the hidden array is the
  table row the r-th index word names.
-/
import proofs.«217564_g44109314130489_cont_8to1_b_132_32_alg».proof.Proof.Common
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The index array (the reshaped argument), the embedding table and the hidden array, as locations of device `d`. -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The hidden array once the gather is done: row `j 0` is the table row the `j 0`-th index word names (the word read
    unsigned and cut off at the last row, so that the function is total). -/
def hidV {α : Type} (fI : S32.Idx → BitVec 32) (fE : S100000x128.Idx → α) : S32x128.Idx → α :=
  fun j => fE (ValueIdx.ix2 (n0 := 100000) (n1 := 128) ⟨min (fI (ValueIdx.ix1 (n := 32) (j 0))).toNat 99999, by omega⟩ (j 1))

theorem idiv : 4 ∣ S32.size 0 := ⟨8, rfl⟩
theorem odiv : 4 ∣ S32x128.size 0 := ⟨8, rfl⟩

/-- Worker `w`'s eight index words and eight hidden rows. -/
abbrev iPart (w : Fin 4) : Finset S32.Idx :=
  ((Memref.whole main_v0_scv : Memref sig .scVector .hbm S32 .i32).view.slice (Rect.part (s := S32) (a₀ := 0) idiv w)).set
abbrev oPart (w : Fin 4) : Finset S32x128.Idx :=
  ((Memref.whole main_v1_scv : Memref sig .scVector .hbm S32x128 .f32).view.slice (Rect.part (s := S32x128) (a₀ := 0) odiv w)).set

/-- Worker `w`'s share of the table: the full share halved twice. -/
def xq : Fin 4 → PosShare TreeShare
  | 0 => fullShare.left.left
  | 1 => fullShare.left.right
  | 2 => fullShare.right.left
  | 3 => fullShare.right.right

/-- The worker of tile `s` (below 2) of SparseCore `c`. -/
def wk (c : Fin 2) (s : Fin 2) : Fin 4 := ⟨2 * s.val + c.val, by omega⟩

/-! ## The arrays as a tile addresses them -/

abbrev cV (L : grid0.Coords) : Fin τ.nSC := (L 0).castLE hcore0
abbrev jV (L : grid0.Coords) : Fin τ.nSub := (L 1).castLE hsub0

/-- The eight index words and the eight hidden rows of an active tile, and the whole table, as the task slices them. -/
abbrev iRowK (L : grid0.Coords) (h : k0_cond1 L = 1#1) : Memref sig .scVector .hbm S8 .i32 :=
  (Memref.whole main_v0_scv : Memref sig .scVector .hbm S32 .i32).slice (Rect.unit (s := S32) (k0_off1 L) S8.size (k0_off1_inb L h)) (fun _ => rfl)
abbrev oRowK (L : grid0.Coords) (h : k0_cond1 L = 1#1) : Memref sig .scVector .hbm S8x128 .f32 :=
  (Memref.whole main_v1_scv : Memref sig .scVector .hbm S32x128 .f32).slice (Rect.unit (s := S32x128) (k0_off2 L) S8x128.size (k0_off2_inb L h)) (fun _ => rfl)
abbrev xAllK : Memref sig .scVector .hbm S100000x128 .f32 :=
  (Memref.whole main_arg1_scv : Memref sig .scVector .hbm S100000x128 .f32).slice (Rect.unit (s := S100000x128) ![0, 0] S100000x128.size inb_S100000x128_S100000x128_0_0) (fun _ => rfl)

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

section Res

variable (d : Dev nD) (fI : Buf (Elt F) (iLoc d)) (fE : Buf (Elt F) (xLoc d))

/-- What worker `w` holds: its index words, its share of the table, its hidden rows at contents `fO`. -/
abbrev wRes (fO : Buf (Elt F) (oLoc d)) (w : Fin 4) : sProp 𝕄 :=
  iprop((iLoc d ↦[iPart w]{fullShare} fI) ∗ (xLoc d ↦{xq w} fE) ∗ (oLoc d ↦[oPart w]{fullShare} fO))

/-- A SparseCore's: its two workers'. -/
abbrev coreRes (fO : Buf (Elt F) (oLoc d)) (c : Fin 2) : sProp 𝕄 :=
  iprop(wRes d fI fE fO (wk c 0) ∗ wRes d fI fE fO (wk c 1))

/-- A tile's: its worker's if it has one. -/
def tileRes (fO : Buf (Elt F) (oLoc d)) (c : Fin 2) (i : Fin 16) : sProp 𝕄 :=
  if h : i.val < 2 then wRes d fI fE fO (wk c ⟨i.val, h⟩) else iprop(emp)

end Res

variable (fI : (d : Dev nD) → Buf (Elt F) (iLoc d)) (fE : (d : Dev nD) → Buf (Elt F) (xLoc d)) (fO : (d : Dev nD) → Buf (Elt F) (oLoc d))

/-- The hidden array after the gather on device `d`. -/
abbrev HV (d : Dev nD) : Buf (Elt F) (oLoc d) := hidV (fI d) (fE d)

/-- The one call: each SparseCore takes its two workers' parts, each tile its worker's, and they come back with the
    hidden rows at `HV`. -/
def P : (K (F := F)).Pay (nD := nD) (Val := Elt F) (Name := ℕ) (U := UU) where
  st := fun q d c => match q with | 0 => coreRes d (fI d) (fE d) (fO d) (Fin.cast nCore_zero c)
  dn := fun q d c => match q with | 0 => coreRes d (fI d) (fE d) (HV fI fE d) (Fin.cast nCore_zero c)
  go := fun q d c i => match q with | 0 => tileRes d (fI d) (fE d) (fO d) (Fin.cast nCore_zero c) (Fin.cast nSub_zero i)
  td := fun q d c i => match q with | 0 => tileRes d (fI d) (fE d) (HV fI fE d) (Fin.cast nCore_zero c) (Fin.cast nSub_zero i)
  x := fun _ _ => iprop(emp)

instance tileRes_storable (d : Dev nD) (a : Buf (Elt F) (iLoc d)) (b : Buf (Elt F) (xLoc d)) (o : Buf (Elt F) (oLoc d)) (c : Fin 2) (i : Fin 16) :
    BI.Storable (upEmb : UEmb _ 𝕄) (tileRes d a b o c i) := by
  unfold tileRes; split <;> infer_instance

instance P_storable : (P (F := F) fI fE fO).IsStorable where
  st q d c := match q with
    | 0 => (inferInstance : BI.Storable (upEmb : UEmb _ 𝕄) (coreRes d (fI d) (fE d) (fO d) (Fin.cast nCore_zero c)))
  dn q d c := match q with
    | 0 => (inferInstance : BI.Storable (upEmb : UEmb _ 𝕄) (coreRes d (fI d) (fE d) (HV fI fE d) (Fin.cast nCore_zero c)))
  go q d c i := match q with
    | 0 => (inferInstance : BI.Storable (upEmb : UEmb _ 𝕄) (tileRes d (fI d) (fE d) (fO d) (Fin.cast nCore_zero c) (Fin.cast nSub_zero i)))
  td q d c i := match q with
    | 0 => (inferInstance : BI.Storable (upEmb : UEmb _ 𝕄) (tileRes d (fI d) (fE d) (HV fI fE d) (Fin.cast nCore_zero c) (Fin.cast nSub_zero i)))

end Cert.KernelIdeal.Hand

end
-- ==== Proof.TileValue.lean ====
/-
  The values of the row gather on one tile.  The tile copied eight consecutive index words into its list; entry k of
  the gather reads the table row the k-th of them names; row k of what was gathered lands on the hidden row at the same
  position among the thirty-two.  So the gathered block, read at (k, e), is the table at (word[off + k], e): the hidden
  array's value at the place the block is written to.
-/
import proofs.«217564_g44109314130489_cont_8to1_b_132_32_alg».proof.Proof.Pay
import proofs.«217564_g44109314130489_cont_8to1_b_132_32_alg».proof.Proof.Gen.KernelIdeal.Skeleton
import Idealize.ShloMosaic.Lib.SparseCore.Stream
import Idealize.ShloMosaic.Lib.Writes

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "sV" => (Memref.whole Cert.KernelIdeal.cc0_scratch0 : Memref Cert.KernelIdeal.sig Kind.scVector Space.vmem Cert.KernelIdeal.S8 EltTy.i32)

variable [FloatOps F]

/-- Reading a view is reading the buffer at the embedded index. -/
theorem iRow_read (d : Dev nD) (L : grid0.Coords) (h : k0_cond1 L = 1#1) (fI : Buf (Elt F) (iLoc d)) (j : S8.Idx) :
    (iRowK L h).view.read (Elt F) fI j = fI ((iRowK L h).view.emb j) :=
  (View.read_apply _ _).trans (cast_eq _ _)

/-- The index of the list of eight at row-major position `k` is `k` itself. -/
theorem rowMajor_symm_S8 (k : Fin S8.numel) : ((S8.rowMajor.symm k) 0).val = k.val := by
  have e := Shape.rowMajor_val_one (d := ![8]) (S8.rowMajor.symm k)
  rw [← e]
  exact congrArg Fin.val (S8.rowMajor.apply_symm_apply k)

/-- Where entry `j` of the tile's list sits among the thirty-two index words. -/
theorem iRow_emb (L : grid0.Coords) (h : k0_cond1 L = 1#1) (j : S8.Idx) :
    ((iRowK L h).view.emb j 0).val = 16 * (L 1).val + 8 * (L 0).val + (j 0).val := by
  show k0_off1 L 0 + 1 * (j 0).val = _
  rw [k0_off1_eq]; show 16 * (L 1).val + 8 * (L 0).val + 1 * (j 0).val = _; omega

/-- Where element `y` of the tile's block sits in the hidden array. -/
theorem oRow_emb0 (L : grid0.Coords) (h : k0_cond1 L = 1#1) (y : S8x128.Idx) :
    ((oRowK L h).view.emb y 0).val = 16 * (L 1).val + 8 * (L 0).val + (y 0).val := by
  show k0_off2 L 0 + 1 * (y 0).val = _
  rw [k0_off2_eq]; show 16 * (L 1).val + 8 * (L 0).val + 1 * (y 0).val = _; omega
theorem oRow_emb1 (L : grid0.Coords) (h : k0_cond1 L = 1#1) (y : S8x128.Idx) :
    ((oRowK L h).view.emb y 1).val = (y 1).val := by
  show k0_off2 L 1 + 1 * (y 1).val = _
  rw [k0_off2_eq]; show 0 + 1 * (y 1).val = _; omega

theorem gathered_eq (d : Dev nD) (L : grid0.Coords) (h : k0_cond1 L = 1#1) (fI : Buf (Elt F) (iLoc d)) (fE : Buf (Elt F) (xLoc d))
    (hI : ∀ j : S32.Idx, (fI j).toNat < 100000) (fs : Buf (Elt F) ((SparseCore.V d (cV L) (jV L)).loc cc0_scratch0))
    (hn : S8.numel = S8x128.size gathers_S100000x128_S8x128.axis')
    (hin : ∀ x, ((sV).view.read (Elt F) (View.write (Elt F) (sV).view fs ((iRowK L h).view.read (Elt F) fI) Finset.univ) x).toNat < S100000x128.size gathers_S100000x128_S8x128.axis)
    (y : S8x128.Idx) :
    SparseCore.gatherPayload gathers_S100000x128_S8x128 ((xAllK).view.read (Elt F) fE)
        (SparseCore.rows ((sV).view.read (Elt F) (View.write (Elt F) (sV).view fs ((iRowK L h).view.read (Elt F) fI) Finset.univ)) hn hin) y
      = hidV fI fE ((oRowK L h).view.emb y) := by
  unfold SparseCore.gatherPayload
  rw [show ∀ z, (xAllK).view.read (Elt F) fE z = fE ((xAllK).view.emb z) from fun z => (View.read_apply _ _).trans (cast_eq _ _)]
  unfold hidV
  congr 1
  funext a
  apply Fin.ext
  match a with
  | 0 =>
    show 0 + 1 * (gathers_S100000x128_S8x128.idx _ y gathers_S100000x128_S8x128.axis).val = min _ 99999
    rw [Shape.Gathers.idx_axis]
    show 0 + 1 * (((sV).view.read (Elt F) (View.write (Elt F) (sV).view fs ((iRowK L h).view.read (Elt F) fI) Finset.univ)
        (S8.rowMajor.symm ((y gathers_S100000x128_S8x128.axis').cast hn.symm))).toNat) = _
    rw [View.write_whole_univ]
    simp only [Memref.view_whole, View.read_whole]
    rw [iRow_read d L h]
    have e : (iRowK L h).view.emb (S8.rowMajor.symm ((y gathers_S100000x128_S8x128.axis').cast hn.symm))
        = ValueIdx.ix1 (n := 32) ((oRowK L h).view.emb y 0) := by
      funext b
      match b with
      | ⟨0, _⟩ =>
        apply Fin.ext
        show ((iRowK L h).view.emb _ 0).val = ((oRowK L h).view.emb y 0).val
        rw [iRow_emb L h, oRow_emb0 L h, rowMajor_symm_S8]; rfl
    rw [e, Nat.zero_add, Nat.one_mul]
    exact (Nat.min_eq_left (Nat.le_of_lt_succ (hI _))).symm
  | 1 =>
    show 0 + 1 * (gathers_S100000x128_S8x128.idx _ y 1).val = ((oRowK L h).view.emb y 1).val
    rw [Shape.Gathers.idx_of_ne _ _ _ 1 (by decide), oRow_emb1 L h]
    show 0 + 1 * (y 1).val = _
    omega

/-- What the tile's write leaves on its eight hidden rows: the hidden array's values there. -/
theorem written_eq (d : Dev nD) (L : grid0.Coords) (h : k0_cond1 L = 1#1) (fI : Buf (Elt F) (iLoc d)) (fE : Buf (Elt F) (xLoc d))
    (hI : ∀ j : S32.Idx, (fI j).toNat < 100000) (fO : Buf (Elt F) (oLoc d)) (w : S8x128.Idx → Elt F .f32)
    (hw : ∀ y, w y = hidV fI fE ((oRowK L h).view.emb y)) :
    ∀ i ∈ (oRowK L h).view.set, (oRowK L h).view.writes (Elt F) fO [⟨Rect.whole S8x128, w⟩] i = hidV fI fE i := by
  intro i hi
  obtain ⟨y, -, rfl⟩ := Finset.mem_map.mp hi
  have e := View.read_writes_cons_emb (oRowK L h).view fO (Rect.whole S8x128) w [] y
  rw [Rect.emb_whole_apply, View.read_apply] at e
  exact ((cast_eq _ _).symm.trans e).trans (hw y)

end Cert.KernelIdeal.Hand

end
-- ==== Proof.Split.lean ====
/-
  How the operands of the row gather are split among the workers and put together again.  The thirty-two index words
  and the thirty-two hidden rows are cut into four parts of eight; the table is shared out in four quarter shares.  An
  active tile's slices are exactly its worker's parts; a SparseCore's two workers' resources are its sixteen tiles'
  (fourteen of which hold nothing); and the two SparseCores' resources together are the three arrays whole.
-/
import proofs.«217564_g44109314130489_cont_8to1_b_132_32_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Which tiles work, and on what -/

/-- The tiles that take part are the first two of each SparseCore. -/
theorem cond_iff : ∀ L : grid0.Coords, k0_cond1 L = 1#1 ↔ (L 1).val < 2 := by decide +kernel

theorem bound0 : grid0.bound 0 = 2 := rfl
theorem bound1 : grid0.bound 1 = 16 := rfl

/-- The eight index words an active tile slices are its worker's part. -/
theorem iRect_eq (L : grid0.Coords) (h : k0_cond1 L = 1#1) (h2 : (L 1).val < 2) :
    Rect.unit (s := S32) (k0_off1 L) S8.size (k0_off1_inb L h)
      = Rect.part (s := S32) (a₀ := 0) idiv (wk (Fin.cast bound0 (L 0)) ⟨(L 1).val, h2⟩) := by
  unfold Rect.part Rect.block
  congr 1 <;> funext a
  · rw [k0_off1_eq]
    match a with
    | 0 =>
      simp [Shape.partIx, Shape.partSize, wk]
      show 16 * (L 1).val + 8 * (L 0).val = (2 * (L 1).val + (L 0).val) * 8
      omega
  · match a with
    | 0 => simp [Shape.partSize]

/-- The eight hidden rows an active tile slices are its worker's part. -/
theorem oRect_eq (L : grid0.Coords) (h : k0_cond1 L = 1#1) (h2 : (L 1).val < 2) :
    Rect.unit (s := S32x128) (k0_off2 L) S8x128.size (k0_off2_inb L h)
      = Rect.part (s := S32x128) (a₀ := 0) odiv (wk (Fin.cast bound0 (L 0)) ⟨(L 1).val, h2⟩) := by
  unfold Rect.part Rect.block
  congr 1 <;> funext a
  · rw [k0_off2_eq]
    match a with
    | 0 =>
      simp [Shape.partIx, Shape.partSize, wk]
      show 16 * (L 1).val + 8 * (L 0).val = (2 * (L 1).val + (L 0).val) * 8
      omega
    | 1 => simp [Shape.partIx, Shape.partSize]
  · match a with
    | 0 => simp [Shape.partSize]
    | 1 => simp [Shape.partSize]

theorem set_iRowK (L : grid0.Coords) (h : k0_cond1 L = 1#1) (h2 : (L 1).val < 2) :
    (iRowK L h).view.set = iPart (wk (Fin.cast bound0 (L 0)) ⟨(L 1).val, h2⟩) := by
  show ((Memref.whole main_v0_scv : Memref sig .scVector .hbm S32 .i32).view.slice (Rect.unit (s := S32) (k0_off1 L) S8.size (k0_off1_inb L h))).set = _
  rw [iRect_eq L h h2]

theorem set_oRowK (L : grid0.Coords) (h : k0_cond1 L = 1#1) (h2 : (L 1).val < 2) :
    (oRowK L h).view.set = oPart (wk (Fin.cast bound0 (L 0)) ⟨(L 1).val, h2⟩) := by
  show ((Memref.whole main_v1_scv : Memref sig .scVector .hbm S32x128 .f32).view.slice (Rect.unit (s := S32x128) (k0_off2 L) S8x128.size (k0_off2_inb L h))).set = _
  rw [oRect_eq L h h2]

/-! ## The four parts and the four shares -/

theorem iPart_eq (w : Fin 4) : iPart w = (Rect.part (s := S32) (a₀ := 0) idiv w).set :=
  View.set_slice_whole (main_v0_scv : Ref sig .scVector) _
theorem oPart_eq (w : Fin 4) : oPart w = (Rect.part (s := S32x128) (a₀ := 0) odiv w).set :=
  View.set_slice_whole (main_v1_scv : Ref sig .scVector) _

theorem iParts_disjoint : ∀ i ∈ (Finset.univ : Finset (Fin 4)), ∀ j ∈ (Finset.univ : Finset (Fin 4)), i ≠ j → Disjoint (iPart i) (iPart j) :=
  fun i _ j _ h => by rw [iPart_eq, iPart_eq]; exact Rect.part_disjoint idiv h
theorem oParts_disjoint : ∀ i ∈ (Finset.univ : Finset (Fin 4)), ∀ j ∈ (Finset.univ : Finset (Fin 4)), i ≠ j → Disjoint (oPart i) (oPart j) :=
  fun i _ j _ h => by rw [oPart_eq, oPart_eq]; exact Rect.part_disjoint odiv h
theorem iParts_cover : (Finset.univ : Finset (Fin 4)).biUnion iPart = Finset.univ :=
  (Finset.biUnion_congr rfl fun i _ => iPart_eq i).trans (Rect.biUnion_part idiv)
theorem oParts_cover : (Finset.univ : Finset (Fin 4)).biUnion oPart = Finset.univ :=
  (Finset.biUnion_congr rfl fun i _ => oPart_eq i).trans (Rect.biUnion_part odiv)

/-- A conjunction over four indices, one by one. -/
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The index array whole is its four parts. -/
theorem iPts_parts (d : Dev nD) (f : Buf (Elt F) (iLoc d)) :
    (iLoc d ↦{fullShare} f : sProp 𝕄)
      = iprop((iLoc d ↦[iPart 0]{fullShare} f) ∗ (iLoc d ↦[iPart 1]{fullShare} f) ∗ (iLoc d ↦[iPart 2]{fullShare} f) ∗ (iLoc d ↦[iPart 3]{fullShare} f)) := by
  rw [← bigSep_four (F := F) (fun w => (iLoc d ↦[iPart w]{fullShare} f : sProp 𝕄)),
    ← pointsTo_biUnion Finset.univ (ℓ := iLoc d) iPart iParts_disjoint, iParts_cover]
/-- The hidden array whole is its four parts. -/
theorem oPts_parts (d : Dev nD) (f : Buf (Elt F) (oLoc d)) :
    (oLoc d ↦{fullShare} f : sProp 𝕄)
      = iprop((oLoc d ↦[oPart 0]{fullShare} f) ∗ (oLoc d ↦[oPart 1]{fullShare} f) ∗ (oLoc d ↦[oPart 2]{fullShare} f) ∗ (oLoc d ↦[oPart 3]{fullShare} f)) := by
  rw [← bigSep_four (F := F) (fun w => (oLoc d ↦[oPart w]{fullShare} f : sProp 𝕄)),
    ← pointsTo_biUnion Finset.univ (ℓ := oLoc d) oPart oParts_disjoint, oParts_cover]

/-- The table at the full share is the table at the four quarter shares. -/
theorem xPts_shares (d : Dev nD) (f : Buf (Elt F) (xLoc d)) :
    (xLoc d ↦{fullShare} f : sProp 𝕄)
      = iprop(((xLoc d ↦{xq 0} f) ∗ (xLoc d ↦{xq 1} f)) ∗ ((xLoc d ↦{xq 2} f) ∗ (xLoc d ↦{xq 3} f))) := by
  have sh : ∀ q : PosShare TreeShare, (xLoc d ↦{q} f : sProp 𝕄) = iprop((xLoc d ↦{q.left} f) ∗ (xLoc d ↦{q.right} f)) := fun q =>
    BI.Entails.antisymm (pointsTo_share (PosShare.mem_left_op_right q)).1 (pointsTo_share (PosShare.mem_left_op_right q)).2
  rw [sh fullShare, sh fullShare.left, sh fullShare.right]; rfl

/-- Twelve resources, grouped by array, regrouped by worker (workers 0 and 2 first, then 1 and 3). -/
theorem regroup (I0 I1 I2 I3 X0 X1 X2 X3 O0 O1 O2 O3 : sProp 𝕄) :
    iprop((I0 ∗ I1 ∗ I2 ∗ I3) ∗ ((X0 ∗ X1) ∗ (X2 ∗ X3)) ∗ (O0 ∗ O1 ∗ O2 ∗ O3))
      ⊣⊢ iprop(((I0 ∗ X0 ∗ O0) ∗ (I2 ∗ X2 ∗ O2)) ∗ ((I1 ∗ X1 ∗ O1) ∗ (I3 ∗ X3 ∗ O3))) := by
  constructor
  · iintro ⟨⟨Hi0, Hi1, Hi2, Hi3⟩, ⟨⟨Hx0, Hx1⟩, Hx2, Hx3⟩, Ho0, Ho1, Ho2, Ho3⟩
    isplitl [Hi0 Hx0 Ho0 Hi2 Hx2 Ho2]
    · isplitl [Hi0 Hx0 Ho0]
      · isplitl [Hi0]; · iexact Hi0
        isplitl [Hx0]; · iexact Hx0
        iexact Ho0
      · isplitl [Hi2]; · iexact Hi2
        isplitl [Hx2]; · iexact Hx2
        iexact Ho2
    · isplitl [Hi1 Hx1 Ho1]
      · isplitl [Hi1]; · iexact Hi1
        isplitl [Hx1]; · iexact Hx1
        iexact Ho1
      · isplitl [Hi3]; · iexact Hi3
        isplitl [Hx3]; · iexact Hx3
        iexact Ho3
  · iintro ⟨⟨⟨Hi0, Hx0, Ho0⟩, Hi2, Hx2, Ho2⟩, ⟨Hi1, Hx1, Ho1⟩, Hi3, Hx3, Ho3⟩
    isplitl [Hi0 Hi1 Hi2 Hi3]
    · isplitl [Hi0]; · iexact Hi0
      isplitl [Hi1]; · iexact Hi1
      isplitl [Hi2]; · iexact Hi2
      iexact Hi3
    isplitl [Hx0 Hx1 Hx2 Hx3]
    · isplitl [Hx0 Hx1]
      · isplitl [Hx0]; · iexact Hx0
        iexact Hx1
      · isplitl [Hx2]; · iexact Hx2
        iexact Hx3
    · isplitl [Ho0]; · iexact Ho0
      isplitl [Ho1]; · iexact Ho1
      isplitl [Ho2]; · iexact Ho2
      iexact Ho3

theorem wk_0_0 : wk 0 0 = 0 := rfl
theorem wk_1_0 : wk 1 0 = 1 := rfl
theorem wk_0_1 : wk 0 1 = 2 := rfl
theorem wk_1_1 : wk 1 1 = 3 := rfl

/-! ## The arrays whole are the two SparseCores' resources -/

theorem whole_eq (d : Dev nD) (a : Buf (Elt F) (iLoc d)) (b : Buf (Elt F) (xLoc d)) (o : Buf (Elt F) (oLoc d)) :
    (iprop((iLoc d ↦{fullShare} a) ∗ (xLoc d ↦{fullShare} b) ∗ (oLoc d ↦{fullShare} o)) : sProp 𝕄)
      ⊣⊢ iprop(coreRes d a b o 0 ∗ coreRes d a b o 1) := by
  unfold coreRes wRes
  rw [wk_0_0, wk_0_1, wk_1_0, wk_1_1, iPts_parts, xPts_shares, oPts_parts]
  exact regroup _ _ _ _ _ _ _ _ _ _ _ _

theorem whole_split (d : Dev nD) (a : Buf (Elt F) (iLoc d)) (b : Buf (Elt F) (xLoc d)) (o : Buf (Elt F) (oLoc d)) :
    (iprop((iLoc d ↦{fullShare} a) ∗ (xLoc d ↦{fullShare} b) ∗ (oLoc d ↦{fullShare} o)) : sProp 𝕄)
      ⊢ iprop(coreRes d a b o 0 ∗ coreRes d a b o 1) := (whole_eq d a b o).1

theorem whole_join (d : Dev nD) (a : Buf (Elt F) (iLoc d)) (b : Buf (Elt F) (xLoc d)) (o : Buf (Elt F) (oLoc d)) :
    (iprop(coreRes d a b o 0 ∗ coreRes d a b o 1) : sProp 𝕄)
      ⊢ iprop((iLoc d ↦{fullShare} a) ∗ (xLoc d ↦{fullShare} b) ∗ (oLoc d ↦{fullShare} o)) := (whole_eq d a b o).2

/-! ## The launch's conjunctions over the SparseCores and over a SparseCore's tiles -/

section Families

variable (fI : (d : Dev nD) → Buf (Elt F) (iLoc d)) (fE : (d : Dev nD) → Buf (Elt F) (xLoc d)) (fO : (d : Dev nD) → Buf (Elt F) (oLoc d))

/-- A conjunction over the call's SparseCores is over the two of them. -/
theorem bigSep_cores (Φ : Fin 2 → sProp 𝕄) :
    (bigSep Finset.univ fun c : Fin ((K (F := F)).nCore 0) => Φ (Fin.cast nCore_zero c)) = iprop(Φ 0 ∗ Φ 1) :=
  (bigSep_congr fun _ _ => congrArg Φ (Fin.ext rfl)).trans (bigSep_univ_two Φ)

/-- A conjunction over a SparseCore's tiles is over the sixteen of them. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem st_eq (d : Dev nD) :
    (bigSep Finset.univ fun c : Fin ((K (F := F)).nCore 0) => (P fI fE fO).st 0 d c)
      = iprop(coreRes d (fI d) (fE d) (fO d) 0 ∗ coreRes d (fI d) (fE d) (fO d) 1) :=
  bigSep_cores (F := F) (fun c => coreRes d (fI d) (fE d) (fO d) c)

theorem dn_eq (d : Dev nD) :
    (bigSep Finset.univ fun c : Fin ((K (F := F)).nCore 0) => (P fI fE fO).dn 0 d c)
      = iprop(coreRes d (fI d) (fE d) (HV fI fE d) 0 ∗ coreRes d (fI d) (fE d) (HV fI fE d) 1) :=
  bigSep_cores (F := F) (fun c => coreRes d (fI d) (fE d) (HV fI fE d) c)

/-- A SparseCore's sixteen tiles hold what its two workers hold: the first two tiles a worker's resources each, the
    other fourteen nothing. -/
theorem tiles_eq (d : Dev nD) (a : Buf (Elt F) (iLoc d)) (b : Buf (Elt F) (xLoc d)) (o : Buf (Elt F) (oLoc d)) (c : Fin 2) :
    (bigSep Finset.univ fun i : Fin 16 => tileRes d a b o c i) = coreRes d a b o c := by
  have hl : ∀ j : Fin 2, tileRes d a b o c (finSumFinEquiv (m := 2) (n := 14) (Sum.inl j)) = wRes d a b o (wk c j) := fun j => by
    have hj : (finSumFinEquiv (m := 2) (n := 14) (Sum.inl j)).val < 2 := j.isLt
    unfold tileRes
    rw [dif_pos hj]
    exact congrArg (fun w => wRes d a b o (wk c w)) (Fin.ext rfl)
  have hr : ∀ j : Fin 14, tileRes d a b o c (finSumFinEquiv (m := 2) (n := 14) (Sum.inr j)) = (BI.emp : sProp 𝕄) := fun j => by
    have hj : ¬ (finSumFinEquiv (m := 2) (n := 14) (Sum.inr j)).val < 2 := by
      show ¬ 2 + j.val < 2
      omega
    unfold tileRes
    rw [dif_neg hj]
    rfl
  rw [bigSep_univ_equiv (finSumFinEquiv (m := 2) (n := 14)) (fun i : Fin 16 => tileRes d a b o c i), bigSep_univ_sum,
    bigSep_congr (fun j _ => hl j), bigSep_congr (fun j _ => hr j), bigSep_emp_const, bigSep_univ_two]
  exact equiv_iff.mp sep_emp

/-- Each SparseCore's resources go to its tiles and come back from them. -/
theorem vecSplit : (K (F := F)).VecSplit' (P fI fE fO) 0 := by
  intro d c
  show coreRes d (fI d) (fE d) (fO d) (Fin.cast nCore_zero c) ⊢ |={Set.univ}=> iprop(
      (bigSep Finset.univ fun i : Fin ((K (F := F)).nSub 0) => tileRes d (fI d) (fE d) (fO d) (Fin.cast nCore_zero c) (Fin.cast nSub_zero i))
      ∗ ((bigSep Finset.univ fun i : Fin ((K (F := F)).nSub 0) => tileRes d (fI d) (fE d) (HV fI fE d) (Fin.cast nCore_zero c) (Fin.cast nSub_zero i))
          -∗ coreRes d (fI d) (fE d) (HV fI fE d) (Fin.cast nCore_zero c)))
  rw [bigSep_tiles (F := F) (fun i => tileRes d (fI d) (fE d) (fO d) (Fin.cast nCore_zero c) i),
    bigSep_tiles (F := F) (fun i => tileRes d (fI d) (fE d) (HV fI fE d) (Fin.cast nCore_zero c) i), tiles_eq, tiles_eq]
  iintro H; imodintro
  isplitl [H]; · iexact H
  iintro H; iexact H

end Families

end Cert.KernelIdeal.Hand

end
-- ==== Proof.Tile.lean ====
/-
  One tile's task of the row gather.  A tile whose worker number 2·s + c is below 4 fetches its eight index words,
  gathers the eight table rows they name into its row scratch, and writes them to its eight rows of the hidden array,
  which then hold, on those rows, the table rows the index words name; every other tile does nothing.
-/
import proofs.«217564_g44109314130489_cont_8to1_b_132_32_alg».proof.Proof.Pay
import proofs.«217564_g44109314130489_cont_8to1_b_132_32_alg».proof.Proof.TileValue
import proofs.«217564_g44109314130489_cont_8to1_b_132_32_alg».proof.Proof.Split
import proofs.«217564_g44109314130489_cont_8to1_b_132_32_alg».proof.Proof.Gen.KernelIdeal.Skeleton
import Idealize.ShloMosaic.Lib.SparseCore.Ops
import Idealize.ShloMosaic.Lib.SparseCore.Stream
import Idealize.ShloMosaic.Lib.Writes

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v0_scv : Memref Cert.KernelIdeal.sig Kind.scVector Space.hbm Cert.KernelIdeal.S32 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v1_scv : Memref Cert.KernelIdeal.sig Kind.scVector Space.hbm Cert.KernelIdeal.S32x128 EltTy.f32)
local notation "sV" => (Memref.whole Cert.KernelIdeal.cc0_scratch0 : Memref Cert.KernelIdeal.sig Kind.scVector Space.vmem Cert.KernelIdeal.S8 EltTy.i32)
local notation "rV" => (Memref.whole Cert.KernelIdeal.cc0_scratch1 : Memref Cert.KernelIdeal.sig Kind.scVector Space.vmem Cert.KernelIdeal.S8x128 EltTy.f32)

section Tile

variable (d : Dev nD) (L : grid0.Coords)

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

/-- The tile's three DMA semaphores are among its own, at zero; the rest of its own beside them. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the tile's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- An active tile's three holdings: its index words, a share of the table, its hidden rows. -/
abbrev iHeld (h : k0_cond1 L = 1#1) (fI : Buf (Elt F) (iLoc d)) : sProp 𝕄 :=
  (iRowK L h).view.loc (V d (cV L) (jV L)) ↦[(iRowK L h).view.set]{fullShare} fI
abbrev xHeld (q : PosShare TreeShare) (fE : Buf (Elt F) (xLoc d)) : sProp 𝕄 :=
  (xV).view.loc (V d (cV L) (jV L)) ↦{q} fE
abbrev oHeld (h : k0_cond1 L = 1#1) (fO : Buf (Elt F) (oLoc d)) : sProp 𝕄 :=
  (oRowK L h).view.loc (V d (cV L) (jV L)) ↦[(oRowK L h).view.set]{fullShare} fO

set_option maxHeartbeats 4000000 in
/-- The task of an active tile: the index fetch and its wait, the gather of the rows the fetched words name and its
    wait, the write-out and its wait.  Its hidden rows end at the table rows its index words name. -/
theorem tile_active (hF : (K (F := F)).Facts) (h : k0_cond1 L = 1#1) (fI : Buf (Elt F) (iLoc d)) (fE : Buf (Elt F) (xLoc d)) (fO : Buf (Elt F) (oLoc d))
    (hI : ∀ j : S32.Idx, (fI j).toNat < 100000) (q : PosShare TreeShare)
    (O : CellTallies nD τ sig (HIx 1)) (W : Waits sig (HIx 1)) (hO : ∀ g, O g none = 0) :
    iprop(levAts (K (F := F)).L (K (F := F)).lev ∗ emp
        ∗ (iHeld d L h fI ∗ xHeld d L q fE ∗ oHeld d L h fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L iV (Memref.isWhole_whole _) xV (Memref.isWhole_whole _) oV (Memref.isWhole_whole _)
            sV (Memref.isWhole_whole _) rV (Memref.isWhole_whole _) cc0_scratch2 cc0_scoped0 cc0_scoped1)
          fun _ => iprop((iHeld d L h fI ∗ xHeld d L q fE ∗ oHeld d L h (hidV fI fE))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [dif_pos h]
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (show ((V d (cV L) (jV L)).loc cc0_scratch0 ↦{fullShare} fs : sProp 𝕄) = ((sV).view.loc (V d (cV L) (jV L)) ↦{fullShare} fs) from rfl)) $$ Hs
  ihave Hr' := (Entails.of_eq (show ((V d (cV L) (jV L)).loc cc0_scratch1 ↦{fullShare} fr : sProp 𝕄) = ((rV).view.loc (V d (cV L) (jV L)) ↦{fullShare} fr) from rfl)) $$ Hr
  sl_exec
  -- the gather: a share of the table's elements, the row scratch, the fetched list whole, the gather's semaphore at zero
  ihave Hxs := (pointsTo_split_subset (q := q) (f := fE) (S := Finset.univ) (Finset.subset_univ (xAllK).view.set)).1 $$ Hx
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_active.sl.dma0 d L h fI) Finset.univ : sProp 𝕄)
      = (sV).view.loc (V d (cV L) (jV L)) ↦[(sV).view.set]{fullShare} View.write (Elt F) (sV).view fs (tile_active.sl.dma0 d L h fI) Finset.univ
      by rw [hss])) $$ Hs'
  have hN : ∀ hg : S100000x128.Gathers 0 S8x128, ∑ j, ((rV).slice (S8x128.rowRect hg.axis' j) (S8x128.stride_rowRect hg.axis' j)).view.dmaCredit
      = (rV).view.dmaCredit := by decide
  have hin : ∀ x, ((sV).view.read (Elt F) (View.write (Elt F) (sV).view fs (tile_active.sl.dma0 d L h fI) Finset.univ) x).toNat
      < S100000x128.size gathers_S100000x128_S8x128.axis := by
    intro x
    rw [View.write_whole_univ]
    simp only [Memref.view_whole, View.read_whole]
    show ((iRowK L h).view.read (Elt F) fI x).toNat < _
    rw [show (iRowK L h).view.read (Elt F) fI x = fI ((iRowK L h).view.emb x) from (View.read_apply _ _).trans (cast_eq _ _)]
    exact hI _
  iapply (SparseCore.wp_indirectGatherLocal countersEmb 𝒱₀ (V d (cV L) (jV L)) none (hg := gathers_S100000x128_S8x128) (default : HIx 1)
      (rV).view.dmaCredit (hN _) (by decide) hin) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemA, HO⟩
  ihave Hx' := (pointsTo_split_subset (q := q) (f := fE) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the hidden rows: what was written is, on the tile's rows, the table rows the index words name
  have hw : ∀ y, tile_active.sl.dma0_1 d L h fI fE fs fr hin y = hidV fI fE ((oRowK L h).view.emb y) := fun y => by
    unfold tile_active.sl.dma0_1
    rw [View.write_whole_univ]
    simp only [Memref.view_whole, View.read_whole]
    exact gathered_eq d L h fI fE hI fs _ hin y
  ihave Ho' := (Entails.of_eq (pointsTo_congr (written_eq d L h fI fE hI fO _ hw))) $$ Ho
  isplitl [Hi Hx' Ho']
  · isplitl [Hi]; · iexact Hi
    isplitl [Hx']; · iexact Hx'
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The task of an idle tile: nothing. -/
theorem tile_idle (h : ¬ k0_cond1 L = 1#1) (R : sProp 𝕄) :
    R ⊢ wp frame (wpE (defs₀ (F := F)) 𝒱₀ (V d (cV L) (jV L)) none) Set.univ
          (cc0_gather_k L iV (Memref.isWhole_whole _) xV (Memref.isWhole_whole _) oV (Memref.isWhole_whole _)
            sV (Memref.isWhole_whole _) rV (Memref.isWhole_whole _) cc0_scratch2 cc0_scoped0 cc0_scoped1)
          fun _ => R := by
  simp only [cc0_gather_k_eq_skeleton]; unfold cc0_gather_k_skel
  rw [dif_neg h]
  iintro H
  sl_exec
  sl_step
  iexact H

end Tile

/-! ## The obligation -/

section Obl

variable [FloatOps F]
variable (fI : (d : Dev nD) → Buf (Elt F) (iLoc d)) (fE : (d : Dev nD) → Buf (Elt F) (xLoc d)) (fO : (d : Dev nD) → Buf (Elt F) (oLoc d))

theorem defs₀_vector (c : Fin τ.nSC) (s : Fin τ.nSub) :
    defs₀ (F := F) (.scVector c s) 0 ()
      = SparseCore.onTile hcore0 hsub0 (fun c s => cc0_gather_k (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- An active tile's holdings are its worker's parts. -/
theorem held_eq (d : Dev nD) (L : grid0.Coords) (h : k0_cond1 L = 1#1) (h2 : (L 1).val < 2) (a : Buf (Elt F) (iLoc d)) (b : Buf (Elt F) (xLoc d)) (o : Buf (Elt F) (oLoc d)) :
    (iprop(iHeld d L h a ∗ xHeld d L (xq (wk (Fin.cast bound0 (L 0)) ⟨(L 1).val, h2⟩)) b ∗ oHeld d L h o) : sProp 𝕄)
      = wRes d a b o (wk (Fin.cast bound0 (L 0)) ⟨(L 1).val, h2⟩) := by
  unfold iHeld oHeld
  rw [set_iRowK L h h2, set_oRowK L h h2]

omit [FloatOps F] in
theorem idle_post {thr : Thread nD τ} {A X B C : sProp 𝕄} {O : CellTallies nD τ sig (HIx 1)} {W : Waits sig (HIx 1)} {q : Fin 1} :
    iprop(A ∗ X ∗ emp ∗ B ∗ C ∗ owes thr O W)
      ⊢ iprop(emp ∗ B ∗ C ∗ ∃ W', ⌜∀ p ∈ W', p ∈ W ∨ p.2 = none ∨ p.2 = some q⌝ ∗ owes thr O W') := by
  iintro ⟨-, -, -, Hb, Hs, HO⟩
  isplitr; · iempintro
  isplitl [Hb]; · iexact Hb
  isplitl [Hs]; · iexact Hs
  iexists W; isplitr
  · ipureintro; exact fun p hp => Or.inl hp
  · iexact HO

set_option maxRecDepth 16384 in
theorem tileObl (hF : (K (F := F)).Facts) (hI : ∀ d (j : S32.Idx), (fI d j).toNat < 100000) :
    (K (F := F)).TileObl (D (F := F)) 𝒱 (P fI fE fO) v₀ 0 := by
  intro d c i O W hO _ _
  simp only [show (P fI fE fO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h2 : i.val < 2
  · -- a worker's tile
    have hc : k0_cond1 (coordsV ⟨_, hci.1⟩ ⟨_, hci.2⟩) = 1#1 := (cond_iff _).mpr h2
    have hgo : (P fI fE fO).go 0 d c i
        = iprop(iHeld d (coordsV ⟨_, hci.1⟩ ⟨_, hci.2⟩) hc (fI d)
            ∗ xHeld d (coordsV ⟨_, hci.1⟩ ⟨_, hci.2⟩) (xq (wk (Fin.cast bound0 ((coordsV ⟨_, hci.1⟩ ⟨_, hci.2⟩ : grid0.Coords) 0)) ⟨_, h2⟩)) (fE d)
            ∗ oHeld d (coordsV ⟨_, hci.1⟩ ⟨_, hci.2⟩) hc (fO d)) := by
      show tileRes d (fI d) (fE d) (fO d) (Fin.cast nCore_zero c) (Fin.cast nSub_zero i) = _
      unfold tileRes; rw [dif_pos (show (Fin.cast nSub_zero i).val < 2 from h2)]
      exact (held_eq d (coordsV ⟨_, hci.1⟩ ⟨_, hci.2⟩) hc h2 (fI d) (fE d) (fO d)).symm
    have htd : (P fI fE fO).td 0 d c i
        = iprop(iHeld d (coordsV ⟨_, hci.1⟩ ⟨_, hci.2⟩) hc (fI d)
            ∗ xHeld d (coordsV ⟨_, hci.1⟩ ⟨_, hci.2⟩) (xq (wk (Fin.cast bound0 ((coordsV ⟨_, hci.1⟩ ⟨_, hci.2⟩ : grid0.Coords) 0)) ⟨_, h2⟩)) (fE d)
            ∗ oHeld d (coordsV ⟨_, hci.1⟩ ⟨_, hci.2⟩) hc (HV fI fE d)) := by
      show tileRes d (fI d) (fE d) (HV fI fE d) (Fin.cast nCore_zero c) (Fin.cast nSub_zero i) = _
      unfold tileRes; rw [dif_pos (show (Fin.cast nSub_zero i).val < 2 from h2)]
      exact (held_eq d (coordsV ⟨_, hci.1⟩ ⟨_, hci.2⟩) hc h2 (fI d) (fE d) (HV fI fE d)).symm
    rw [hgo, htd]
    exact (tile_active d (coordsV ⟨_, hci.1⟩ ⟨_, hci.2⟩) hF hc (fI d) (fE d) (fO d) (hI d) _ O W hO).trans (wp_mono frame _ _ fun _ => obl_post)
  · -- an idle tile
    have hc : ¬ k0_cond1 (coordsV ⟨_, hci.1⟩ ⟨_, hci.2⟩) = 1#1 := fun e => h2 ((cond_iff _).mp e)
    have hgo : (P fI fE fO).go 0 d c i = iprop(emp) := by
      show tileRes d (fI d) (fE d) (fO d) (Fin.cast nCore_zero c) (Fin.cast nSub_zero i) = _
      unfold tileRes; rw [dif_neg (show ¬ (Fin.cast nSub_zero i).val < 2 from h2)]
    have htd : (P fI fE fO).td 0 d c i = iprop(emp) := by
      show tileRes d (fI d) (fE d) (HV fI fE d) (Fin.cast nCore_zero c) (Fin.cast nSub_zero i) = _
      unfold tileRes; rw [dif_neg (show ¬ (Fin.cast nSub_zero i).val < 2 from h2)]
    rw [hgo, htd]
    exact (tile_idle d (coordsV ⟨_, hci.1⟩ ⟨_, hci.2⟩) hc _).trans (wp_mono frame _ _ fun _ => idle_post)

end Obl

end Cert.KernelIdeal.Hand

end
-- ==== Proof.RegionIface.lean ====
/-
  The projection's region as the launch meets it.  Before it the TensorCore holds its eight arrays at the contents the
  gather and the two reshapes left, owes nothing, and its recorded waits sit at the handshakes' levels; after it the
  same, with the result array at contents of which a stated property holds.
-/
import proofs.«217564_g44109314130489_cont_8to1_b_132_32_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- One of the TensorCore's arrays, whole, at contents `f`. -/
abbrev pl (d : Dev nD) (b : Ref sig .tc) (f : Buf (Elt F) ((SparseCore.T d : Thread nD τ).loc b)) : sProp 𝕄 :=
  (SparseCore.T d : Thread nD τ).loc b ↦{fullShare} f

/-- The pairs a TensorCore's waits may have recorded by the time the projection runs: those at the handshakes' levels. -/
def lowPairs (d : Dev nD) : Set (SemLoc sig × HIx 1) := {p | (K (F := F)).lev ((SparseCore.T d : Thread nD τ), p.1) p.2 ≤ 8}

variable (mr : (ℓ : Loc nD τ sig) → Buf (Elt F) ℓ)

/-- The eight arrays at the contents `mr`, but the result's at `G`. -/
def bufsAt (d : Dev nD) (G : Buf (Elt F) ((SparseCore.T d : Thread nD τ).loc main_v3)) : sProp 𝕄 :=
  iprop(pl d main_arg0 (mr _) ∗ pl d main_arg1 (mr _) ∗ pl d main_arg2 (mr _) ∗ pl d main_arg3 (mr _)
    ∗ pl d main_v0 (mr _) ∗ pl d main_v1 (mr _) ∗ pl d main_v2 (mr _) ∗ pl d main_v3 G)

/-- The TensorCore owing nothing, its recorded waits at the handshakes' levels. -/
def owesLow (d : Dev nD) : sProp 𝕄 :=
  iprop(∃ W : Waits sig (HIx 1), ⌜(↑W : Set (SemLoc sig × HIx 1)) ⊆ lowPairs (F := F) d⌝ ∗ owes (SparseCore.T d : Thread nD τ) 0 W)

/-- Before the region, and after it. -/
def regPre (d : Dev nD) : sProp 𝕄 := iprop(bufsAt mr d (mr _) ∗ owesLow (F := F) d)
def regPost (OUTP : (d : Dev nD) → Buf (Elt F) ((SparseCore.T d : Thread nD τ).loc main_v3) → Prop) (d : Dev nD) : sProp 𝕄 :=
  iprop((∃ G, ⌜OUTP d G⌝ ∗ bufsAt mr d G) ∗ owesLow (F := F) d)

/-- What @main leaves the claim: the four arguments at their launch contents `m`, the result at contents of which
    `OUTP` holds. -/
def FIN (m : (ℓ : Loc nD τ sig) → Buf (Elt F) ℓ)
    (OUTP : (d : Dev nD) → Buf (Elt F) ((SparseCore.T d : Thread nD τ).loc main_v3) → Prop) (d : Dev nD) : sProp 𝕄 :=
  iprop(pl d main_arg0 (m _) ∗ pl d main_arg1 (m _) ∗ pl d main_arg2 (m _) ∗ pl d main_arg3 (m _) ∗ ∃ G, ⌜OUTP d G⌝ ∗ pl d main_v3 G)

/-- The same read of a final state. -/
def fq (m : (ℓ : Loc nD τ sig) → Buf (Elt F) ℓ)
    (OUTP : (d : Dev nD) → Buf (Elt F) ((SparseCore.T d : Thread nD τ).loc main_v3) → Prop) (d : Dev nD) (s' : Phys nD τ sig (Elt F)) : Prop :=
  s'.mem.mem ((SparseCore.T d : Thread nD τ).loc main_arg0) = m _ ∧ s'.mem.mem ((SparseCore.T d : Thread nD τ).loc main_arg1) = m _
    ∧ s'.mem.mem ((SparseCore.T d : Thread nD τ).loc main_arg2) = m _ ∧ s'.mem.mem ((SparseCore.T d : Thread nD τ).loc main_arg3) = m _
    ∧ OUTP d (s'.mem.mem ((SparseCore.T d : Thread nD τ).loc main_v3))

variable [FloatOps F]

/-- The region's step: the call of the projection's pipeline, from the boundary, the state before, the level facts and the
    pipeline's ghost state, to the boundary and the state after, around any continuation. -/
def RegionStep (OUTP : (d : Dev nD) → Buf (Elt F) ((SparseCore.T d : Thread nD τ).loc main_v3) → Prop) : Prop :=
  ∀ (d : Dev nD) {α : Type} (k : PUnit → Prog (TpuEff nD τ sig (Elt F) (ΛP (F := F)) .tc) α) (Q : α → sProp 𝕄),
    iprop((iprop(boundary (SparseCore.T d : Thread nD τ) ∗ regPost mr OUTP d) -∗ wp frame (wpE (D (F := F)) 𝒱 (SparseCore.T d) none) Set.univ (k ⟨⟩) Q)
        ∗ boundary (SparseCore.T d : Thread nD τ) ∗ regPre mr d ∗ levAts (K (F := F)).L (K (F := F)).lev
        ∗ Pipeline.cellsGhost (Pipeline.pin (pcfgs (F := F)) (fun p => (cfgs p).toPCfg_adm)) EP 0 d
        ∗ Pipeline.toksInit (Pipeline.pin (pcfgs (F := F)) (fun p => (cfgs p).toPCfg_adm)) EP 0 d)
      ⊢ wp frame (wpE (D (F := F)) 𝒱 (SparseCore.T d) none) Set.univ (.op (.customCall (Pipeline.entry 0) ()) k) Q

end Cert.KernelIdeal.Hand

end
-- ==== Proof.Arrays.lean ====
/-
  The TensorCore's arrays at the two ends of the program.  The arrays that live across regions are exactly the four
  arguments and the four values of the program, so what the launch deals the TensorCore of them is the chain of the eight,
  each whole; and what the program leaves of them — the four arguments at their launch contents, the result at contents of
  which a stated property holds — is read off the final state, since a whole array held at given contents is the
  physical array.
-/
import proofs.«217564_g44109314130489_cont_8to1_b_132_32_alg».proof.Proof.Common
import proofs.«217564_g44109314130489_cont_8to1_b_132_32_alg».proof.Proof.RegionIface
import proofs.«217564_g44109314130489_cont_8to1_b_132_32_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays the launch deals -/

/-- The arrays of the TensorCore that are not scoped are the eight of the program, so holding them all is holding the
    chain of the eight. -/
theorem unscopedBufs_eq (d : Dev nD) (W : (b : Ref sig .tc) → Buf (Elt F) ((SparseCore.T d : Thread nD τ).loc b)) :
    (unscopedBufs d W : sProp 𝕄)
      = iprop(pl d main_arg0 (W main_arg0) ∗ pl d main_arg1 (W main_arg1) ∗ pl d main_arg2 (W main_arg2) ∗ pl d main_arg3 (W main_arg3)
          ∗ pl d main_v0 (W main_v0) ∗ pl d main_v1 (W main_v1) ∗ pl d main_v2 (W main_v2) ∗ pl d main_v3 (W main_v3)) := by
  unfold unscopedBufs
  rw [show (Finset.univ.filter fun b : Ref sig .tc => ¬ b.isScoped)
        = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- At contents that are 'mr' everywhere but 'G' at the result array, that chain is 'bufsAt'. -/
theorem unscopedBufs_bufsAt (mr : (ℓ : Loc nD τ sig) → Buf (Elt F) ℓ) (d : Dev nD)
    (G : Buf (Elt F) ((SparseCore.T d : Thread nD τ).loc main_v3)) :
    (unscopedBufs d (fun b => Function.update (fun b' => mr ((SparseCore.T d : Thread nD τ).loc b')) main_v3 G b) : sProp 𝕄)
      = bufsAt mr d G := by
  have h0 : main_arg0 ≠ main_v3 := by decide
  have h1 : main_arg1 ≠ main_v3 := by decide
  have h2 : main_arg2 ≠ main_v3 := by decide
  have h3 : main_arg3 ≠ main_v3 := by decide
  have h4 : main_v0 ≠ main_v3 := by decide
  have h5 : main_v1 ≠ main_v3 := by decide
  have h6 : main_v2 ≠ main_v3 := by decide
  rw [unscopedBufs_eq]
  unfold bufsAt
  simp only [Function.update_of_ne h0, Function.update_of_ne h1, Function.update_of_ne h2, Function.update_of_ne h3,
    Function.update_of_ne h4, Function.update_of_ne h5, Function.update_of_ne h6, Function.update_self]

/-! ## Reading the end -/

set_option maxRecDepth 16384 in
/-- What the program leaves, held beside the state interpretation of a final state, says of that state: each argument's
    physical array is its launch contents, and the stated property holds of the result's physical array (the contents it is
    held at are the physical ones, so the property moves along that equation). -/
theorem hfin (m : (ℓ : Loc nD τ sig) → Buf (Elt F) ℓ)
    (OUTP : (d : Dev nD) → Buf (Elt F) ((SparseCore.T d : Thread nD τ).loc main_v3) → Prop) (d : Dev nD)
    (s' : Phys nD τ sig (Elt F)) : iprop(FIN m OUTP d ∗ SI s') ⊢ (⌜fq m OUTP d s'⌝ : sProp 𝕄) := by
  unfold FIN
  iintro ⟨⟨H0, H1, H2, H3, %G, %hG, H4⟩, HSI⟩
  ihave H := (persistent_entails_right (SI_pointsTo_agree (st := s') (ℓ := (SparseCore.T d : Thread nD τ).loc main_arg0) (I := Finset.univ) (q := fullShare) (f := m _))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := m _))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := m _))) $$ [HSI H2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare) (f := m _))) $$ [HSI H3]
  · isplitl [HSI] <;> iassumption
  icases H with ⟨%h3, HSI, -⟩
  ihave H := (SI_pointsTo_agree (st := s') (ℓ := (SparseCore.T d : Thread nD τ).loc main_v3) (I := Finset.univ) (q := fullShare) (f := G)) $$ [HSI H4]
  · isplitl [HSI] <;> iassumption
  icases H with %h4
  ipureintro
  have hG' : s'.mem.mem ((SparseCore.T d : Thread nD τ).loc main_v3) = G := funext fun i => h4 i (Finset.mem_univ i)
  exact ⟨funext fun i => h0 i (Finset.mem_univ i), funext fun i => h1 i (Finset.mem_univ i),
    funext fun i => h2 i (Finset.mem_univ i), funext fun i => h3 i (Finset.mem_univ i), hG' ▸ hG⟩

end Cert.KernelIdeal.Hand

end
-- ==== Proof.LaunchElem.lean ====
/-
  The launch element of the ghost state, and what it pays for.

  The ghost state has three components side by side: the rounds of the handshakes between the TensorCore, the sequencers
  and the tiles; the rounds of the projection's staging semaphores; and the counters of the tiles' own copies.  At launch
  the first holds the handshakes' cells and duties, the second the staging cells and the duties of the transfers the
  projection's loop issues, the third nothing.  Owning the element is owning each component through its embedding; the
  first is handed on as it stands, the second funds, device by device, the launch state of each staging cell and the
  tokens of the loop's transfers, and the third is dropped.
-/
import proofs.«217564_g44109314130489_cont_8to1_b_132_32_alg».proof.Proof.Common
import proofs.«217564_g44109314130489_cont_8to1_b_132_32_alg».proof.Proof.RegionIface
import proofs.«217564_g44109314130489_cont_8to1_b_132_32_alg».proof.Proof.Pay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- No two staging buffers of the projection complete on one semaphore: the projection prefetches no table, so at its one
    admissible table contents it is the configuration the distinctness was decided for. -/
theorem launch_inj :
    Function.Injective (Pipeline.cellOf (nD := nD) (τ := τ) (Pipeline.pin (pcfgs (F := F)) (fun p => (cfgs p).toPCfg_adm))) :=
  cellOf_inj

/-- The launch element: the handshakes' cells and duties; the staging cells and the loop's transfers; no counter. -/
def u₀ : UU :=
  (initOf (K (F := F)).hsCells (K (F := F)).hsToks,
    (initOf (Pipeline.cells (Pipeline.pin (pcfgs (F := F)) (fun p => (cfgs p).toPCfg_adm)) (launch_inj (F := F)))
        (Pipeline.launchToks (Pipeline.pin (pcfgs (F := F)) (fun p => (cfgs p).toPCfg_adm)) (launch_inj (F := F))),
      (1 : Counters)))

/-- What device 'd' is dealt of the staging cells' ghost state: each cell's launch state, and the tokens of the transfers
    the loop issues. -/
def Gd (d : Dev nD) : sProp 𝕄 :=
  iprop(Pipeline.cellsGhost (Pipeline.pin (pcfgs (F := F)) (fun p => (cfgs p).toPCfg_adm)) EP 0 d
    ∗ Pipeline.toksInit (Pipeline.pin (pcfgs (F := F)) (fun p => (cfgs p).toPCfg_adm)) EP 0 d)

/-- The staging semaphores' component reached by first splitting off the handshakes' and then the counters' is the one
    reached through its own embedding: both are the same composite of injections. -/
theorem own_EP (a : UP) :
    (BI.own (((Emb.inl : Emb UP (UP × Counters)).trans (embR : Emb (UP × Counters) 𝕄)) a) : sProp 𝕄) ⊢ BI.own ((EP : Emb UP 𝕄) a) :=
  Entails.of_eq rfl

theorem bigSep_emp' {I : Type} (s : Finset I) : (bigSep s fun _ => iprop(emp)) = (iprop(emp) : sProp 𝕄) := bigSep_emp_const s

variable (fI : (d : Dev nD) → Buf (Elt F) (iLoc d)) (fE : (d : Dev nD) → Buf (Elt F) (xLoc d)) (fO : (d : Dev nD) → Buf (Elt F) (oLoc d))

/-- Owning the launch element pays for the handshakes' rounds, every device's share of the staging cells' ghost state, and
    the (empty) extra holdings of every thread. -/
theorem hu₀ : (ownU (u₀ (F := F)) : sProp 𝕄)
    ⊢ |={Set.univ}=> iprop(BI.own (EH (initOf (K (F := F)).hsCells (K (F := F)).hsToks))
        ∗ (bigSep Finset.univ fun d : Dev nD => Gd d)
        ∗ bigSep Finset.univ fun thr : Thread nD τ => bigSep Finset.univ fun q : Fin 1 => (P fI fE fO).x q thr) := by
  unfold u₀
  iintro Hu
  ihave H := (ownU_pair (initOf (K (F := F)).hsCells (K (F := F)).hsToks)
    (initOf (Pipeline.cells (Pipeline.pin (pcfgs (F := F)) (fun p => (cfgs p).toPCfg_adm)) (launch_inj (F := F)))
        (Pipeline.launchToks (Pipeline.pin (pcfgs (F := F)) (fun p => (cfgs p).toPCfg_adm)) (launch_inj (F := F))),
      (1 : Counters))) $$ Hu
  icases H with ⟨HH, HR⟩
  ihave H2 := (own_pair_emb (embR : Emb (UP × Counters) 𝕄)
    (initOf (Pipeline.cells (Pipeline.pin (pcfgs (F := F)) (fun p => (cfgs p).toPCfg_adm)) (launch_inj (F := F)))
        (Pipeline.launchToks (Pipeline.pin (pcfgs (F := F)) (fun p => (cfgs p).toPCfg_adm)) (launch_inj (F := F))))
    (1 : Counters)) $$ HR
  icases H2 with ⟨HP, -⟩
  ihave HQ := (own_EP (F := F) _) $$ HP
  imod (Pipeline.fund_ghost (Pipeline.pin (pcfgs (F := F)) (fun p => (cfgs p).toPCfg_adm)) EP (launch_inj (F := F))) $$ HQ with ⟨Hg, Ht⟩
  imodintro
  isplitl [HH]; · iexact HH
  isplitl [Hg Ht]
  · have eg : (bigSep Finset.univ fun d : Dev nD => bigSep Finset.univ fun p : Fin 1 =>
          Pipeline.cellsGhost (Pipeline.pin (pcfgs (F := F)) (fun p => (cfgs p).toPCfg_adm)) EP p d : sProp 𝕄)
        = bigSep Finset.univ fun d : Dev nD => Pipeline.cellsGhost (Pipeline.pin (pcfgs (F := F)) (fun p => (cfgs p).toPCfg_adm)) EP 0 d :=
      bigSep_congr fun _ _ => bigSep_univ_of_subsingleton (0 : Fin 1)
    have et : (bigSep Finset.univ fun d : Dev nD => bigSep Finset.univ fun p : Fin 1 =>
          Pipeline.toksInit (Pipeline.pin (pcfgs (F := F)) (fun p => (cfgs p).toPCfg_adm)) EP p d : sProp 𝕄)
        = bigSep Finset.univ fun d : Dev nD => Pipeline.toksInit (Pipeline.pin (pcfgs (F := F)) (fun p => (cfgs p).toPCfg_adm)) EP 0 d :=
      bigSep_congr fun _ _ => bigSep_univ_of_subsingleton (0 : Fin 1)
    unfold Gd
    rw [bigSep_sep']
    isplitl [Hg]
    · ihave Hg' := (Entails.of_eq eg) $$ Hg
      iexact Hg'
    · ihave Ht' := (Entails.of_eq et) $$ Ht
      iexact Ht'
  rw [show (bigSep Finset.univ fun thr : Thread nD τ => bigSep Finset.univ fun q : Fin 1 => (P (F := F) fI fE fO).x q thr) = bigSep Finset.univ fun _ => iprop(emp) from
    bigSep_congr fun _ _ => bigSep_univ_of_subsingleton (0 : Fin 1), bigSep_emp']
  iempintro

end Cert.KernelIdeal.Hand

end
-- ==== Proof.Launch.lean ====
/-
  The kernel program's run.  @main on the TensorCore: the index argument reshaped to a [32] array; the row gather on
  the SparseCores (the index array, the table and the hidden array out to the four workers and back, the hidden array
  then holding the table rows the index words name); the bias reshaped to a [1, 100000] row; the projection's region.
  From any memory whose index words name table rows, every weakly fair execution of the whole family of threads
  terminates, the four arguments end as they began, and the result array ends at contents of which the region's stated
  property holds.
-/
import proofs.«217564_g44109314130489_cont_8to1_b_132_32_alg».proof.Proof.Tile
import proofs.«217564_g44109314130489_cont_8to1_b_132_32_alg».proof.Proof.Split
import proofs.«217564_g44109314130489_cont_8to1_b_132_32_alg».proof.Proof.Arrays
import proofs.«217564_g44109314130489_cont_8to1_b_132_32_alg».proof.Proof.LaunchElem
import proofs.«217564_g44109314130489_cont_8to1_b_132_32_alg».proof.Proof.RegionIface
import Idealize.ShloMosaic.Lib.SparseCore.Launch
import Idealize.ShloMosaic.Lib.StableHlo.Run

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## @main on the TensorCore -/

section Main

variable [FloatOps F]
variable (m : (ℓ : Loc nD τ sig) → Buf (Elt F) ℓ) (ρ : Dev nD → PrngReg)

/-- The launch valuation of device `d`. -/
def V0 (d : Dev nD) : Valuation τ sig (Elt F) := fun b => m (d, b)

/-- The two reshapes of @main. -/
abbrev op0 : HloOp τ sig (Elt F) := StableHlo.reshape main_arg0 main_v0 rfl shapeCasts_S32x1_S32
abbrev op1 : HloOp τ sig (Elt F) := StableHlo.reshape main_arg3 main_v2 rfl shapeCasts_S100000_S1x100000

/-- The index array after the first reshape; the bias row after the second. -/
def I0 (d : Dev nD) : Buf (Elt F) (iLoc d) := (op0 (F := F)).result (V0 m d) (Proc.devRef .tc main_v0)
def B2 (d : Dev nD) : Buf (Elt F) ((SparseCore.T d : Thread nD τ).loc main_v2) := (op1 (F := F)).result (V0 m d) (Proc.devRef .tc main_v2)

/-- The hidden array after the gather. -/
abbrev H1 (d : Dev nD) : Buf (Elt F) (oLoc d) := HV (I0 m) (fun d => m (xLoc d)) d

/-- The memory the projection's region is entered from. -/
def mrV (d : Dev nD) : Valuation τ sig (Elt F) :=
  Function.update (Function.update (Function.update (V0 m d) (Proc.devRef .tc main_v0) (I0 m d)) (Proc.devRef .tc main_v1) (H1 m d)) (Proc.devRef .tc main_v2) (B2 m d)
def mr : (ℓ : Loc nD τ sig) → Buf (Elt F) ℓ := fun ℓ => mrV m ℓ.1 ℓ.2

theorem held_pair (d : Dev nD) (x y : Ref sig .tc) (hxy : (Proc.devRef .tc x : DevRef τ sig) ≠ Proc.devRef .tc y) (V : Valuation τ sig (Elt F)) :
    (held (SparseCore.T d) ({(Proc.devRef .tc x : DevRef τ sig), Proc.devRef .tc y} : Finset (DevRef τ sig)) V : sProp 𝕄)
      = iprop(pl d x (V (Proc.devRef .tc x)) ∗ pl d y (V (Proc.devRef .tc y))) := by
  unfold held
  rw [SparseCore.bigSep_insert' (by simpa using hxy), bigSep_singleton]

theorem ne_v0_v1 : (Proc.devRef .tc main_v0 : DevRef τ sig) ≠ Proc.devRef .tc main_v1 := by decide
theorem ne_v0_v2 : (Proc.devRef .tc main_v0 : DevRef τ sig) ≠ Proc.devRef .tc main_v2 := by decide
theorem ne_v1_v2 : (Proc.devRef .tc main_v1 : DevRef τ sig) ≠ Proc.devRef .tc main_v2 := by decide

/-- The region's entry memory off the three arrays the gather and the reshapes wrote is the launch memory. -/
theorem mr_other (d : Dev nD) (b : Ref sig .tc) (h0 : (Proc.devRef .tc b : DevRef τ sig) ≠ Proc.devRef .tc main_v0)
    (h1 : (Proc.devRef .tc b : DevRef τ sig) ≠ Proc.devRef .tc main_v1) (h2 : (Proc.devRef .tc b : DevRef τ sig) ≠ Proc.devRef .tc main_v2) :
    mr m ((SparseCore.T d : Thread nD τ).loc b) = m ((SparseCore.T d : Thread nD τ).loc b) := by
  show mrV m d (Proc.devRef .tc b) = _
  unfold mrV
  rw [Function.update_of_ne h2, Function.update_of_ne h1, Function.update_of_ne h0]; rfl
theorem mr_v0 (d : Dev nD) : mr m ((SparseCore.T d : Thread nD τ).loc main_v0) = I0 m d := by
  show mrV m d (Proc.devRef .tc main_v0) = _
  unfold mrV
  rw [Function.update_of_ne ne_v0_v2, Function.update_of_ne ne_v0_v1, Function.update_self]
theorem mr_v1 (d : Dev nD) : mr m ((SparseCore.T d : Thread nD τ).loc main_v1) = H1 m d := by
  show mrV m d (Proc.devRef .tc main_v1) = _
  unfold mrV
  rw [Function.update_of_ne ne_v1_v2, Function.update_self]
theorem mr_v2 (d : Dev nD) : mr m ((SparseCore.T d : Thread nD τ).loc main_v2) = B2 m d := by
  show mrV m d (Proc.devRef .tc main_v2) = _
  unfold mrV
  rw [Function.update_self]

theorem op0_arg0 (d : Dev nD) : (op0 (F := F)).result (V0 m d) (Proc.devRef .tc main_arg0) = m ((SparseCore.T d : Thread nD τ).loc main_arg0) :=
  (op0 (F := F)).result_of_not_mem (V0 m d) (b := Proc.devRef .tc main_arg0) (show (Proc.devRef .tc main_arg0 : DevRef τ sig) ∉ ({Proc.devRef .tc main_v0} : Finset (DevRef τ sig)) by decide)
theorem op1_arg3 (d : Dev nD) : (op1 (F := F)).result (V0 m d) (Proc.devRef .tc main_arg3) = m ((SparseCore.T d : Thread nD τ).loc main_arg3) :=
  (op1 (F := F)).result_of_not_mem (V0 m d) (b := Proc.devRef .tc main_arg3) (show (Proc.devRef .tc main_arg3 : DevRef τ sig) ∉ ({Proc.devRef .tc main_v2} : Finset (DevRef τ sig)) by decide)

/-- The arrays before the region, from the eight as @main holds them there. -/
theorem bufsAt_intro (d : Dev nD) :
    (iprop(pl d main_arg0 ((op0 (F := F)).result (V0 m d) (Proc.devRef .tc main_arg0)) ∗ pl d main_arg1 (m (xLoc d)) ∗ pl d main_arg2 (m ((SparseCore.T d : Thread nD τ).loc main_arg2))
        ∗ pl d main_arg3 ((op1 (F := F)).result (V0 m d) (Proc.devRef .tc main_arg3)) ∗ pl d main_v0 (I0 m d) ∗ pl d main_v1 (H1 m d)
        ∗ pl d main_v2 ((op1 (F := F)).result (V0 m d) (Proc.devRef .tc main_v2)) ∗ pl d main_v3 (m ((SparseCore.T d : Thread nD τ).loc main_v3))) : sProp 𝕄)
      = bufsAt (mr m) d (mr m _) := by
  unfold bufsAt
  rw [mr_other m d main_arg0 (by decide) (by decide) (by decide), mr_other m d main_arg1 (by decide) (by decide) (by decide),
    mr_other m d main_arg2 (by decide) (by decide) (by decide), mr_other m d main_arg3 (by decide) (by decide) (by decide),
    mr_other m d main_v3 (by decide) (by decide) (by decide), mr_v0, mr_v1, mr_v2, op0_arg0, op1_arg3]
  rfl

/-- After the region: the four arguments at their launch contents and the result, out of the eight. -/
theorem bufsAt_FIN (OUTP : (d : Dev nD) → Buf (Elt F) ((SparseCore.T d : Thread nD τ).loc main_v3) → Prop) (d : Dev nD)
    (G : Buf (Elt F) ((SparseCore.T d : Thread nD τ).loc main_v3)) (hG : OUTP d G) :
    bufsAt (mr m) d G ⊢ (FIN m OUTP d : sProp 𝕄) := by
  unfold bufsAt FIN
  rw [mr_other m d main_arg0 (by decide) (by decide) (by decide), mr_other m d main_arg1 (by decide) (by decide) (by decide),
    mr_other m d main_arg2 (by decide) (by decide) (by decide), mr_other m d main_arg3 (by decide) (by decide) (by decide)]
  iintro ⟨Ha0, Ha1, Ha2, Ha3, -, -, -, Hv3⟩
  isplitl [Ha0]; · iexact Ha0
  isplitl [Ha1]; · iexact Ha1
  isplitl [Ha2]; · iexact Ha2
  isplitl [Ha3]; · iexact Ha3
  iexists G; isplitr; · ipureintro; exact hG
  iexact Hv3

theorem held_op0 (d : Dev nD) (V : Valuation τ sig (Elt F)) :
    (held (SparseCore.T d) (op0 (F := F)).bufs V : sProp 𝕄) = iprop(pl d main_arg0 (V (Proc.devRef .tc main_arg0)) ∗ pl d main_v0 (V (Proc.devRef .tc main_v0))) :=
  held_pair d main_arg0 main_v0 (by decide) V
theorem held_op1 (d : Dev nD) (V : Valuation τ sig (Elt F)) :
    (held (SparseCore.T d) (op1 (F := F)).bufs V : sProp 𝕄) = iprop(pl d main_arg3 (V (Proc.devRef .tc main_arg3)) ∗ pl d main_v2 (V (Proc.devRef .tc main_v2))) :=
  held_pair d main_arg3 main_v2 (by decide) V

set_option maxHeartbeats 1000000 in
/-- @main on device `d`'s TensorCore. -/
theorem hmain (OUTP : (d : Dev nD) → Buf (Elt F) ((SparseCore.T d : Thread nD τ).loc main_v3) → Prop)
    (hreg : RegionStep (mr m) OUTP) (κ : GSem nD τ sig → ℕ) (d : Dev nD) :
    iprop((K (F := F)).ctx EH (P (I0 m) (fun d => m (xLoc d)) (fun d => m (oLoc d))) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m OUTP d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, HG⟩
  ihave Hlev := ((K (F := F)).ctx_levAts κ) $$ Hctx
  -- the first reshape: the index words as a [32] array
  iapply (wp_hlo_within 𝒱 (SparseCore.T d) none Set.univ (op := op0) (S := (op0 (F := F)).bufs) (Finset.Subset.refl _) (V := V0 m d)) $$ [Hb Ha0 Hv0]
  · isplitl [Hb]; · iexact Hb
    iapply (Entails.of_eq (held_op0 d (V0 m d)).symm)
    isplitl [Ha0]; · iexact Ha0
    iexact Hv0
  iintro ⟨Hb, Hheld⟩
  rw [wp_ret]; imodintro
  ihave Hh := (Entails.of_eq (held_op0 d ((op0 (F := F)).result (V0 m d)))) $$ Hheld
  icases Hh with ⟨Ha0, Hv0⟩
  -- the gather on the SparseCores: the three arrays out to the two SparseCores' workers and back
  iapply ((K (F := F)).wp_run (D (F := F)) 𝒱 (EH := EH) (P := P (I0 m) (fun d => m (xLoc d)) (fun d => m (oLoc d))) κ d 0) $$ [Hst Hv0 Ha1 Hv1 Hb Ha0 Ha2 Ha3 Hv2 Hv3 HG]
  isplitr; · iexact Hctx
  isplitl [Hst]; · iexact Hst
  isplitl [Hv0 Ha1 Hv1]
  · rw [st_eq]
    iapply (whole_split d (I0 m d) (m (xLoc d)) (m (oLoc d)))
    isplitl [Hv0]; · iexact Hv0
    isplitl [Ha1]; · iexact Ha1
    iexact Hv1
  iintro ⟨Hst, Hdn⟩
  ihave Hdn' := (Entails.of_eq (dn_eq (I0 m) (fun d => m (xLoc d)) (fun d => m (oLoc d)) d)) $$ Hdn
  ihave Hj := (whole_join d (I0 m d) (m (xLoc d)) (H1 m d)) $$ Hdn'
  icases Hj with ⟨Hv0, Ha1, Hv1⟩
  -- the second reshape: the bias as a [1, 100000] row
  iapply (wp_hlo_within 𝒱 (SparseCore.T d) none Set.univ (op := op1) (S := (op1 (F := F)).bufs) (Finset.Subset.refl _) (V := V0 m d)) $$ [Hb Ha3 Hv2]
  · isplitl [Hb]; · iexact Hb
    iapply (Entails.of_eq (held_op1 d (V0 m d)).symm)
    isplitl [Ha3]; · iexact Ha3
    iexact Hv2
  iintro ⟨Hb, Hheld⟩
  rw [wp_ret]; imodintro
  ihave Hh := (Entails.of_eq (held_op1 d ((op1 (F := F)).result (V0 m d)))) $$ Hheld
  icases Hh with ⟨Ha3, Hv2⟩
  -- the projection's region: the handshake state opened for what the core owes (nothing, its recorded waits low)
  unfold SparseCore.Cfg.tcSt
  icases Hst with ⟨⟨%W, %hW, HO⟩, Htail⟩
  ihave HO' := (Entails.of_eq (congrArg (fun O => (owes (SparseCore.T d) O W : sProp 𝕄)) ((K (F := F)).Otc_end d (n := (0 : Fin 1).val + 1) le_rfl))) $$ HO
  iapply ((K (F := F)).wp_liftProg (D (F := F)) 𝒱 (SparseCore.T d) Set.univ none
      (Prog.op (TpuEff.customCall (Pipeline.entry 0) ()) fun _ => Prog.ret PUnit.unit) _)
  iapply (hreg d (fun _ => Prog.ret PUnit.unit) _) $$ [Hb Ha0 Ha1 Ha2 Ha3 Hv0 Hv1 Hv2 Hv3 HO' HG Htail]
  isplitl [Htail]
  · iintro ⟨Hb, Hpost⟩
    unfold regPost owesLow
    icases Hpost with ⟨⟨%G, %hG, Hbufs⟩, ⟨%W', %hW', HO⟩⟩
    rw [wp_ret]; imodintro; imodintro
    isplitl [HO Htail]
    · isplitl [HO]
      · iexists W'; isplitr
        · ipureintro; intro p hp; exact le_trans (hW' (Finset.mem_coe.mpr hp)) (by decide)
        iexact HO
      iexact Htail
    iapply (bufsAt_FIN m OUTP d G hG); iexact Hbufs
  isplitl [Hb]; · iexact Hb
  isplitl [Ha0 Ha1 Ha2 Ha3 Hv0 Hv1 Hv2 Hv3 HO']
  · unfold regPre
    isplitl [Ha0 Ha1 Ha2 Ha3 Hv0 Hv1 Hv2 Hv3]
    · iapply (Entails.of_eq (bufsAt_intro m d))
      isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      iexact Hv3
    unfold owesLow
    iexists W; isplitr
    · ipureintro; intro p hp; exact le_trans (hW p (Finset.mem_coe.mp hp)) (by decide)
    iexact HO'
  isplitr; · iexact Hlev
  unfold Gd
  iexact HG

/-! ## The program's run -/

/-- What every final memory satisfies. -/
def QC (OUTP : (d : Dev nD) → Buf (Elt F) ((SparseCore.T d : Thread nD τ).loc main_v3) → Prop) : PUnit × MemSt nD τ sig (Elt F) → Prop := fun r =>
  ∀ c : Dev nD, r.2.mem ((SparseCore.T c : Thread nD τ).loc main_arg0) = m _ ∧ r.2.mem ((SparseCore.T c : Thread nD τ).loc main_arg1) = m _
    ∧ r.2.mem ((SparseCore.T c : Thread nD τ).loc main_arg2) = m _ ∧ r.2.mem ((SparseCore.T c : Thread nD τ).loc main_arg3) = m _
    ∧ OUTP c (r.2.mem ((SparseCore.T c : Thread nD τ).loc main_v3))

theorem run_main [∀ e, Nonempty (Elt F e)] (OUTP : (d : Dev nD) → Buf (Elt F) ((SparseCore.T d : Thread nD τ).loc main_v3) → Prop)
    (hI : ∀ d (j : S32.Idx), (I0 m d j).toNat < 100000) (hreg : RegionStep (mr m) OUTP) :
    θ_run (Cert.KernelIdeal.defs (F := F)) (Cert.KernelIdeal.threads (F := F)) ⟨m, fun _ => 0, ρ⟩ (QC m OUTP) :=
  SparseCore.Cfg.θ_run_sc (K := K (F := F)) (D := D (F := F)) (𝒱 := 𝒱) (EH := EH)
    (P := P (I0 m) (fun d => m (xLoc d)) (fun d => m (oLoc d))) facts v₀
    (fun q hq => match q with | 0 => nomatch hq)
    (fun q _ => match q with | 0 => tileObl (I0 m) (fun d => m (xLoc d)) (fun d => m (oLoc d)) facts hI)
    (fun q _ => match q with | 0 => SparseCore.Cfg.VecSplit.of_plain (vecSplit (I0 m) (fun d => m (xLoc d)) (fun d => m (oLoc d))))
    m ρ main Gd (FIN m OUTP) (u₀ (F := F)) (sep_elim_left.trans (hu₀ (I0 m) (fun d => m (xLoc d)) (fun d => m (oLoc d))))
    (hmain m ρ OUTP hreg) (fq m OUTP) (hfin m OUTP) (QC m OUTP) (fun _ h => h)

end Main

end Cert.KernelIdeal.Hand

end
-- ==== Proof.Reshapes.lean ====
/-
  The two reshapes of @main read at an index.  The first reads index word r of the [32, 1] argument at r of the [32]
  array, so the hidden array the gather leaves is the specification's: row r is the table row the r-th index word names,
  and where every index word names a table row so does every word of the reshaped array.  The second reads the bias at
  v at (0, v) of the [1, 100000] row.
-/
import proofs.«217564_g44109314130489_cont_8to1_b_132_32_alg».proof.Proof.Launch
import proofs.«217564_g44109314130489_cont_8to1_b_132_32_alg».proof.Proof.Spec
import Idealize.ShloMosaic.Lib.ValueLayout
import Idealize.ShloMosaic.Lib.Pipeline.Value

noncomputable section

namespace Cert.KernelIdeal.Hand

open Cert.KernelIdeal Cert.KernelIdeal.Gen

open Idealize.ShloMosaic Idealize.ShloMosaic.ValueIdx
open Idealize.ShloMosaic.SparseCore (S V T)
open Idealize.SL Idealize.SL.Sem

variable {F : FTy → Type} [FloatOps F]

/-- An [a, 1] array cast to [a] reads, at i, the operand at (i, 0). -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt F) ℓ)

/-- The index array after the first reshape, at r: the argument's word at (r, 0). -/
theorem I0_apply (d : Dev nD) (r : Fin 32) : I0 m d (ix1 r) = m ((SparseCore.T d : Thread nD τ).loc main_arg0) (ix2 r (0 : Fin 1)) := by
  unfold I0
  rw [StableHlo.reshape_result']
  exact shapeCast_a1_a_apply (V0 m d (Proc.devRef .tc main_arg0)) _ r

/-- The bias row after the second reshape, at (0, v): the argument's bias at v. -/
theorem B2_apply (d : Dev nD) (v : Fin 100000) : B2 m d (ix2 (0 : Fin 1) v) = m ((SparseCore.T d : Thread nD τ).loc main_arg3) (ix1 v) := by
  unfold B2
  rw [StableHlo.reshape_result']
  exact shapeCast_a_1a_apply (V0 m d (Proc.devRef .tc main_arg3)) _ 0 v

/-- Where every index word names a table row, so does every word of the reshaped index array. -/
theorem hI_of_inRange (hx : ∀ d : Dev nD, Cert.Spec.InRange (m ((SparseCore.T d : Thread nD τ).loc main_arg0))) :
    ∀ d (j : S32.Idx), (I0 m d j).toNat < 100000 := by
  intro d j
  have e : I0 m d j = m ((SparseCore.T d : Thread nD τ).loc main_arg0) (ix2 (j 0) (0 : Fin 1)) :=
    (congrArg (I0 m d) (eq_ix1 j)).trans (I0_apply m d (j 0))
  exact lt_of_eq_of_lt (congrArg BitVec.toNat e) (hx d (j 0))

/-- The hidden array the gather leaves is the specification's. -/
theorem H1_eq_hidden (d : Dev nD) :
    H1 m d = Cert.Spec.hidden (m ((SparseCore.T d : Thread nD τ).loc main_arg0)) (m (xLoc d)) := by
  funext j
  show hidV (I0 m d) (m (xLoc d)) j = _
  unfold hidV Cert.Spec.hidden Cert.Spec.row
  exact congrArg (fun w : BitVec 32 => m (xLoc d) (ix2 (n0 := 100000) (n1 := 128) ⟨min w.toNat 99999, by omega⟩ (j 1)))
    (I0_apply m d (j 0))

end Cert.KernelIdeal.Hand

end
-- ==== Proof.RegionDat.lean ====
/-
  The projection region's proof data.

  The region is one pipelined call over a grid of eight points.  Point `t` reads the hidden vectors `h` (all 32
  rows of 128, the same block at every point), rows `12800·t …` of the weight matrix `W` and the matching
  stretch of the bias `b`, and writes columns `12800·t …` of the result.  Eight blocks of 12800 make 102400, the
  arrays have 100000: the last block of `W`, of `b` and of the result reaches 2400 past the arrays' end, its
  transfers are cut there, and what the staging buffers hold past the cut is not stated by anything.

  After the body at point `t` the staging buffers hold: `h`; block `t` of `W` and of `b` on the part inside the
  arrays, a filler word elsewhere; and the body's payload of those three.  The memory the region starts from is a
  parameter.
-/
import proofs.«217564_g44109314130489_cont_8to1_b_132_32_alg».proof.Proof.Common
import proofs.«217564_g44109314130489_cont_8to1_b_132_32_alg».proof.Proof.Gen.KernelIdeal.Points
import proofs.«217564_g44109314130489_cont_8to1_b_132_32_alg».proof.Proof.Gen.KernelIdeal.Skeleton
import Idealize.ShloMosaic.Lib.Pipeline.Frame

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

variable (mr : (ℓ : Loc nD τ sig) → Buf (Elt F) ℓ)

-- the waits the core has recorded before the region: a parameter, carried through the region unchanged
variable (Rc : Set (SemLoc sig × HIx 1))

/-! ## What the staging buffers hold after the body -/

/-- The hidden vectors, whole: the one block of their window, at every point. -/
def hstg (c : Dev nD) : S32x128.Idx → Elt F .f32 := mr ((c : Thread nD τ).loc main_v1)

/-- Block `t` of the weight matrix as the fetch reads it: its rows inside the array. -/
def wblk (c : Dev nD) (t : Fin cfg1.N) : (win1_1.xblock (grid1.coords t)).Idx → Elt F .f32 :=
  (win1_1.blk t).view.read (Elt F) (mr ((c : Thread nD τ).loc main_arg2))
/-- Block `t` of the bias likewise: its columns inside the array. -/
def bblk (c : Dev nD) (t : Fin cfg1.N) : (win1_2.xblock (grid1.coords t)).Idx → Elt F .f32 :=
  (win1_2.blk t).view.read (Elt F) (mr ((c : Thread nD τ).loc main_v2))

/-- The weight block filled out to the buffer's size: past the array's end the zero word, which nothing reads. -/
def wstg (c : Dev nD) (t : Fin cfg1.N) : S12800x128.Idx → Elt F .f32 :=
  win1_1.fill (grid1.coords t) (fun _ => Scalar.ofBits .f32 0#32) (wblk mr c t)
/-- The bias block likewise. -/
def bstg (c : Dev nD) (t : Fin cfg1.N) : S1x12800.Idx → Elt F .f32 :=
  win1_2.fill (grid1.coords t) (fun _ => Scalar.ofBits .f32 0#32) (bblk mr c t)
/-- The result's buffer: the projection of the hidden vectors by that weight block, plus that bias block. -/
def ostg (c : Dev nD) (t : Fin cfg1.N) : S32x1x12800.Idx → Elt F .f32 :=
  k1_pay1 (hstg mr c) (wstg mr c t) (bstg mr c t)

/-- The region's proof data on device `c`: the four arrays as the region finds them; after the body the buffers at
    `hstg`, `wstg`, `bstg`, `ostg`; no invariant of the body's own; nothing owed; full shares; the recorded waits
    within `Rc` at every point (the body waits for nothing). -/
def dat1 (c : Dev nD) : Pipeline.Dat τ (Elt F) (HIx 1) ℕ UU ℕ cfg1 c where
  A w := mr ((cfg1.win w).arr.view.loc (c : Thread nD τ))
  after w t := match w with
    | ⟨0, _⟩ => hstg mr c
    | ⟨1, _⟩ => wstg mr c t
    | ⟨2, _⟩ => bstg mr c t
    | ⟨3, _⟩ => ostg mr c t
  Φ _ := iprop(emp)
  q _ := fullShare
  owed _ := 0
  recorded _ := Rc

abbrev adm : (p : Fin 1) → (pcfgs (F := F) p).Adm := fun p => (cfgs p).toPCfg_adm

/-- The proof data of the program's pipelined calls: the one. -/
def pdats : (p : Fin 1) → (c : Dev nD) → Pipeline.Dat τ (Elt F) (HIx 1) ℕ UU ℕ (Pipeline.pin (pcfgs (F := F)) adm p) c
  | 0 => dat1 mr Rc

theorem pdats_A (p : Fin 1) (c : Dev nD) (w : Fin cfg1.W) :
    (pdats mr Rc p c).A w = mr ((cfg1.win w).arr.view.loc (c : Thread nD τ)) := by
  match p with
  | 0 => rfl

end Cert.KernelIdeal.Hand

end
-- ==== Proof.LibDotRows.lean ====
/-
  A matrix product whose right operand is contracted on its LAST axis (A · Bᵀ for an m×k matrix A and an n×k
  matrix B), accumulated into a zero splat and read at an index on the extended reals:
  (A · Bᵀ)[a, b] = Σ_c A[a, c] · B[b, c].
-/
import Idealize.ShloMosaic.PureOps.Ideal.Laws
import Idealize.ShloMosaic.Lib.ValueIdx

noncomputable section

namespace Cert.LibDotRows

open Idealize.ShloMosaic Idealize.ShloMosaic.ValueIdx

/-- The product with the right operand contracted on its last axis, into the zero accumulator, at (a, b):
    the sum over the contracted coordinate of the products of the two rows' entries. -/
theorem matmul_transposedRhs_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  show FloatOps.matmul (DotDims.transposedRhs m k n) prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

end Cert.LibDotRows

end
-- ==== Proof.PayIdx.lean ====
/-
  The projection stage's one stored value, read at an index.

  The stage takes a block of 32 hidden rows `h` (32 × 128), a block of 12800 weight rows `w` (12800 × 128) and the
  matching stretch of the bias as a single row `c` (1 × 12800), and stores

      cast[32,12800 → 32,1,12800] ( h · wᵀ  +  (c repeated down 32 rows) )

  where the product contracts the last axis of both operands and starts from a zero accumulator.  Read at `(r, z, j)`
  (the middle axis has one position) this is  Σ_{k < 128} h[r,k] · w[j,k] + c[0,j]  on the extended reals: the cast keeps the
  row-major position, which for `(r, z, j)` with `z = 0` is that of `(r, j)`; the sum is pointwise; the product at
  `(r, j)` is the sum over the contracted coordinate; and the repeated row at `(r, j)` is the row at `(0, j)`.
-/
import proofs.«217564_g44109314130489_cont_8to1_b_132_32_alg».proof.Proof.Gen.KernelIdeal.Skeleton
import proofs.«217564_g44109314130489_cont_8to1_b_132_32_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PaySide

open Idealize.ShloMosaic Idealize.ShloMosaic.ValueIdx

/-- The stage's dimension numbers (contract axis 1 of the left operand with axis 1 of the right, no batch axes) are
    those of a product `A · Bᵀ` of a 32 × 128 by a 12800 × 128 matrix. -/
theorem dot_eq :
    Cert.KernelIdeal.dot_S32x128_S12800x128_S32x12800_1_1_0_0_n_n = DotDims.transposedRhs 32 128 12800 := rfl

/-- The stored value at `(r, z, j)`: the dot product of hidden row `r` with weight row `j`, plus the bias entry `j`. -/
theorem pay_apply (v0 : Vec Ideal Cert.KernelIdeal.S32x128 .f32) (v2 : Vec Ideal Cert.KernelIdeal.S12800x128 .f32)
    (v4 : Vec Ideal Cert.KernelIdeal.S1x12800 .f32) (r : Fin 32) (z : Fin 1) (j : Fin 12800) :
    Cert.KernelIdeal.Gen.k1_pay1 (F := Ideal) v0 v2 v4 (ValueIdx.ix3 r z j)
      = (∑ k : Fin 128, v0 (ValueIdx.ix2 r k) * v2 (ValueIdx.ix2 j k)) + v4 (ValueIdx.ix2 (0 : Fin 1) j) := by
  unfold Cert.KernelIdeal.Gen.k1_pay1
  -- the cast to [32, 1, 12800] at (r, z, j) reads the [32, 12800] array at (r, j): equal row-major positions, as z = 0
  refine (shapeCast_apply _ _ (ix3 r z j) (ix2 r j) ?_).trans ?_
  · rw [Shape.rowMajor_val_two, Shape.rowMajor_val_three]
    show r.val * 12800 + j.val = (r.val * 1 + z.val) * 12800 + j.val
    have := z.isLt
    omega
  -- the two casts of an array to its own shape change nothing
  rw [shapeCast_self, shapeCast_self]
  -- the sum is pointwise; its two terms are the product at (r, j) and the repeated bias row at (r, j)
  refine (addf_apply _ _ _).trans ?_
  refine congrArg₂ (· + ·) ?_ ?_
  · exact Cert.LibDotRows.matmul_transposedRhs_apply none v0 v2 r j
  · exact broadcastTo_1b_ab_apply v4 _ r j

end Cert.PaySide

end
-- ==== Proof.RegionBody.lean ====
/-
  The projection region's body obligation.

  What the body finds in the four staging buffers at a point (`before_0` … `before_3`), what it does to them
  (`sound_body`), and from the two the library's obligation for a pipeline some of whose windows are cut at the
  arrays' end.

  One thing is particular to this kernel.  At the last point the weights' and the bias's staging buffers hold, past
  the arrays' end, words nothing names; the body multiplies the whole buffers all the same; and the obligation asks
  that the columns of the product that ARE written back do not depend on those words.  Column `j` of the product
  reads row `j` of the weight block only, so they do not — but that is a property of the matrix product's
  definition, which the interface of the float operations does not state: it is a hypothesis here (`PayLocal`), and
  holds where the product is the exact sum over the contracted axis.
-/
import proofs.«217564_g44109314130489_cont_8to1_b_132_32_alg».proof.Proof.RegionDat
import Idealize.ShloMosaic.Lib.Pipeline.Kit
import Idealize.ShloMosaic.Lib.Tactic
import Idealize.ShloMosaic.Lib.ValueIdx
import proofs.«217564_g44109314130489_cont_8to1_b_132_32_alg».proof.Proof.PayIdx

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

variable (mr : (ℓ : Loc nD τ sig) → Buf (Elt F) ℓ) (Rc : Set (SemLoc sig × HIx 1))

/-! ## What the body finds in the staging buffers -/

/-- The hidden vectors' window is uncut: a fill of its buffer keeps nothing of what the buffer held. -/
theorem fill0_any {α : Type} (i : grid1.Coords) (d d' : win1_0.block.Idx → α) (g : (win1_0.xblock i).Idx → α) :
    win1_0.fill i d g = win1_0.fill i d' g :=
  Pipeline.fill_of_clip_none (cfg := cfg1) (0 : Fin 4) i (fun _ => rfl) d d' g

/-- Its one block is the whole array: the block index is zero on both axes. -/
theorem blockOf_0 (c : Dev nD) (t : Fin cfg1.N) :
    (dat1 mr Rc c).blockOf (0 : Fin 4) t = win1_0.cut (grid1.coords t) (hstg mr c) := by
  funext j
  unfold Dat.blockOf
  rw [View.read_apply]
  show mr ((c : Thread nD τ).loc main_v1) (((cfg1.win 0).blk t).view.emb j)
    = mr ((c : Thread nD τ).loc main_v1) (win1_0.xinj (grid1.coords t) j)
  refine congrArg _ ?_
  funext a; apply Fin.ext
  match a with
  | ⟨0, _⟩ =>
    show win1_0.index t (0 : Fin 2) * 32 + 1 * (j 0).val = (j 0).val
    rw [show win1_0.index t (0 : Fin 2) = 0 from rfl]; omega
  | ⟨1, _⟩ =>
    show win1_0.index t (1 : Fin 2) * 128 + 1 * (j 1).val = (j 1).val
    rw [show win1_0.index t (1 : Fin 2) = 0 from rfl]; omega

/-- The hidden vectors' buffer holds them at every point: fetched at the first, and left alone by every body since. -/
theorem before_0 (c : Dev nD) (t : Fin cfg1.N) (d) : (dat1 mr Rc c).before (0 : Fin 4) t d = hstg mr c := by
  by_cases hf : (cfg1.win (0 : Fin 4)).fetch t = true
  · rw [(dat1 mr Rc c).before_fetched (0 : Fin 4) t hf]
    unfold Dat.fetched
    rw [blockOf_0]
    exact (fill0_any _ _ _ _).trans (win1_0.fill_cut _ _)
  · have hf' := Bool.eq_false_iff.mpr hf
    rw [(dat1 mr Rc c).before_unfetched_in (0 : Fin 4) rfl t hf' (fun _ => rfl)]
    unfold Dat.kept
    refine (fill0_any _ d (hstg mr c) _).trans ?_
    dsimp only [dat1]
    exact win1_0.fill_cut _ _

/-- The weights' and the bias's buffers are fetched at every point: the block on the part inside the array, `d`
    elsewhere. -/
theorem before_1 (c : Dev nD) (t : Fin cfg1.N) (d) :
    (dat1 mr Rc c).before (1 : Fin 4) t d = win1_1.fill (grid1.coords t) d (wblk mr c t) := by
  rw [(dat1 mr Rc c).before_fetched (1 : Fin 4) t (fetch1_1 t)]; rfl
theorem before_2 (c : Dev nD) (t : Fin cfg1.N) (d) :
    (dat1 mr Rc c).before (2 : Fin 4) t d = win1_2.fill (grid1.coords t) d (bblk mr c t) := by
  rw [(dat1 mr Rc c).before_fetched (2 : Fin 4) t (fetch1_2 t)]; rfl

/-- The result's buffer is written back at every point: the body finds in it contents nothing names. -/
theorem before_3 (c : Dev nD) (t : Fin cfg1.N) (d) : (dat1 mr Rc c).before (3 : Fin 4) t d = d := by
  refine (dat1 mr Rc c).before_out_reset (3 : Fin 4) rfl t ?_ d
  by_cases h0 : t.val = 0
  · exact .inl h0
  · exact .inr ⟨h0, flush1_3 _⟩

/-! ## The kernel body -/

set_option maxHeartbeats 4000000 in
/-- The kernel body on staging buffers `s0` of the hidden vectors' window (its one), `s1` of the weights', `s2` of the
    bias's and `s3` of the result's (each 0 or 1 by the point): three whole loads, the payload, the dead load of the
    result's buffer, the whole store.  The result's buffer ends holding the payload of what the other three hold, and
    those are unchanged. -/
theorem sound_body (c : Dev nD) (E : Set ℕ) (i : grid1.Coords) (s0 : Fin 1) (s1 s2 s3 : Fin 2)
    (X0 : S32x128.Idx → Elt F .f32) (X1 : S12800x128.Idx → Elt F .f32) (X2 : S1x12800.Idx → Elt F .f32)
    (X3 : S32x1x12800.Idx → Elt F .f32) (K : PUnit → sProp (MM F)) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3)
          ∗ (iprop(owns (c : Thread nD τ) (stage1_0 s0) fullShare X0 ∗ owns (c : Thread nD τ) (stage1_1 s1) fullShare X1
                  ∗ owns (c : Thread nD τ) (stage1_2 s2) fullShare X2
                  ∗ owns (c : Thread nD τ) (stage1_3 s3) fullShare (k1_pay1 X0 X1 X2)) -∗ K ⟨⟩))
      ⊢ wp frame (wpE (defs₀ (F := F)) 𝒱₀ c none) E
          (cc1__proj_body i (stage1_0 s0) (hstage1_0 s0) (stage1_1 s1) (hstage1_1 s1) (stage1_2 s2) (hstage1_2 s2)
            (stage1_3 s3) (hstage1_3 s3)) K := by
  -- every access is at offsets zero and the buffer's own sizes, the whole buffer: a load reads the contents, the
  -- unmasked store writes the payload, at whichever of its window's buffers each memref is
  have hz2 : (![0, 0] : Fin 2 → Nat) = fun _ => 0 := funext fun a => by fin_cases a <;> rfl
  have hz3 : (![0, 0, 0] : Fin 3 → Nat) = fun _ => 0 := funext fun a => by fin_cases a <;> rfl
  have hr0 : (Memref.whole cc1_stg0_0 : Memref sig .tc _ _ _).view.readAt (Elt F) (Rect.unit (s := S32x128) ![0, 0] S32x128.size
      inb_S32x128_S32x128_0_0).toLoadRect = id := funext (Memref.readAt_unit_zero (Elt F) cc1_stg0_0 hz2 _)
  have hr1_0 : (Memref.whole cc1_stg1_0 : Memref sig .tc _ _ _).view.readAt (Elt F) (Rect.unit (s := S12800x128) ![0, 0] S12800x128.size
      inb_S12800x128_S12800x128_0_0).toLoadRect = id := funext (Memref.readAt_unit_zero (Elt F) cc1_stg1_0 hz2 _)
  have hr1_1 : (Memref.whole cc1_stg1_1 : Memref sig .tc _ _ _).view.readAt (Elt F) (Rect.unit (s := S12800x128) ![0, 0] S12800x128.size
      inb_S12800x128_S12800x128_0_0).toLoadRect = id := funext (Memref.readAt_unit_zero (Elt F) cc1_stg1_1 hz2 _)
  have hr2_0 : (Memref.whole cc1_stg2_0 : Memref sig .tc _ _ _).view.readAt (Elt F) (Rect.unit (s := S1x12800) ![0, 0] S1x12800.size
      inb_S1x12800_S1x12800_0_0).toLoadRect = id := funext (Memref.readAt_unit_zero (Elt F) cc1_stg2_0 hz2 _)
  have hr2_1 : (Memref.whole cc1_stg2_1 : Memref sig .tc _ _ _).view.readAt (Elt F) (Rect.unit (s := S1x12800) ![0, 0] S1x12800.size
      inb_S1x12800_S1x12800_0_0).toLoadRect = id := funext (Memref.readAt_unit_zero (Elt F) cc1_stg2_1 hz2 _)
  have hw3_0 : ∀ f w, (((Memref.whole cc1_stg3_0).access (Rect.unit (s := S32x1x12800) ![0, 0, 0] S32x1x12800.size
      inb_S32x1x12800_S32x1x12800_0_0_0)) : View sig .tc _ _ _).write (Elt F) f w Finset.univ = w :=
    Memref.write_access_unit_zero_univ (Elt F) cc1_stg3_0 hz3 _
  have hw3_1 : ∀ f w, (((Memref.whole cc1_stg3_1).access (Rect.unit (s := S32x1x12800) ![0, 0, 0] S32x1x12800.size
      inb_S32x1x12800_S32x1x12800_0_0_0)) : View sig .tc _ _ _).write (Elt F) f w Finset.univ = w :=
    Memref.write_access_unit_zero_univ (Elt F) cc1_stg3_1 hz3 _
  fin_cases s0 <;> fin_cases s1 <;> fin_cases s2 <;> fin_cases s3
  all_goals
    simp only [owns_whole_eq, cc1__proj_body_eq_skeleton]; unfold cc1__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0]
    first | rw [hr1_0] | rw [hr1_1]
    first | rw [hr2_0] | rw [hr2_1]
    first | rw [hw3_0] | rw [hw3_1]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3

/-! ## The obligation -/

/-- Column `j` of the payload reads, of the weight block, row `j` only, and of the bias block, entry `j` only. -/
def PayLocal (F : FTy → Type) [FloatOps F] : Prop :=
  ∀ (v0 : Vec F S32x128 .f32) (v2 v2' : Vec F S12800x128 .f32) (v4 v4' : Vec F S1x12800 .f32)
    (r : Fin 32) (z : Fin 1) (j : Fin 12800),
    (∀ k : Fin 128, v2 (ValueIdx.ix2 j k) = v2' (ValueIdx.ix2 j k)) →
    v4 (ValueIdx.ix2 (0 : Fin 1) j) = v4' (ValueIdx.ix2 (0 : Fin 1) j) →
      k1_pay1 v0 v2 v4 (ValueIdx.ix3 r z j) = k1_pay1 v0 v2' v4' (ValueIdx.ix3 r z j)

/-- Two fills of one block agree wherever the transfer moves. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- On the columns written back, the payload of the buffers as the fetches left them — whatever they hold past the
    arrays' end — is the payload of the blocks filled out with the zero word: the three windows are cut alike (one
    block index, one block length, one array length), so a column written back is a row of the weight block and an
    entry of the bias block inside the arrays. -/
theorem cut_pay_eq (hloc : PayLocal F) (c : Dev nD) (t : Fin cfg1.N) (d1 : S12800x128.Idx → Elt F .f32)
    (d2 : S1x12800.Idx → Elt F .f32) :
    win1_3.cut (grid1.coords t)
        (k1_pay1 (hstg mr c) (win1_1.fill (grid1.coords t) d1 (wblk mr c t)) (win1_2.fill (grid1.coords t) d2 (bblk mr c t)))
      = win1_3.cut (grid1.coords t) (ostg mr c t) := by
  funext y
  have h0 : (y 0).val < 32 := lt_of_lt_of_le (y 0).isLt (win1_3.xsize_le (grid1.coords t) 0)
  have h1 : (y 1).val < 1 := lt_of_lt_of_le (y 1).isLt (win1_3.xsize_le (grid1.coords t) 1)
  have h2 : (y 2).val < 12800 := lt_of_lt_of_le (y 2).isLt (win1_3.xsize_le (grid1.coords t) 2)
  have hx : win1_3.xinj (grid1.coords t) y
      = ValueIdx.ix3 (⟨(y 0).val, h0⟩ : Fin 32) (⟨(y 1).val, h1⟩ : Fin 1) (⟨(y 2).val, h2⟩ : Fin 12800) := by
    funext a
    match a with
    | ⟨0, _⟩ => rfl
    | ⟨1, _⟩ => rfl
    | ⟨2, _⟩ => rfl
  show k1_pay1 (hstg mr c) (win1_1.fill (grid1.coords t) d1 (wblk mr c t)) (win1_2.fill (grid1.coords t) d2 (bblk mr c t))
      (win1_3.xinj (grid1.coords t) y) = ostg mr c t (win1_3.xinj (grid1.coords t) y)
  unfold ostg wstg bstg
  rw [hx]
  refine hloc _ _ _ _ _ _ _ _ (fun k => ?_) ?_
  · refine fill_eq_of_moved win1_1 _ _ _ _ _ ((win1_1.moved_iff _ _).mpr fun a => ?_)
    match a with
    | ⟨0, _⟩ => exact (y 2).isLt
    | ⟨1, _⟩ => exact lt_of_lt_of_eq k.isLt (by rfl)
  · refine fill_eq_of_moved win1_2 _ _ _ _ _ ((win1_2.moved_iff _ _).mpr fun a => ?_)
    match a with
    | ⟨0, _⟩ => exact lt_of_lt_of_eq (Nat.zero_lt_one) (by rfl)
    | ⟨1, _⟩ => exact (y 2).isLt

theorem body_obligation_of_local (hloc : PayLocal F) (c : Dev nD) :
    BodyObligationLoose (dat1 mr Rc c) (defs₀ (F := F)) 𝒱₀ (none : HIx 1) Set.univ := fun t => by
  rw [bigSep_W1, bigSep_W1]
  simp only
  rw [show (dat1 mr Rc c).Φ t.succ = (dat1 mr Rc c).Φ t.castSucc from rfl,
    show (dat1 mr Rc c).owesAt (none : HIx 1) t.succ = (dat1 mr Rc c).owesAt (none : HIx 1) t.castSucc from rfl]
  iintro ⟨HΦ, Ho, ⟨%d0, H0⟩, ⟨%d1, H1⟩, ⟨%d2, H2⟩, ⟨%d3, H3⟩⟩
  rw [before_0 mr Rc c t d0, before_1 mr Rc c t d1, before_2 mr Rc c t d2, before_3 mr Rc c t d3]
  iapply (sound_body (F := F) c Set.univ (grid1.coords t) (cfg1.slots t 0) (cfg1.slots t 1) (cfg1.slots t 2) (cfg1.slots t 3)
    (hstg mr c) (win1_1.fill (grid1.coords t) d1 (wblk mr c t)) (win1_2.fill (grid1.coords t) d2 (bblk mr c t)) d3 _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  -- the hidden vectors' buffer is handed back as it was found; the weights' and the bias's at their blocks on the
  -- part inside the arrays, which is all a cut window's obligation states; the result's at the payload, which on
  -- the columns written back is the payload of the blocks filled out with the zero word (`cut_pay_eq`)
  dsimp only [dat1]
  isplitl [H0]
  · iexact H0
  isplitl [H1]
  · iexists d1
    rw [show (win1 1).cut (grid1.coords t) (wstg mr c t) = wblk mr c t from win1_1.cut_fill _ _ _]
    iexact H1
  isplitl [H2]
  · iexists d2
    rw [show (win1 2).cut (grid1.coords t) (bstg mr c t) = bblk mr c t from win1_2.cut_fill _ _ _]
    iexact H2
  · iexists k1_pay1 (hstg mr c) (win1_1.fill (grid1.coords t) d1 (wblk mr c t)) (win1_2.fill (grid1.coords t) d2 (bblk mr c t))
    rw [← show (win1 3).cut (grid1.coords t)
          (k1_pay1 (hstg mr c) (win1_1.fill (grid1.coords t) d1 (wblk mr c t)) (win1_2.fill (grid1.coords t) d2 (bblk mr c t)))
        = (win1 3).cut (grid1.coords t) (ostg mr c t) from cut_pay_eq mr hloc c t d1 d2,
      Window.fill_cut]
    iexact H3

/-! ## At the exact values -/

/-- Over the extended reals the payload at `(r, 0, j)` is the sum over `k` of `h[r, k] · W[j, k]`, plus `b[j]`: it reads
    row `j` of the weight block and entry `j` of the bias block, and nothing else of either. -/
theorem payLocal_ideal : PayLocal Ideal := by
  intro v0 v2 v2' v4 v4' r z j h2 h4
  rw [Cert.PaySide.pay_apply, Cert.PaySide.pay_apply, h4, Finset.sum_congr rfl fun k _ => by rw [h2 k]]

/-- The region's body obligation at the exact values. -/
theorem body_obligation (mr : (ℓ : Loc nD τ sig) → Buf (Elt Ideal) ℓ) (Rc : Set (SemLoc sig × HIx 1)) (c : Dev nD) :
    BodyObligationLoose (dat1 (F := Ideal) mr Rc c) (defs₀ (F := Ideal)) 𝒱₀ (none : HIx 1) Set.univ :=
  body_obligation_of_local mr Rc payLocal_ideal c

end Cert.KernelIdeal.Hand

end
-- ==== Proof.RegionValue.lean ====
/-
  What the projection region leaves in its arrays.

  The three arrays the region reads leave it as they entered.  The result array ends holding, at `(r, 0, v)`,
  `Σ_k h[r, k] · W[v, k] + b[v]` over the extended reals: column `v` lies in the block of exactly one point,
  `v / 12800`, at the block's column `v % 12800`; that point's write-back, cut at the array's end, writes it; and
  what it writes there is the payload of row `v` of `W` and entry `v` of `b`, both inside their arrays.  What the
  result array held at entry does not matter: every element is written.
-/
import proofs.«217564_g44109314130489_cont_8to1_b_132_32_alg».proof.Proof.RegionDat
import proofs.«217564_g44109314130489_cont_8to1_b_132_32_alg».proof.Proof.PayIdx
import proofs.«217564_g44109314130489_cont_8to1_b_132_32_alg».proof.Proof.Spec
import Idealize.ShloMosaic.Lib.Pipeline.Kit
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open scoped BigOperators

variable {F : FTy → Type} [FloatOps F]

/-! ## The arrays the region reads -/

section In

variable (mr : (ℓ : Loc nD τ sig) → Buf (Elt F) ℓ) (Rc : Set (SemLoc sig × HIx 1))

/-- The hidden vectors, the weights and the bias are the region's inputs: they leave it as they entered. -/
theorem arrAt_in0 (c : Dev nD) :
    (dat1 mr Rc c).arrAt (0 : Fin 4) cfg1.N = mr ((cfg1.win (0 : Fin 4)).arr.view.loc (c : Thread nD τ)) :=
  (dat1 mr Rc c).arrAt_in (0 : Fin 4) rfl _
theorem arrAt_in1 (c : Dev nD) :
    (dat1 mr Rc c).arrAt (1 : Fin 4) cfg1.N = mr ((cfg1.win (1 : Fin 4)).arr.view.loc (c : Thread nD τ)) :=
  (dat1 mr Rc c).arrAt_in (1 : Fin 4) rfl _
theorem arrAt_in2 (c : Dev nD) :
    (dat1 mr Rc c).arrAt (2 : Fin 4) cfg1.N = mr ((cfg1.win (2 : Fin 4)).arr.view.loc (c : Thread nD τ)) :=
  (dat1 mr Rc c).arrAt_in (2 : Fin 4) rfl _

/-- An element of the weight block inside the array is the array's element: block index × 12800 + the row in the
    block, same column. -/
theorem wstg_apply (c : Dev nD) (t : Fin cfg1.N) (j : Fin 12800) (k : Fin 128)
    (hj : j.val < win1_1.xsize (grid1.coords t) (0 : Fin 2)) (i : Fin 100000)
    (hi : i.val = win1_1.index t (0 : Fin 2) * 12800 + j.val) :
    wstg mr c t (ValueIdx.ix2 j k) = mr ((c : Thread nD τ).loc main_arg2) (ValueIdx.ix2 i k) := by
  have hm : win1_1.moved (grid1.coords t) (ValueIdx.ix2 j k) = true :=
    (win1_1.moved_iff _ _).mpr fun a => by
      match a with
      | ⟨0, _⟩ => exact hj
      | ⟨1, _⟩ => exact lt_of_lt_of_eq k.isLt (by rfl)
  unfold wstg Window.fill
  rw [dif_pos hm]
  unfold wblk
  rw [View.read_apply]
  show mr ((c : Thread nD τ).loc main_arg2) ((win1_1.blk t).view.emb _)
    = mr ((c : Thread nD τ).loc main_arg2) (ValueIdx.ix2 i k)
  refine congrArg _ ?_
  funext a; apply Fin.ext
  match a with
  | ⟨0, _⟩ => show win1_1.index t (0 : Fin 2) * 12800 + 1 * j.val = i.val; omega
  | ⟨1, _⟩ =>
    show win1_1.index t (1 : Fin 2) * 128 + 1 * k.val = k.val
    rw [show win1_1.index t (1 : Fin 2) = 0 from rfl]; omega

/-- An entry of the bias block inside the array likewise. -/
theorem bstg_apply (c : Dev nD) (t : Fin cfg1.N) (j : Fin 12800)
    (hj : j.val < win1_2.xsize (grid1.coords t) (1 : Fin 2)) (i : Fin 100000)
    (hi : i.val = win1_2.index t (1 : Fin 2) * 12800 + j.val) :
    bstg mr c t (ValueIdx.ix2 (0 : Fin 1) j) = mr ((c : Thread nD τ).loc main_v2) (ValueIdx.ix2 (0 : Fin 1) i) := by
  have hm : win1_2.moved (grid1.coords t) (ValueIdx.ix2 (0 : Fin 1) j) = true :=
    (win1_2.moved_iff _ _).mpr fun a => by
      match a with
      | ⟨0, _⟩ => exact lt_of_lt_of_eq Nat.zero_lt_one (by rfl)
      | ⟨1, _⟩ => exact hj
  unfold bstg Window.fill
  rw [dif_pos hm]
  unfold bblk
  rw [View.read_apply]
  show mr ((c : Thread nD τ).loc main_v2) ((win1_2.blk t).view.emb _)
    = mr ((c : Thread nD τ).loc main_v2) (ValueIdx.ix2 (0 : Fin 1) i)
  refine congrArg _ ?_
  funext a; apply Fin.ext
  match a with
  | ⟨0, _⟩ =>
    show win1_2.index t (0 : Fin 2) * 1 + 1 * 0 = 0
    rw [show win1_2.index t (0 : Fin 2) = 0 from rfl]
  | ⟨1, _⟩ => show win1_2.index t (1 : Fin 2) * 12800 + 1 * j.val = i.val; omega

end In

/-! ## The result array -/

section Out

variable (mr : (ℓ : Loc nD τ sig) → Buf (Elt Ideal) ℓ) (Rc : Set (SemLoc sig × HIx 1))

/-- The projection of the arrays as the region finds them: what the result array is shown to end holding. -/
abbrev projOf (c : Dev nD) : Cert.Spec.Sout.Idx → EReal :=
  Cert.Spec.proj (mr ((c : Thread nD τ).loc main_v1)) (mr ((c : Thread nD τ).loc main_arg2))
    (fun j => mr ((c : Thread nD τ).loc main_v2) (ValueIdx.ix2 (0 : Fin 1) (j 0)))

/-- The printed index maps and cuts, decided over the grid: the hidden vectors' block index is zero; the weights',
    the bias's and the result's is the point, on the axis of length 100000, and zero on the others; and that axis's
    blocks are cut to what is left of the array, the others not at all. -/
theorem idx_facts : ∀ t : Fin cfg1.N,
    win1_3.index t (0 : Fin 3) = 0 ∧ win1_3.index t (1 : Fin 3) = 0 ∧ win1_3.index t (2 : Fin 3) = t.val
    ∧ win1_1.index t (0 : Fin 2) = t.val ∧ win1_1.index t (1 : Fin 2) = 0
    ∧ win1_2.index t (0 : Fin 2) = 0 ∧ win1_2.index t (1 : Fin 2) = t.val
    ∧ win1_3.xsize (grid1.coords t) (0 : Fin 3) = 32 ∧ win1_3.xsize (grid1.coords t) (1 : Fin 3) = 1
    ∧ win1_3.xsize (grid1.coords t) (2 : Fin 3) = min 12800 (100000 - t.val * 12800) :=
  (by decide +kernel : ∀ t : Fin grid1.N, _)

/-- WHAT POINT `t` WRITES BACK is block `t`, cut at the array's end, of the projection. -/
theorem flushed3_eq (c : Dev nD) (t : Fin cfg1.N) :
    (dat1 (F := Ideal) mr Rc c).flushed (3 : Fin 4) t = ((cfg1.win (3 : Fin 4)).blk t).view.read (Elt Ideal) (projOf mr c) := by
  obtain ⟨e30, e31, e32, e10, e11, e20, e21, -, -, -⟩ := idx_facts t
  funext y
  have h0 : (y 0).val < 32 := lt_of_lt_of_le (y 0).isLt (win1_3.xsize_le (grid1.coords t) 0)
  have h1 : (y 1).val < 1 := lt_of_lt_of_le (y 1).isLt (win1_3.xsize_le (grid1.coords t) 1)
  have h2 : (y 2).val < 12800 := lt_of_lt_of_le (y 2).isLt (win1_3.xsize_le (grid1.coords t) 2)
  have hx : win1_3.xinj (grid1.coords t) y
      = ValueIdx.ix3 (⟨(y 0).val, h0⟩ : Fin 32) (⟨(y 1).val, h1⟩ : Fin 1) (⟨(y 2).val, h2⟩ : Fin 12800) := by
    funext a
    match a with
    | ⟨0, _⟩ => rfl
    | ⟨1, _⟩ => rfl
    | ⟨2, _⟩ => rfl
  rw [View.read_apply]
  dsimp only [Dat.flushed, dat1]
  show ostg mr c t (win1_3.xinj (grid1.coords t) y) = projOf mr c (((cfg1.win 3).blk t).view.emb y)
  unfold ostg
  rw [hx, Cert.PaySide.pay_apply]
  unfold projOf Cert.Spec.proj
  refine congrArg₂ (· + ·) (Finset.sum_congr rfl fun k _ => congrArg₂ (· * ·) ?_ ?_) ?_
  · -- the hidden vectors' block is the whole array: batch row `y 0` of the block is batch row `y 0`
    unfold hstg
    refine congrArg (fun r => mr ((c : Thread nD τ).loc main_v1) (ValueIdx.ix2 r k)) (Fin.ext ?_)
    show (y 0).val = win1_3.index t (0 : Fin 3) * 32 + 1 * (y 0).val
    rw [e30]; omega
  · -- column `y 2` of the result's block is row `y 2` of the weights' block: one block index, one cut
    refine wstg_apply mr c t ⟨(y 2).val, h2⟩ k (y 2).isLt _ ?_
    show win1_3.index t (2 : Fin 3) * 12800 + 1 * (y 2).val = win1_1.index t (0 : Fin 2) * 12800 + (y 2).val
    rw [e32, e10]; omega
  · -- and entry `y 2` of the bias's
    refine bstg_apply mr c t ⟨(y 2).val, h2⟩ (y 2).isLt _ ?_
    show win1_3.index t (2 : Fin 3) * 12800 + 1 * (y 2).val = win1_2.index t (1 : Fin 2) * 12800 + (y 2).val
    rw [e32, e21]; omega

/-- An index of the result array is in point `t`'s block, cut at the array's end, iff each coordinate is in the cut
    block's range on its axis. -/
theorem mem_blk3 (t : Fin cfg1.N) (i : S32x1x100000.Idx) :
    i ∈ ((cfg1.win (3 : Fin 4)).blk t).view.set
      ↔ ∀ a : Fin 3, win1_3.index t a * S32x1x12800.size a ≤ (i a).val
          ∧ (i a).val < win1_3.index t a * S32x1x12800.size a + win1_3.xsize (grid1.coords t) a := by
  show i ∈ ((View.whole main_v3).slice (win1_3.rect t)).set ↔ _
  rw [View.set_slice_whole, Rect.mem_set_unit]
  exact Iff.rfl

/-- Every element of the result array is in some point's block: column `v` in point `v / 12800`'s, the last of
    which is cut to the 10400 columns left. -/
theorem covered3 (i : S32x1x100000.Idx) :
    ∃ t : Fin cfg1.N, (cfg1.win (3 : Fin 4)).flush t = true ∧ i ∈ ((cfg1.win (3 : Fin 4)).blk t).view.set := by
  have hi0 : (i 0).val < 32 := (i 0).isLt
  have hi1 : (i 1).val < 1 := (i 1).isLt
  have hi2 : (i 2).val < 100000 := (i 2).isLt
  have hq : (i 2).val / 12800 < cfg1.N := by rw [show cfg1.N = 8 from N_1]; omega
  obtain ⟨e30, e31, e32, -, -, -, -, x0, x1, x2⟩ := idx_facts ⟨(i 2).val / 12800, hq⟩
  refine ⟨⟨(i 2).val / 12800, hq⟩, flush1_3 _, ?_⟩
  rw [mem_blk3]
  intro a
  match a with
  | ⟨0, _⟩ =>
    show win1_3.index ⟨(i 2).val / 12800, hq⟩ (0 : Fin 3) * 32 ≤ (i 0).val
      ∧ (i 0).val < win1_3.index ⟨(i 2).val / 12800, hq⟩ (0 : Fin 3) * 32 + win1_3.xsize (grid1.coords ⟨(i 2).val / 12800, hq⟩) (0 : Fin 3)
    rw [e30, x0]; omega
  | ⟨1, _⟩ =>
    show win1_3.index ⟨(i 2).val / 12800, hq⟩ (1 : Fin 3) * 1 ≤ (i 1).val
      ∧ (i 1).val < win1_3.index ⟨(i 2).val / 12800, hq⟩ (1 : Fin 3) * 1 + win1_3.xsize (grid1.coords ⟨(i 2).val / 12800, hq⟩) (1 : Fin 3)
    rw [e31, x1]; omega
  | ⟨2, _⟩ =>
    show win1_3.index ⟨(i 2).val / 12800, hq⟩ (2 : Fin 3) * 12800 ≤ (i 2).val
      ∧ (i 2).val < win1_3.index ⟨(i 2).val / 12800, hq⟩ (2 : Fin 3) * 12800 + win1_3.xsize (grid1.coords ⟨(i 2).val / 12800, hq⟩) (2 : Fin 3)
    rw [e32, x2]
    show (i 2).val / 12800 * 12800 ≤ (i 2).val
      ∧ (i 2).val < (i 2).val / 12800 * 12800 + min 12800 (100000 - (i 2).val / 12800 * 12800)
    omega

/-- THE RESULT ARRAY after the region: the projection of the hidden vectors, the weights and the bias as the region
    found them, whatever the array held before. -/
theorem final_out (c : Dev nD) :
    (dat1 (F := Ideal) mr Rc c).arrAt (3 : Fin 4) cfg1.N
      = Cert.Spec.proj (mr ((c : Thread nD τ).loc main_v1)) (mr ((c : Thread nD τ).loc main_arg2))
          (fun j => mr ((c : Thread nD τ).loc main_v2) (ValueIdx.ix2 (0 : Fin 1) (j 0))) :=
  (dat1 (F := Ideal) mr Rc c).arrAt_eq_of_cover (3 : Fin 4) (projOf mr c) (fun t _ => flushed3_eq mr Rc c t) covered3

end Out

end Cert.KernelIdeal.Hand

end
-- ==== Proof.RegionExact.lean ====
/-
  The projection's region over exact proof data: the record of its entry and exit around the thread state the launch
  holds, and the step the launch consumes.  Its result array ends at what the pipeline's proof data computes.
-/
import proofs.«217564_g44109314130489_cont_8to1_b_132_32_alg».proof.Proof.RegionBody
import proofs.«217564_g44109314130489_cont_8to1_b_132_32_alg».proof.Proof.RegionValue
import proofs.«217564_g44109314130489_cont_8to1_b_132_32_alg».proof.Proof.RegionIface
import proofs.«217564_g44109314130489_cont_8to1_b_132_32_alg».proof.Proof.Arrays
import Idealize.ShloMosaic.Lib.Pipeline.Regions

noncomputable section

namespace Cert.KernelIdeal.Hand

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pairs at the handshakes' levels on every device. -/
def RcAll : Set (SemLoc sig × HIx 1) := {p | ∀ d : Dev nD, (K (F := F)).lev ((SparseCore.T d : Thread nD τ), p.1) p.2 ≤ 8}

omit [FloatOps F] in
theorem lowPairs_sub_RcAll (d : Dev nD) : lowPairs (F := F) d ⊆ RcAll (F := F) := fun p hp d' => by
  rw [Subsingleton.elim d' d]; exact hp
omit [FloatOps F] in
theorem RcAll_sub_lowPairs (d : Dev nD) : RcAll (F := F) ⊆ lowPairs (F := F) d := fun _ hp => hp d
omit [FloatOps F] in
theorem waitPairs_sub_lowPairs (d : Dev nD) : cfg1.waitPairs (none : HIx 1) ⊆ lowPairs (F := F) d := fun p hp => by
  obtain ⟨w, s, rfl⟩ := hp
  show (K (F := F)).lev _ none ≤ 8
  rw [SparseCore.Cfg.lev_none]; exact Nat.zero_le _

variable (mr : (ℓ : Loc nD τ sig) → Buf (Elt F) ℓ)

/-- The result array after the region, as the proof data computes it. -/
def outA (d : Dev nD) : Buf (Elt F) ((SparseCore.T d : Thread nD τ).loc main_v3) := (dat1 mr (RcAll (F := F)) d).arrAt 3 cfg1.N

/-- What the region states of the result array. -/
def OUTX (d : Dev nD) (G : Buf (Elt F) ((SparseCore.T d : Thread nD τ).loc main_v3)) : Prop := G = outA mr d

theorem arrays1_eq (c : Dev nD) (Fa) :
    ((pdats mr (RcAll (F := F)) 0 c).arrays Fa : sProp 𝕄) = iprop(pl c main_v1 (Fa 0) ∗ pl c main_arg2 (Fa 1) ∗ pl c main_v2 (Fa 2) ∗ pl c main_v3 (Fa 3)) := by
  rw [Pipeline.arrays_eq (Pipeline.pin (pcfgs (F := F)) adm) (pdats mr (RcAll (F := F))) 0 c launch1.arr_whole ((pdats mr (RcAll (F := F)) 0 c).share_full fun _ => rfl) Fa, bigSep_W1]

/-- The region: the four arrays into the pipeline, the other four bypassing, the core owing nothing throughout. -/
def reg1 (hbody : ∀ c, Pipeline.BodyObligationLoose (dat1 mr (RcAll (F := F)) c) (defs₀ (F := F)) 𝒱₀ (none : HIx 1) Set.univ) :
    Pipeline.RegionSeg (pcfgs (F := F)) adm (pdats mr (RcAll (F := F))) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := hbody c
  hwaits c := Pipeline.hwaits_of_owed_zero (pcfgs (F := F)) adm (pdats mr (RcAll (F := F))) (none : HIx 1) (K (F := F)).L (K (F := F)).lev 0 (fun _ _ => rfl) c
  pre c := regPre mr c
  post c := regPost mr (OUTX mr) c
  X _ := iprop(emp)
  Y _ := iprop(emp)
  Z c := Pipeline.unscopedRest (Ix := HIx 1) (Name := ℕ) (U := UU) (Lvl := ℕ) spec1 c (fun b => mr ((c : Thread nD τ).loc b))
  hentry c := by
    rw [Pipeline.ownSems0_none]
    have hsplit := Pipeline.arrays_of_unscopedBufs (pcfgs (F := F)) adm (pdats mr (RcAll (F := F))) launch1.win launch1.arr_whole c
      ((pdats mr (RcAll (F := F)) 0 c).share_full fun _ => rfl) (fun b => mr ((c : Thread nD τ).loc b)) fun _ => rfl
    unfold regPre owesLow bufsAt
    iintro ⟨⟨Hub, %W, %hW, HO⟩, -, -⟩
    ihave Hub' := (Entails.of_eq ((unscopedBufs_eq c (fun b => mr ((SparseCore.T c : Thread nD τ).loc b))).symm)) $$ Hub
    ihave H := hsplit $$ Hub'
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (lowPairs_sub_RcAll c (hW hp))
      iexact HO
    isplitr; · iempintro
    iexact Hr
  hin c := by iintro -; iempintro
  hout c := by
    rw [Pipeline.ownSems0_none, scopedRest1_eq]
    iintro -; isplitr; · iempintro
    isplitr <;> iempintro
  hexit c := by
    unfold regPost owesLow
    rw [arrays1_eq, unscopedRest1_eq]
    iintro ⟨⟨H1, H2, H3, H4⟩, HO, -, ⟨Ha0, Ha1, Ha3, Hv0⟩⟩
    imodintro
    isplitl [H1 H2 H3 H4 Ha0 Ha1 Ha3 Hv0]
    · iexists (outA mr c); isplitr; · ipureintro; rfl
      unfold bufsAt
      isplitl [Ha0]; · iexact Ha0
      isplitl [Ha1]; · iexact Ha1
      isplitl [H2]; · iapply (Entails.of_eq (congrArg (pl c main_arg2) (arrAt_in1 mr (RcAll (F := F)) c))); iexact H2
      isplitl [Ha3]; · iexact Ha3
      isplitl [Hv0]; · iexact Hv0
      isplitl [H1]; · iapply (Entails.of_eq (congrArg (pl c main_v1) (arrAt_in0 mr (RcAll (F := F)) c))); iexact H1
      isplitl [H3]; · iapply (Entails.of_eq (congrArg (pl c main_v2) (arrAt_in2 mr (RcAll (F := F)) c))); iexact H3
      iexact H4
    unfold Pipeline.Dat.owesAt Pipeline.owesWithin
    icases HO with ⟨%W, %hW, HO⟩
    iexists W; isplitr
    · ipureintro; intro p hp
      rcases hW hp with h | h
      · exact RcAll_sub_lowPairs c h
      · exact waitPairs_sub_lowPairs c h
    iexact HO

set_option backward.isDefEq.respectTransparency.types false in
set_option maxHeartbeats 4000000 in
/-- The region's step over exact data, from the body's obligation. -/
theorem regionStep_exact [∀ e, Nonempty (Elt F e)]
    (hbody : ∀ c, Pipeline.BodyObligationLoose (dat1 mr (RcAll (F := F)) c) (defs₀ (F := F)) 𝒱₀ (none : HIx 1) Set.univ) :
    RegionStep mr (OUTX mr) := by
  intro d α k Q
  have h := Pipeline.RegionSeg.wp (pcfgs (F := F)) adm (pdats mr (RcAll (F := F))) (none : HIx 1) cellOf_inj EP defs₀ 𝒱₀ (K (F := F)).L (K (F := F)).lev
    (reg1 mr hbody) d none (fun u hu => by cases hu) k Q
  exact h

end Cert.KernelIdeal.Hand

end
-- ==== Proof.KernelValue.lean ====
/-
  The kernel's result at the ideal instance.  The hidden array the gather leaves is the specification's, the bias row
  reads the bias, and the projection's region leaves, at (r, 0, v), the dot product of hidden row r with weight row v
  plus the bias at v: the specification's logit.
-/
import proofs.«217564_g44109314130489_cont_8to1_b_132_32_alg».proof.Proof.Reshapes
import proofs.«217564_g44109314130489_cont_8to1_b_132_32_alg».proof.Proof.RegionExact

noncomputable section

namespace Cert.KernelIdeal.Hand

open Cert.KernelIdeal Cert.KernelIdeal.Gen
open Idealize.ShloMosaic Idealize.ShloMosaic.ValueIdx
open Idealize.ShloMosaic.SparseCore (S V T)
open Idealize.SL Idealize.SL.Sem

variable (m : (ℓ : Loc nD τ sig) → Buf (Elt Ideal) ℓ)

/-- The region's result array is the specification's result. -/
theorem out_eq_G (d : Dev nD) :
    outA (F := Ideal) (mr m) d
      = Cert.Spec.G (m ((SparseCore.T d : Thread nD τ).loc main_arg0)) (m ((SparseCore.T d : Thread nD τ).loc main_arg1))
          (m ((SparseCore.T d : Thread nD τ).loc main_arg2)) (m ((SparseCore.T d : Thread nD τ).loc main_arg3)) := by
  unfold outA
  rw [final_out, mr_v1, mr_other m d main_arg2 (by decide) (by decide) (by decide), mr_v2, H1_eq_hidden, ← Cert.Spec.proj_hidden]
  congr 1
  funext j
  exact (B2_apply m d (j 0)).trans (congrArg (m ((SparseCore.T d : Thread nD τ).loc main_arg3)) (eq_ix1 j).symm)

/-- The kernel's run at the ideal instance, with its value: from a memory whose index words name table rows, every
    weakly fair execution terminates, the result array ends at the specification's result, the arguments as they began. -/
theorem kernel_value_run (g : Dev nD → PrngReg)
    (hx : ∀ d : Dev nD, Cert.Spec.InRange (m ((SparseCore.T d : Thread nD τ).loc main_arg0))) :
    θ_run (Cert.KernelIdeal.defs (F := Ideal)) (Cert.KernelIdeal.threads (F := Ideal)) ⟨m, fun _ => 0, g⟩ (fun r => ∀ c : Dev nD,
      r.2.mem ((SparseCore.T c : Thread nD τ).loc main_v3)
          = Cert.Spec.G (m ((SparseCore.T c : Thread nD τ).loc main_arg0)) (m ((SparseCore.T c : Thread nD τ).loc main_arg1))
              (m ((SparseCore.T c : Thread nD τ).loc main_arg2)) (m ((SparseCore.T c : Thread nD τ).loc main_arg3))
      ∧ r.2.mem ((SparseCore.T c : Thread nD τ).loc main_arg0) = m _ ∧ r.2.mem ((SparseCore.T c : Thread nD τ).loc main_arg1) = m _
      ∧ r.2.mem ((SparseCore.T c : Thread nD τ).loc main_arg2) = m _ ∧ r.2.mem ((SparseCore.T c : Thread nD τ).loc main_arg3) = m _) :=
  (θ_run (Cert.KernelIdeal.defs (F := Ideal)) _ _).mono
    (fun r h c => ⟨((h c).2.2.2.2 : OUTX (mr m) c _).trans (out_eq_G m c), (h c).1, (h c).2.1, (h c).2.2.1, (h c).2.2.2.1⟩)
    (run_main (F := Ideal) m g (OUTX (mr m)) (hI_of_inRange m hx) (regionStep_exact (mr m) (fun c => body_obligation (mr m) (RcAll (F := Ideal)) c)))

end Cert.KernelIdeal.Hand

end
-- ==== Proof.CommonK.lean ====
/-
  What the parts of the kernel's proof share: the program as the launch theorem for SparseCore programs sees it,
  and the resource algebra — the handshakes' rounds between the TensorCore, the sequencers and the tiles; the
  rounds of the projection's staging semaphores; and the counters of the tiles' own copies.
-/
import proofs.«217564_g44109314130489_cont_8to1_b_132_32_alg».proof.Kernel
import proofs.«217564_g44109314130489_cont_8to1_b_132_32_alg».proof.Proof.Gen.Kernel
import proofs.«217564_g44109314130489_cont_8to1_b_132_32_alg».proof.Proof.Gen.Kernel.Launch
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The rounds of the projection's staging semaphores. -/
abbrev UP : Type := URounds (GSem nD τ sig) Unit
abbrev UU : Type := UH × (UP × Counters)

abbrev MM (F : FTy → Type) : Type := MT nD τ sig (HIx 1) (Elt F) ℕ UU ℕ

abbrev EH : Emb UH (MM F) := embL
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MM F)).LandsIn (upEmb : UEmb _ (MM F)) := by unfold EP; infer_instance

end Cert.Kernel.Hand

end
-- ==== Proof.PayK.lean ====
/-
  What the handshakes of the row gather carry.  The index array (32 words) and the hidden array (32 rows of 128) are cut
  into four parts of eight rows, one per worker w = 2·s + c (tile s of SparseCore c, s < 2); the embedding table is read
  by all four workers at once, each holding a quarter share of it.  A SparseCore is handed its two workers' parts, a tile
  its own (a tile with s ≥ 2 nothing), and they come back with the hidden rows written: row r of the hidden array is the
  table row the r-th index word names.
-/
import proofs.«217564_g44109314130489_cont_8to1_b_132_32_alg».proof.Proof.CommonK
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The index array (the reshaped argument), the embedding table and the hidden array, as locations of device `d`. -/
abbrev iLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The hidden array once the gather is done: row `j 0` is the table row the `j 0`-th index word names (the word read
    unsigned and cut off at the last row, so that the function is total). -/
def hidV {α : Type} (fI : S32.Idx → BitVec 32) (fE : S100000x128.Idx → α) : S32x128.Idx → α :=
  fun j => fE (ValueIdx.ix2 (n0 := 100000) (n1 := 128) ⟨min (fI (ValueIdx.ix1 (n := 32) (j 0))).toNat 99999, by omega⟩ (j 1))

theorem idiv : 4 ∣ S32.size 0 := ⟨8, rfl⟩
theorem odiv : 4 ∣ S32x128.size 0 := ⟨8, rfl⟩

/-- Worker `w`'s eight index words and eight hidden rows. -/
abbrev iPart (w : Fin 4) : Finset S32.Idx :=
  ((Memref.whole main_v0_scv : Memref sig .scVector .hbm S32 .i32).view.slice (Rect.part (s := S32) (a₀ := 0) idiv w)).set
abbrev oPart (w : Fin 4) : Finset S32x128.Idx :=
  ((Memref.whole main_v1_scv : Memref sig .scVector .hbm S32x128 .f32).view.slice (Rect.part (s := S32x128) (a₀ := 0) odiv w)).set

/-- Worker `w`'s share of the table: the full share halved twice. -/
def xq : Fin 4 → PosShare TreeShare
  | 0 => fullShare.left.left
  | 1 => fullShare.left.right
  | 2 => fullShare.right.left
  | 3 => fullShare.right.right

/-- The worker of tile `s` (below 2) of SparseCore `c`. -/
def wk (c : Fin 2) (s : Fin 2) : Fin 4 := ⟨2 * s.val + c.val, by omega⟩

/-! ## The arrays as a tile addresses them -/

abbrev cV (L : grid0.Coords) : Fin τ.nSC := (L 0).castLE hcore0
abbrev jV (L : grid0.Coords) : Fin τ.nSub := (L 1).castLE hsub0

/-- The eight index words and the eight hidden rows of an active tile, and the whole table, as the task slices them. -/
abbrev iRowK (L : grid0.Coords) (h : k0_cond1 L = 1#1) : Memref sig .scVector .hbm S8 .i32 :=
  (Memref.whole main_v0_scv : Memref sig .scVector .hbm S32 .i32).slice (Rect.unit (s := S32) (k0_off1 L) S8.size (k0_off1_inb L h)) (fun _ => rfl)
abbrev oRowK (L : grid0.Coords) (h : k0_cond1 L = 1#1) : Memref sig .scVector .hbm S8x128 .f32 :=
  (Memref.whole main_v1_scv : Memref sig .scVector .hbm S32x128 .f32).slice (Rect.unit (s := S32x128) (k0_off2 L) S8x128.size (k0_off2_inb L h)) (fun _ => rfl)
abbrev xAllK : Memref sig .scVector .hbm S100000x128 .f32 :=
  (Memref.whole main_arg1_scv : Memref sig .scVector .hbm S100000x128 .f32).slice (Rect.unit (s := S100000x128) ![0, 0] S100000x128.size inb_S100000x128_S100000x128_0_0) (fun _ => rfl)

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

section Res

variable (d : Dev nD) (fI : Buf (Elt F) (iLoc d)) (fE : Buf (Elt F) (xLoc d))

/-- What worker `w` holds: its index words, its share of the table, its hidden rows at contents `fO`. -/
abbrev wRes (fO : Buf (Elt F) (oLoc d)) (w : Fin 4) : sProp 𝕄 :=
  iprop((iLoc d ↦[iPart w]{fullShare} fI) ∗ (xLoc d ↦{xq w} fE) ∗ (oLoc d ↦[oPart w]{fullShare} fO))

/-- A SparseCore's: its two workers'. -/
abbrev coreRes (fO : Buf (Elt F) (oLoc d)) (c : Fin 2) : sProp 𝕄 :=
  iprop(wRes d fI fE fO (wk c 0) ∗ wRes d fI fE fO (wk c 1))

/-- A tile's: its worker's if it has one. -/
def tileRes (fO : Buf (Elt F) (oLoc d)) (c : Fin 2) (i : Fin 16) : sProp 𝕄 :=
  if h : i.val < 2 then wRes d fI fE fO (wk c ⟨i.val, h⟩) else iprop(emp)

end Res

variable (fI : (d : Dev nD) → Buf (Elt F) (iLoc d)) (fE : (d : Dev nD) → Buf (Elt F) (xLoc d)) (fO : (d : Dev nD) → Buf (Elt F) (oLoc d))

/-- The hidden array after the gather on device `d`. -/
abbrev HV (d : Dev nD) : Buf (Elt F) (oLoc d) := hidV (fI d) (fE d)

/-- The one call: each SparseCore takes its two workers' parts, each tile its worker's, and they come back with the
    hidden rows at `HV`. -/
def P : (K (F := F)).Pay (nD := nD) (Val := Elt F) (Name := ℕ) (U := UU) where
  st := fun q d c => match q with | 0 => coreRes d (fI d) (fE d) (fO d) (Fin.cast nCore_zero c)
  dn := fun q d c => match q with | 0 => coreRes d (fI d) (fE d) (HV fI fE d) (Fin.cast nCore_zero c)
  go := fun q d c i => match q with | 0 => tileRes d (fI d) (fE d) (fO d) (Fin.cast nCore_zero c) (Fin.cast nSub_zero i)
  td := fun q d c i => match q with | 0 => tileRes d (fI d) (fE d) (HV fI fE d) (Fin.cast nCore_zero c) (Fin.cast nSub_zero i)
  x := fun _ _ => iprop(emp)

instance tileRes_storable (d : Dev nD) (a : Buf (Elt F) (iLoc d)) (b : Buf (Elt F) (xLoc d)) (o : Buf (Elt F) (oLoc d)) (c : Fin 2) (i : Fin 16) :
    BI.Storable (upEmb : UEmb _ 𝕄) (tileRes d a b o c i) := by
  unfold tileRes; split <;> infer_instance

instance P_storable : (P (F := F) fI fE fO).IsStorable where
  st q d c := match q with
    | 0 => (inferInstance : BI.Storable (upEmb : UEmb _ 𝕄) (coreRes d (fI d) (fE d) (fO d) (Fin.cast nCore_zero c)))
  dn q d c := match q with
    | 0 => (inferInstance : BI.Storable (upEmb : UEmb _ 𝕄) (coreRes d (fI d) (fE d) (HV fI fE d) (Fin.cast nCore_zero c)))
  go q d c i := match q with
    | 0 => (inferInstance : BI.Storable (upEmb : UEmb _ 𝕄) (tileRes d (fI d) (fE d) (fO d) (Fin.cast nCore_zero c) (Fin.cast nSub_zero i)))
  td q d c i := match q with
    | 0 => (inferInstance : BI.Storable (upEmb : UEmb _ 𝕄) (tileRes d (fI d) (fE d) (HV fI fE d) (Fin.cast nCore_zero c) (Fin.cast nSub_zero i)))

end Cert.Kernel.Hand

end
-- ==== Proof.TileValueK.lean ====
/-
  The values of the row gather on one tile.  The tile copied eight consecutive index words into its list; entry k of
  the gather reads the table row the k-th of them names; row k of what was gathered lands on the hidden row at the same
  position among the thirty-two.  So the gathered block, read at (k, e), is the table at (word[off + k], e): the hidden
  array's value at the place the block is written to.
-/
import proofs.«217564_g44109314130489_cont_8to1_b_132_32_alg».proof.Proof.PayK
import proofs.«217564_g44109314130489_cont_8to1_b_132_32_alg».proof.Proof.Gen.Kernel.Skeleton
import Idealize.ShloMosaic.Lib.SparseCore.Stream
import Idealize.ShloMosaic.Lib.Writes

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "sV" => (Memref.whole Cert.Kernel.cc0_scratch0 : Memref Cert.Kernel.sig Kind.scVector Space.vmem Cert.Kernel.S8 EltTy.i32)

variable [FloatOps F]

/-- Reading a view is reading the buffer at the embedded index. -/
theorem iRow_read (d : Dev nD) (L : grid0.Coords) (h : k0_cond1 L = 1#1) (fI : Buf (Elt F) (iLoc d)) (j : S8.Idx) :
    (iRowK L h).view.read (Elt F) fI j = fI ((iRowK L h).view.emb j) :=
  (View.read_apply _ _).trans (cast_eq _ _)

/-- The index of the list of eight at row-major position `k` is `k` itself. -/
theorem rowMajor_symm_S8 (k : Fin S8.numel) : ((S8.rowMajor.symm k) 0).val = k.val := by
  have e := Shape.rowMajor_val_one (d := ![8]) (S8.rowMajor.symm k)
  rw [← e]
  exact congrArg Fin.val (S8.rowMajor.apply_symm_apply k)

/-- Where entry `j` of the tile's list sits among the thirty-two index words. -/
theorem iRow_emb (L : grid0.Coords) (h : k0_cond1 L = 1#1) (j : S8.Idx) :
    ((iRowK L h).view.emb j 0).val = 16 * (L 1).val + 8 * (L 0).val + (j 0).val := by
  show k0_off1 L 0 + 1 * (j 0).val = _
  rw [k0_off1_eq]; show 16 * (L 1).val + 8 * (L 0).val + 1 * (j 0).val = _; omega

/-- Where element `y` of the tile's block sits in the hidden array. -/
theorem oRow_emb0 (L : grid0.Coords) (h : k0_cond1 L = 1#1) (y : S8x128.Idx) :
    ((oRowK L h).view.emb y 0).val = 16 * (L 1).val + 8 * (L 0).val + (y 0).val := by
  show k0_off2 L 0 + 1 * (y 0).val = _
  rw [k0_off2_eq]; show 16 * (L 1).val + 8 * (L 0).val + 1 * (y 0).val = _; omega
theorem oRow_emb1 (L : grid0.Coords) (h : k0_cond1 L = 1#1) (y : S8x128.Idx) :
    ((oRowK L h).view.emb y 1).val = (y 1).val := by
  show k0_off2 L 1 + 1 * (y 1).val = _
  rw [k0_off2_eq]; show 0 + 1 * (y 1).val = _; omega

theorem gathered_eq (d : Dev nD) (L : grid0.Coords) (h : k0_cond1 L = 1#1) (fI : Buf (Elt F) (iLoc d)) (fE : Buf (Elt F) (xLoc d))
    (hI : ∀ j : S32.Idx, (fI j).toNat < 100000) (fs : Buf (Elt F) ((SparseCore.V d (cV L) (jV L)).loc cc0_scratch0))
    (hn : S8.numel = S8x128.size gathers_S100000x128_S8x128.axis')
    (hin : ∀ x, ((sV).view.read (Elt F) (View.write (Elt F) (sV).view fs ((iRowK L h).view.read (Elt F) fI) Finset.univ) x).toNat < S100000x128.size gathers_S100000x128_S8x128.axis)
    (y : S8x128.Idx) :
    SparseCore.gatherPayload gathers_S100000x128_S8x128 ((xAllK).view.read (Elt F) fE)
        (SparseCore.rows ((sV).view.read (Elt F) (View.write (Elt F) (sV).view fs ((iRowK L h).view.read (Elt F) fI) Finset.univ)) hn hin) y
      = hidV fI fE ((oRowK L h).view.emb y) := by
  unfold SparseCore.gatherPayload
  rw [show ∀ z, (xAllK).view.read (Elt F) fE z = fE ((xAllK).view.emb z) from fun z => (View.read_apply _ _).trans (cast_eq _ _)]
  unfold hidV
  congr 1
  funext a
  apply Fin.ext
  match a with
  | 0 =>
    show 0 + 1 * (gathers_S100000x128_S8x128.idx _ y gathers_S100000x128_S8x128.axis).val = min _ 99999
    rw [Shape.Gathers.idx_axis]
    show 0 + 1 * (((sV).view.read (Elt F) (View.write (Elt F) (sV).view fs ((iRowK L h).view.read (Elt F) fI) Finset.univ)
        (S8.rowMajor.symm ((y gathers_S100000x128_S8x128.axis').cast hn.symm))).toNat) = _
    rw [View.write_whole_univ]
    simp only [Memref.view_whole, View.read_whole]
    rw [iRow_read d L h]
    have e : (iRowK L h).view.emb (S8.rowMajor.symm ((y gathers_S100000x128_S8x128.axis').cast hn.symm))
        = ValueIdx.ix1 (n := 32) ((oRowK L h).view.emb y 0) := by
      funext b
      match b with
      | ⟨0, _⟩ =>
        apply Fin.ext
        show ((iRowK L h).view.emb _ 0).val = ((oRowK L h).view.emb y 0).val
        rw [iRow_emb L h, oRow_emb0 L h, rowMajor_symm_S8]; rfl
    rw [e, Nat.zero_add, Nat.one_mul]
    exact (Nat.min_eq_left (Nat.le_of_lt_succ (hI _))).symm
  | 1 =>
    show 0 + 1 * (gathers_S100000x128_S8x128.idx _ y 1).val = ((oRowK L h).view.emb y 1).val
    rw [Shape.Gathers.idx_of_ne _ _ _ 1 (by decide), oRow_emb1 L h]
    show 0 + 1 * (y 1).val = _
    omega

/-- What the tile's write leaves on its eight hidden rows: the hidden array's values there. -/
theorem written_eq (d : Dev nD) (L : grid0.Coords) (h : k0_cond1 L = 1#1) (fI : Buf (Elt F) (iLoc d)) (fE : Buf (Elt F) (xLoc d))
    (hI : ∀ j : S32.Idx, (fI j).toNat < 100000) (fO : Buf (Elt F) (oLoc d)) (w : S8x128.Idx → Elt F .f32)
    (hw : ∀ y, w y = hidV fI fE ((oRowK L h).view.emb y)) :
    ∀ i ∈ (oRowK L h).view.set, (oRowK L h).view.writes (Elt F) fO [⟨Rect.whole S8x128, w⟩] i = hidV fI fE i := by
  intro i hi
  obtain ⟨y, -, rfl⟩ := Finset.mem_map.mp hi
  have e := View.read_writes_cons_emb (oRowK L h).view fO (Rect.whole S8x128) w [] y
  rw [Rect.emb_whole_apply, View.read_apply] at e
  exact ((cast_eq _ _).symm.trans e).trans (hw y)

end Cert.Kernel.Hand

end
-- ==== Proof.SplitK.lean ====
/-
  How the operands of the row gather are split among the workers and put together again.  The thirty-two index words
  and the thirty-two hidden rows are cut into four parts of eight; the table is shared out in four quarter shares.  An
  active tile's slices are exactly its worker's parts; a SparseCore's two workers' resources are its sixteen tiles'
  (fourteen of which hold nothing); and the two SparseCores' resources together are the three arrays whole.
-/
import proofs.«217564_g44109314130489_cont_8to1_b_132_32_alg».proof.Proof.PayK

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Which tiles work, and on what -/

/-- The tiles that take part are the first two of each SparseCore. -/
theorem cond_iff : ∀ L : grid0.Coords, k0_cond1 L = 1#1 ↔ (L 1).val < 2 := by decide +kernel

theorem bound0 : grid0.bound 0 = 2 := rfl
theorem bound1 : grid0.bound 1 = 16 := rfl

/-- The eight index words an active tile slices are its worker's part. -/
theorem iRect_eq (L : grid0.Coords) (h : k0_cond1 L = 1#1) (h2 : (L 1).val < 2) :
    Rect.unit (s := S32) (k0_off1 L) S8.size (k0_off1_inb L h)
      = Rect.part (s := S32) (a₀ := 0) idiv (wk (Fin.cast bound0 (L 0)) ⟨(L 1).val, h2⟩) := by
  unfold Rect.part Rect.block
  congr 1 <;> funext a
  · rw [k0_off1_eq]
    match a with
    | 0 =>
      simp [Shape.partIx, Shape.partSize, wk]
      show 16 * (L 1).val + 8 * (L 0).val = (2 * (L 1).val + (L 0).val) * 8
      omega
  · match a with
    | 0 => simp [Shape.partSize]

/-- The eight hidden rows an active tile slices are its worker's part. -/
theorem oRect_eq (L : grid0.Coords) (h : k0_cond1 L = 1#1) (h2 : (L 1).val < 2) :
    Rect.unit (s := S32x128) (k0_off2 L) S8x128.size (k0_off2_inb L h)
      = Rect.part (s := S32x128) (a₀ := 0) odiv (wk (Fin.cast bound0 (L 0)) ⟨(L 1).val, h2⟩) := by
  unfold Rect.part Rect.block
  congr 1 <;> funext a
  · rw [k0_off2_eq]
    match a with
    | 0 =>
      simp [Shape.partIx, Shape.partSize, wk]
      show 16 * (L 1).val + 8 * (L 0).val = (2 * (L 1).val + (L 0).val) * 8
      omega
    | 1 => simp [Shape.partIx, Shape.partSize]
  · match a with
    | 0 => simp [Shape.partSize]
    | 1 => simp [Shape.partSize]

theorem set_iRowK (L : grid0.Coords) (h : k0_cond1 L = 1#1) (h2 : (L 1).val < 2) :
    (iRowK L h).view.set = iPart (wk (Fin.cast bound0 (L 0)) ⟨(L 1).val, h2⟩) := by
  show ((Memref.whole main_v0_scv : Memref sig .scVector .hbm S32 .i32).view.slice (Rect.unit (s := S32) (k0_off1 L) S8.size (k0_off1_inb L h))).set = _
  rw [iRect_eq L h h2]

theorem set_oRowK (L : grid0.Coords) (h : k0_cond1 L = 1#1) (h2 : (L 1).val < 2) :
    (oRowK L h).view.set = oPart (wk (Fin.cast bound0 (L 0)) ⟨(L 1).val, h2⟩) := by
  show ((Memref.whole main_v1_scv : Memref sig .scVector .hbm S32x128 .f32).view.slice (Rect.unit (s := S32x128) (k0_off2 L) S8x128.size (k0_off2_inb L h))).set = _
  rw [oRect_eq L h h2]

/-! ## The four parts and the four shares -/

theorem iPart_eq (w : Fin 4) : iPart w = (Rect.part (s := S32) (a₀ := 0) idiv w).set :=
  View.set_slice_whole (main_v0_scv : Ref sig .scVector) _
theorem oPart_eq (w : Fin 4) : oPart w = (Rect.part (s := S32x128) (a₀ := 0) odiv w).set :=
  View.set_slice_whole (main_v1_scv : Ref sig .scVector) _

theorem iParts_disjoint : ∀ i ∈ (Finset.univ : Finset (Fin 4)), ∀ j ∈ (Finset.univ : Finset (Fin 4)), i ≠ j → Disjoint (iPart i) (iPart j) :=
  fun i _ j _ h => by rw [iPart_eq, iPart_eq]; exact Rect.part_disjoint idiv h
theorem oParts_disjoint : ∀ i ∈ (Finset.univ : Finset (Fin 4)), ∀ j ∈ (Finset.univ : Finset (Fin 4)), i ≠ j → Disjoint (oPart i) (oPart j) :=
  fun i _ j _ h => by rw [oPart_eq, oPart_eq]; exact Rect.part_disjoint odiv h
theorem iParts_cover : (Finset.univ : Finset (Fin 4)).biUnion iPart = Finset.univ :=
  (Finset.biUnion_congr rfl fun i _ => iPart_eq i).trans (Rect.biUnion_part idiv)
theorem oParts_cover : (Finset.univ : Finset (Fin 4)).biUnion oPart = Finset.univ :=
  (Finset.biUnion_congr rfl fun i _ => oPart_eq i).trans (Rect.biUnion_part odiv)

/-- A conjunction over four indices, one by one. -/
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The index array whole is its four parts. -/
theorem iPts_parts (d : Dev nD) (f : Buf (Elt F) (iLoc d)) :
    (iLoc d ↦{fullShare} f : sProp 𝕄)
      = iprop((iLoc d ↦[iPart 0]{fullShare} f) ∗ (iLoc d ↦[iPart 1]{fullShare} f) ∗ (iLoc d ↦[iPart 2]{fullShare} f) ∗ (iLoc d ↦[iPart 3]{fullShare} f)) := by
  rw [← bigSep_four (F := F) (fun w => (iLoc d ↦[iPart w]{fullShare} f : sProp 𝕄)),
    ← pointsTo_biUnion Finset.univ (ℓ := iLoc d) iPart iParts_disjoint, iParts_cover]
/-- The hidden array whole is its four parts. -/
theorem oPts_parts (d : Dev nD) (f : Buf (Elt F) (oLoc d)) :
    (oLoc d ↦{fullShare} f : sProp 𝕄)
      = iprop((oLoc d ↦[oPart 0]{fullShare} f) ∗ (oLoc d ↦[oPart 1]{fullShare} f) ∗ (oLoc d ↦[oPart 2]{fullShare} f) ∗ (oLoc d ↦[oPart 3]{fullShare} f)) := by
  rw [← bigSep_four (F := F) (fun w => (oLoc d ↦[oPart w]{fullShare} f : sProp 𝕄)),
    ← pointsTo_biUnion Finset.univ (ℓ := oLoc d) oPart oParts_disjoint, oParts_cover]

/-- The table at the full share is the table at the four quarter shares. -/
theorem xPts_shares (d : Dev nD) (f : Buf (Elt F) (xLoc d)) :
    (xLoc d ↦{fullShare} f : sProp 𝕄)
      = iprop(((xLoc d ↦{xq 0} f) ∗ (xLoc d ↦{xq 1} f)) ∗ ((xLoc d ↦{xq 2} f) ∗ (xLoc d ↦{xq 3} f))) := by
  have sh : ∀ q : PosShare TreeShare, (xLoc d ↦{q} f : sProp 𝕄) = iprop((xLoc d ↦{q.left} f) ∗ (xLoc d ↦{q.right} f)) := fun q =>
    BI.Entails.antisymm (pointsTo_share (PosShare.mem_left_op_right q)).1 (pointsTo_share (PosShare.mem_left_op_right q)).2
  rw [sh fullShare, sh fullShare.left, sh fullShare.right]; rfl

/-- Twelve resources, grouped by array, regrouped by worker (workers 0 and 2 first, then 1 and 3). -/
theorem regroup (I0 I1 I2 I3 X0 X1 X2 X3 O0 O1 O2 O3 : sProp 𝕄) :
    iprop((I0 ∗ I1 ∗ I2 ∗ I3) ∗ ((X0 ∗ X1) ∗ (X2 ∗ X3)) ∗ (O0 ∗ O1 ∗ O2 ∗ O3))
      ⊣⊢ iprop(((I0 ∗ X0 ∗ O0) ∗ (I2 ∗ X2 ∗ O2)) ∗ ((I1 ∗ X1 ∗ O1) ∗ (I3 ∗ X3 ∗ O3))) := by
  constructor
  · iintro ⟨⟨Hi0, Hi1, Hi2, Hi3⟩, ⟨⟨Hx0, Hx1⟩, Hx2, Hx3⟩, Ho0, Ho1, Ho2, Ho3⟩
    isplitl [Hi0 Hx0 Ho0 Hi2 Hx2 Ho2]
    · isplitl [Hi0 Hx0 Ho0]
      · isplitl [Hi0]; · iexact Hi0
        isplitl [Hx0]; · iexact Hx0
        iexact Ho0
      · isplitl [Hi2]; · iexact Hi2
        isplitl [Hx2]; · iexact Hx2
        iexact Ho2
    · isplitl [Hi1 Hx1 Ho1]
      · isplitl [Hi1]; · iexact Hi1
        isplitl [Hx1]; · iexact Hx1
        iexact Ho1
      · isplitl [Hi3]; · iexact Hi3
        isplitl [Hx3]; · iexact Hx3
        iexact Ho3
  · iintro ⟨⟨⟨Hi0, Hx0, Ho0⟩, Hi2, Hx2, Ho2⟩, ⟨Hi1, Hx1, Ho1⟩, Hi3, Hx3, Ho3⟩
    isplitl [Hi0 Hi1 Hi2 Hi3]
    · isplitl [Hi0]; · iexact Hi0
      isplitl [Hi1]; · iexact Hi1
      isplitl [Hi2]; · iexact Hi2
      iexact Hi3
    isplitl [Hx0 Hx1 Hx2 Hx3]
    · isplitl [Hx0 Hx1]
      · isplitl [Hx0]; · iexact Hx0
        iexact Hx1
      · isplitl [Hx2]; · iexact Hx2
        iexact Hx3
    · isplitl [Ho0]; · iexact Ho0
      isplitl [Ho1]; · iexact Ho1
      isplitl [Ho2]; · iexact Ho2
      iexact Ho3

theorem wk_0_0 : wk 0 0 = 0 := rfl
theorem wk_1_0 : wk 1 0 = 1 := rfl
theorem wk_0_1 : wk 0 1 = 2 := rfl
theorem wk_1_1 : wk 1 1 = 3 := rfl

/-! ## The arrays whole are the two SparseCores' resources -/

theorem whole_eq (d : Dev nD) (a : Buf (Elt F) (iLoc d)) (b : Buf (Elt F) (xLoc d)) (o : Buf (Elt F) (oLoc d)) :
    (iprop((iLoc d ↦{fullShare} a) ∗ (xLoc d ↦{fullShare} b) ∗ (oLoc d ↦{fullShare} o)) : sProp 𝕄)
      ⊣⊢ iprop(coreRes d a b o 0 ∗ coreRes d a b o 1) := by
  unfold coreRes wRes
  rw [wk_0_0, wk_0_1, wk_1_0, wk_1_1, iPts_parts, xPts_shares, oPts_parts]
  exact regroup _ _ _ _ _ _ _ _ _ _ _ _

theorem whole_split (d : Dev nD) (a : Buf (Elt F) (iLoc d)) (b : Buf (Elt F) (xLoc d)) (o : Buf (Elt F) (oLoc d)) :
    (iprop((iLoc d ↦{fullShare} a) ∗ (xLoc d ↦{fullShare} b) ∗ (oLoc d ↦{fullShare} o)) : sProp 𝕄)
      ⊢ iprop(coreRes d a b o 0 ∗ coreRes d a b o 1) := (whole_eq d a b o).1

theorem whole_join (d : Dev nD) (a : Buf (Elt F) (iLoc d)) (b : Buf (Elt F) (xLoc d)) (o : Buf (Elt F) (oLoc d)) :
    (iprop(coreRes d a b o 0 ∗ coreRes d a b o 1) : sProp 𝕄)
      ⊢ iprop((iLoc d ↦{fullShare} a) ∗ (xLoc d ↦{fullShare} b) ∗ (oLoc d ↦{fullShare} o)) := (whole_eq d a b o).2

/-! ## The launch's conjunctions over the SparseCores and over a SparseCore's tiles -/

section Families

variable (fI : (d : Dev nD) → Buf (Elt F) (iLoc d)) (fE : (d : Dev nD) → Buf (Elt F) (xLoc d)) (fO : (d : Dev nD) → Buf (Elt F) (oLoc d))

/-- A conjunction over the call's SparseCores is over the two of them. -/
theorem bigSep_cores (Φ : Fin 2 → sProp 𝕄) :
    (bigSep Finset.univ fun c : Fin ((K (F := F)).nCore 0) => Φ (Fin.cast nCore_zero c)) = iprop(Φ 0 ∗ Φ 1) :=
  (bigSep_congr fun _ _ => congrArg Φ (Fin.ext rfl)).trans (bigSep_univ_two Φ)

/-- A conjunction over a SparseCore's tiles is over the sixteen of them. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem st_eq (d : Dev nD) :
    (bigSep Finset.univ fun c : Fin ((K (F := F)).nCore 0) => (P fI fE fO).st 0 d c)
      = iprop(coreRes d (fI d) (fE d) (fO d) 0 ∗ coreRes d (fI d) (fE d) (fO d) 1) :=
  bigSep_cores (F := F) (fun c => coreRes d (fI d) (fE d) (fO d) c)

theorem dn_eq (d : Dev nD) :
    (bigSep Finset.univ fun c : Fin ((K (F := F)).nCore 0) => (P fI fE fO).dn 0 d c)
      = iprop(coreRes d (fI d) (fE d) (HV fI fE d) 0 ∗ coreRes d (fI d) (fE d) (HV fI fE d) 1) :=
  bigSep_cores (F := F) (fun c => coreRes d (fI d) (fE d) (HV fI fE d) c)

/-- A SparseCore's sixteen tiles hold what its two workers hold: the first two tiles a worker's resources each, the
    other fourteen nothing. -/
theorem tiles_eq (d : Dev nD) (a : Buf (Elt F) (iLoc d)) (b : Buf (Elt F) (xLoc d)) (o : Buf (Elt F) (oLoc d)) (c : Fin 2) :
    (bigSep Finset.univ fun i : Fin 16 => tileRes d a b o c i) = coreRes d a b o c := by
  have hl : ∀ j : Fin 2, tileRes d a b o c (finSumFinEquiv (m := 2) (n := 14) (Sum.inl j)) = wRes d a b o (wk c j) := fun j => by
    have hj : (finSumFinEquiv (m := 2) (n := 14) (Sum.inl j)).val < 2 := j.isLt
    unfold tileRes
    rw [dif_pos hj]
    exact congrArg (fun w => wRes d a b o (wk c w)) (Fin.ext rfl)
  have hr : ∀ j : Fin 14, tileRes d a b o c (finSumFinEquiv (m := 2) (n := 14) (Sum.inr j)) = (BI.emp : sProp 𝕄) := fun j => by
    have hj : ¬ (finSumFinEquiv (m := 2) (n := 14) (Sum.inr j)).val < 2 := by
      show ¬ 2 + j.val < 2
      omega
    unfold tileRes
    rw [dif_neg hj]
    rfl
  rw [bigSep_univ_equiv (finSumFinEquiv (m := 2) (n := 14)) (fun i : Fin 16 => tileRes d a b o c i), bigSep_univ_sum,
    bigSep_congr (fun j _ => hl j), bigSep_congr (fun j _ => hr j), bigSep_emp_const, bigSep_univ_two]
  exact equiv_iff.mp sep_emp

/-- Each SparseCore's resources go to its tiles and come back from them. -/
theorem vecSplit : (K (F := F)).VecSplit' (P fI fE fO) 0 := by
  intro d c
  show coreRes d (fI d) (fE d) (fO d) (Fin.cast nCore_zero c) ⊢ |={Set.univ}=> iprop(
      (bigSep Finset.univ fun i : Fin ((K (F := F)).nSub 0) => tileRes d (fI d) (fE d) (fO d) (Fin.cast nCore_zero c) (Fin.cast nSub_zero i))
      ∗ ((bigSep Finset.univ fun i : Fin ((K (F := F)).nSub 0) => tileRes d (fI d) (fE d) (HV fI fE d) (Fin.cast nCore_zero c) (Fin.cast nSub_zero i))
          -∗ coreRes d (fI d) (fE d) (HV fI fE d) (Fin.cast nCore_zero c)))
  rw [bigSep_tiles (F := F) (fun i => tileRes d (fI d) (fE d) (fO d) (Fin.cast nCore_zero c) i),
    bigSep_tiles (F := F) (fun i => tileRes d (fI d) (fE d) (HV fI fE d) (Fin.cast nCore_zero c) i), tiles_eq, tiles_eq]
  iintro H; imodintro
  isplitl [H]; · iexact H
  iintro H; iexact H

end Families

end Cert.Kernel.Hand

end
-- ==== Proof.TileK.lean ====
/-
  One tile's task of the row gather.  A tile whose worker number 2·s + c is below 4 fetches its eight index words,
  gathers the eight table rows they name into its row scratch, and writes them to its eight rows of the hidden array,
  which then hold, on those rows, the table rows the index words name; every other tile does nothing.
-/
import proofs.«217564_g44109314130489_cont_8to1_b_132_32_alg».proof.Proof.PayK
import proofs.«217564_g44109314130489_cont_8to1_b_132_32_alg».proof.Proof.TileValueK
import proofs.«217564_g44109314130489_cont_8to1_b_132_32_alg».proof.Proof.SplitK
import proofs.«217564_g44109314130489_cont_8to1_b_132_32_alg».proof.Proof.Gen.Kernel.Skeleton
import Idealize.ShloMosaic.Lib.SparseCore.Ops
import Idealize.ShloMosaic.Lib.SparseCore.Stream
import Idealize.ShloMosaic.Lib.Writes

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.Kernel.main_v0_scv : Memref Cert.Kernel.sig Kind.scVector Space.hbm Cert.Kernel.S32 EltTy.i32)
local notation "xV" => (Memref.whole Cert.Kernel.main_arg1_scv : Memref Cert.Kernel.sig Kind.scVector Space.hbm Cert.Kernel.S100000x128 EltTy.f32)
local notation "oV" => (Memref.whole Cert.Kernel.main_v1_scv : Memref Cert.Kernel.sig Kind.scVector Space.hbm Cert.Kernel.S32x128 EltTy.f32)
local notation "sV" => (Memref.whole Cert.Kernel.cc0_scratch0 : Memref Cert.Kernel.sig Kind.scVector Space.vmem Cert.Kernel.S8 EltTy.i32)
local notation "rV" => (Memref.whole Cert.Kernel.cc0_scratch1 : Memref Cert.Kernel.sig Kind.scVector Space.vmem Cert.Kernel.S8x128 EltTy.f32)

section Tile

variable (d : Dev nD) (L : grid0.Coords)

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

/-- The tile's three DMA semaphores are among its own, at zero; the rest of its own beside them. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the tile's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]

/-- An active tile's three holdings: its index words, a share of the table, its hidden rows. -/
abbrev iHeld (h : k0_cond1 L = 1#1) (fI : Buf (Elt F) (iLoc d)) : sProp 𝕄 :=
  (iRowK L h).view.loc (V d (cV L) (jV L)) ↦[(iRowK L h).view.set]{fullShare} fI
abbrev xHeld (q : PosShare TreeShare) (fE : Buf (Elt F) (xLoc d)) : sProp 𝕄 :=
  (xV).view.loc (V d (cV L) (jV L)) ↦{q} fE
abbrev oHeld (h : k0_cond1 L = 1#1) (fO : Buf (Elt F) (oLoc d)) : sProp 𝕄 :=
  (oRowK L h).view.loc (V d (cV L) (jV L)) ↦[(oRowK L h).view.set]{fullShare} fO

set_option maxHeartbeats 4000000 in
/-- The task of an active tile: the index fetch and its wait, the gather of the rows the fetched words name and its
    wait, the write-out and its wait.  Its hidden rows end at the table rows its index words name. -/
theorem tile_active (hF : (K (F := F)).Facts) (h : k0_cond1 L = 1#1) (fI : Buf (Elt F) (iLoc d)) (fE : Buf (Elt F) (xLoc d)) (fO : Buf (Elt F) (oLoc d))
    (hI : ∀ j : S32.Idx, (fI j).toNat < 100000) (q : PosShare TreeShare)
    (O : CellTallies nD τ sig (HIx 1)) (W : Waits sig (HIx 1)) (hO : ∀ g, O g none = 0) :
    iprop(levAts (K (F := F)).L (K (F := F)).lev ∗ emp
        ∗ (iHeld d L h fI ∗ xHeld d L q fE ∗ oHeld d L h fO)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L iV (Memref.isWhole_whole _) xV (Memref.isWhole_whole _) oV (Memref.isWhole_whole _)
            sV (Memref.isWhole_whole _) rV (Memref.isWhole_whole _) cc0_scratch2 cc0_scoped0 cc0_scoped1)
          fun _ => iprop((iHeld d L h fI ∗ xHeld d L q fE ∗ oHeld d L h (hidV fI fE))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [dif_pos h]
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (show ((V d (cV L) (jV L)).loc cc0_scratch0 ↦{fullShare} fs : sProp 𝕄) = ((sV).view.loc (V d (cV L) (jV L)) ↦{fullShare} fs) from rfl)) $$ Hs
  ihave Hr' := (Entails.of_eq (show ((V d (cV L) (jV L)).loc cc0_scratch1 ↦{fullShare} fr : sProp 𝕄) = ((rV).view.loc (V d (cV L) (jV L)) ↦{fullShare} fr) from rfl)) $$ Hr
  sl_exec
  -- the gather: a share of the table's elements, the row scratch, the fetched list whole, the gather's semaphore at zero
  ihave Hxs := (pointsTo_split_subset (q := q) (f := fE) (S := Finset.univ) (Finset.subset_univ (xAllK).view.set)).1 $$ Hx
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_active.sl.dma0 d L h fI) Finset.univ : sProp 𝕄)
      = (sV).view.loc (V d (cV L) (jV L)) ↦[(sV).view.set]{fullShare} View.write (Elt F) (sV).view fs (tile_active.sl.dma0 d L h fI) Finset.univ
      by rw [hss])) $$ Hs'
  have hN : ∀ hg : S100000x128.Gathers 0 S8x128, ∑ j, ((rV).slice (S8x128.rowRect hg.axis' j) (S8x128.stride_rowRect hg.axis' j)).view.dmaCredit
      = (rV).view.dmaCredit := by decide
  have hin : ∀ x, ((sV).view.read (Elt F) (View.write (Elt F) (sV).view fs (tile_active.sl.dma0 d L h fI) Finset.univ) x).toNat
      < S100000x128.size gathers_S100000x128_S8x128.axis := by
    intro x
    rw [View.write_whole_univ]
    simp only [Memref.view_whole, View.read_whole]
    show ((iRowK L h).view.read (Elt F) fI x).toNat < _
    rw [show (iRowK L h).view.read (Elt F) fI x = fI ((iRowK L h).view.emb x) from (View.read_apply _ _).trans (cast_eq _ _)]
    exact hI _
  iapply (SparseCore.wp_indirectGatherLocal countersEmb 𝒱₀ (V d (cV L) (jV L)) none (hg := gathers_S100000x128_S8x128) (default : HIx 1)
      (rV).view.dmaCredit (hN _) (by decide) hin) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemA, HO⟩
  ihave Hx' := (pointsTo_split_subset (q := q) (f := fE) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the hidden rows: what was written is, on the tile's rows, the table rows the index words name
  have hw : ∀ y, tile_active.sl.dma0_1 d L h fI fE fs fr hin y = hidV fI fE ((oRowK L h).view.emb y) := fun y => by
    unfold tile_active.sl.dma0_1
    rw [View.write_whole_univ]
    simp only [Memref.view_whole, View.read_whole]
    exact gathered_eq d L h fI fE hI fs _ hin y
  ihave Ho' := (Entails.of_eq (pointsTo_congr (written_eq d L h fI fE hI fO _ hw))) $$ Ho
  isplitl [Hi Hx' Ho']
  · isplitl [Hi]; · iexact Hi
    isplitl [Hx']; · iexact Hx'
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- The task of an idle tile: nothing. -/
theorem tile_idle (h : ¬ k0_cond1 L = 1#1) (R : sProp 𝕄) :
    R ⊢ wp frame (wpE (defs₀ (F := F)) 𝒱₀ (V d (cV L) (jV L)) none) Set.univ
          (cc0_gather_k L iV (Memref.isWhole_whole _) xV (Memref.isWhole_whole _) oV (Memref.isWhole_whole _)
            sV (Memref.isWhole_whole _) rV (Memref.isWhole_whole _) cc0_scratch2 cc0_scoped0 cc0_scoped1)
          fun _ => R := by
  simp only [cc0_gather_k_eq_skeleton]; unfold cc0_gather_k_skel
  rw [dif_neg h]
  iintro H
  sl_exec
  sl_step
  iexact H

end Tile

/-! ## The obligation -/

section Obl

variable [FloatOps F]
variable (fI : (d : Dev nD) → Buf (Elt F) (iLoc d)) (fE : (d : Dev nD) → Buf (Elt F) (xLoc d)) (fO : (d : Dev nD) → Buf (Elt F) (oLoc d))

theorem defs₀_vector (c : Fin τ.nSC) (s : Fin τ.nSub) :
    defs₀ (F := F) (.scVector c s) 0 ()
      = SparseCore.onTile hcore0 hsub0 (fun c s => cc0_gather_k (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- An active tile's holdings are its worker's parts. -/
theorem held_eq (d : Dev nD) (L : grid0.Coords) (h : k0_cond1 L = 1#1) (h2 : (L 1).val < 2) (a : Buf (Elt F) (iLoc d)) (b : Buf (Elt F) (xLoc d)) (o : Buf (Elt F) (oLoc d)) :
    (iprop(iHeld d L h a ∗ xHeld d L (xq (wk (Fin.cast bound0 (L 0)) ⟨(L 1).val, h2⟩)) b ∗ oHeld d L h o) : sProp 𝕄)
      = wRes d a b o (wk (Fin.cast bound0 (L 0)) ⟨(L 1).val, h2⟩) := by
  unfold iHeld oHeld
  rw [set_iRowK L h h2, set_oRowK L h h2]

omit [FloatOps F] in
theorem idle_post {thr : Thread nD τ} {A X B C : sProp 𝕄} {O : CellTallies nD τ sig (HIx 1)} {W : Waits sig (HIx 1)} {q : Fin 1} :
    iprop(A ∗ X ∗ emp ∗ B ∗ C ∗ owes thr O W)
      ⊢ iprop(emp ∗ B ∗ C ∗ ∃ W', ⌜∀ p ∈ W', p ∈ W ∨ p.2 = none ∨ p.2 = some q⌝ ∗ owes thr O W') := by
  iintro ⟨-, -, -, Hb, Hs, HO⟩
  isplitr; · iempintro
  isplitl [Hb]; · iexact Hb
  isplitl [Hs]; · iexact Hs
  iexists W; isplitr
  · ipureintro; exact fun p hp => Or.inl hp
  · iexact HO

set_option maxRecDepth 16384 in
theorem tileObl (hF : (K (F := F)).Facts) (hI : ∀ d (j : S32.Idx), (fI d j).toNat < 100000) :
    (K (F := F)).TileObl (D (F := F)) 𝒱 (P fI fE fO) v₀ 0 := by
  intro d c i O W hO _ _
  simp only [show (P fI fE fO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  by_cases h2 : i.val < 2
  · -- a worker's tile
    have hc : k0_cond1 (coordsV ⟨_, hci.1⟩ ⟨_, hci.2⟩) = 1#1 := (cond_iff _).mpr h2
    have hgo : (P fI fE fO).go 0 d c i
        = iprop(iHeld d (coordsV ⟨_, hci.1⟩ ⟨_, hci.2⟩) hc (fI d)
            ∗ xHeld d (coordsV ⟨_, hci.1⟩ ⟨_, hci.2⟩) (xq (wk (Fin.cast bound0 ((coordsV ⟨_, hci.1⟩ ⟨_, hci.2⟩ : grid0.Coords) 0)) ⟨_, h2⟩)) (fE d)
            ∗ oHeld d (coordsV ⟨_, hci.1⟩ ⟨_, hci.2⟩) hc (fO d)) := by
      show tileRes d (fI d) (fE d) (fO d) (Fin.cast nCore_zero c) (Fin.cast nSub_zero i) = _
      unfold tileRes; rw [dif_pos (show (Fin.cast nSub_zero i).val < 2 from h2)]
      exact (held_eq d (coordsV ⟨_, hci.1⟩ ⟨_, hci.2⟩) hc h2 (fI d) (fE d) (fO d)).symm
    have htd : (P fI fE fO).td 0 d c i
        = iprop(iHeld d (coordsV ⟨_, hci.1⟩ ⟨_, hci.2⟩) hc (fI d)
            ∗ xHeld d (coordsV ⟨_, hci.1⟩ ⟨_, hci.2⟩) (xq (wk (Fin.cast bound0 ((coordsV ⟨_, hci.1⟩ ⟨_, hci.2⟩ : grid0.Coords) 0)) ⟨_, h2⟩)) (fE d)
            ∗ oHeld d (coordsV ⟨_, hci.1⟩ ⟨_, hci.2⟩) hc (HV fI fE d)) := by
      show tileRes d (fI d) (fE d) (HV fI fE d) (Fin.cast nCore_zero c) (Fin.cast nSub_zero i) = _
      unfold tileRes; rw [dif_pos (show (Fin.cast nSub_zero i).val < 2 from h2)]
      exact (held_eq d (coordsV ⟨_, hci.1⟩ ⟨_, hci.2⟩) hc h2 (fI d) (fE d) (HV fI fE d)).symm
    rw [hgo, htd]
    exact (tile_active d (coordsV ⟨_, hci.1⟩ ⟨_, hci.2⟩) hF hc (fI d) (fE d) (fO d) (hI d) _ O W hO).trans (wp_mono frame _ _ fun _ => obl_post)
  · -- an idle tile
    have hc : ¬ k0_cond1 (coordsV ⟨_, hci.1⟩ ⟨_, hci.2⟩) = 1#1 := fun e => h2 ((cond_iff _).mp e)
    have hgo : (P fI fE fO).go 0 d c i = iprop(emp) := by
      show tileRes d (fI d) (fE d) (fO d) (Fin.cast nCore_zero c) (Fin.cast nSub_zero i) = _
      unfold tileRes; rw [dif_neg (show ¬ (Fin.cast nSub_zero i).val < 2 from h2)]
    have htd : (P fI fE fO).td 0 d c i = iprop(emp) := by
      show tileRes d (fI d) (fE d) (HV fI fE d) (Fin.cast nCore_zero c) (Fin.cast nSub_zero i) = _
      unfold tileRes; rw [dif_neg (show ¬ (Fin.cast nSub_zero i).val < 2 from h2)]
    rw [hgo, htd]
    exact (tile_idle d (coordsV ⟨_, hci.1⟩ ⟨_, hci.2⟩) hc _).trans (wp_mono frame _ _ fun _ => idle_post)

end Obl

end Cert.Kernel.Hand

end
-- ==== Proof.RegionIfaceK.lean ====
/-
  The projection's region as the launch meets it.  Before it the TensorCore holds its eight arrays at the contents the
  gather and the two reshapes left, owes nothing, and its recorded waits sit at the handshakes' levels; after it the
  same, with the result array at contents of which a stated property holds.
-/
import proofs.«217564_g44109314130489_cont_8to1_b_132_32_alg».proof.Proof.CommonK

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- One of the TensorCore's arrays, whole, at contents `f`. -/
abbrev pl (d : Dev nD) (b : Ref sig .tc) (f : Buf (Elt F) ((SparseCore.T d : Thread nD τ).loc b)) : sProp 𝕄 :=
  (SparseCore.T d : Thread nD τ).loc b ↦{fullShare} f

/-- The pairs a TensorCore's waits may have recorded by the time the projection runs: those at the handshakes' levels. -/
def lowPairs (d : Dev nD) : Set (SemLoc sig × HIx 1) := {p | (K (F := F)).lev ((SparseCore.T d : Thread nD τ), p.1) p.2 ≤ 8}

variable (mr : (ℓ : Loc nD τ sig) → Buf (Elt F) ℓ)

/-- The eight arrays at the contents `mr`, but the result's at `G`. -/
def bufsAt (d : Dev nD) (G : Buf (Elt F) ((SparseCore.T d : Thread nD τ).loc main_v3)) : sProp 𝕄 :=
  iprop(pl d main_arg0 (mr _) ∗ pl d main_arg1 (mr _) ∗ pl d main_arg2 (mr _) ∗ pl d main_arg3 (mr _)
    ∗ pl d main_v0 (mr _) ∗ pl d main_v1 (mr _) ∗ pl d main_v2 (mr _) ∗ pl d main_v3 G)

/-- The TensorCore owing nothing, its recorded waits at the handshakes' levels. -/
def owesLow (d : Dev nD) : sProp 𝕄 :=
  iprop(∃ W : Waits sig (HIx 1), ⌜(↑W : Set (SemLoc sig × HIx 1)) ⊆ lowPairs (F := F) d⌝ ∗ owes (SparseCore.T d : Thread nD τ) 0 W)

/-- Before the region, and after it. -/
def regPre (d : Dev nD) : sProp 𝕄 := iprop(bufsAt mr d (mr _) ∗ owesLow (F := F) d)
def regPost (OUTP : (d : Dev nD) → Buf (Elt F) ((SparseCore.T d : Thread nD τ).loc main_v3) → Prop) (d : Dev nD) : sProp 𝕄 :=
  iprop((∃ G, ⌜OUTP d G⌝ ∗ bufsAt mr d G) ∗ owesLow (F := F) d)

/-- What @main leaves the claim: the four arguments at their launch contents `m`, the result at contents of which
    `OUTP` holds. -/
def FIN (m : (ℓ : Loc nD τ sig) → Buf (Elt F) ℓ)
    (OUTP : (d : Dev nD) → Buf (Elt F) ((SparseCore.T d : Thread nD τ).loc main_v3) → Prop) (d : Dev nD) : sProp 𝕄 :=
  iprop(pl d main_arg0 (m _) ∗ pl d main_arg1 (m _) ∗ pl d main_arg2 (m _) ∗ pl d main_arg3 (m _) ∗ ∃ G, ⌜OUTP d G⌝ ∗ pl d main_v3 G)

/-- The same read of a final state. -/
def fq (m : (ℓ : Loc nD τ sig) → Buf (Elt F) ℓ)
    (OUTP : (d : Dev nD) → Buf (Elt F) ((SparseCore.T d : Thread nD τ).loc main_v3) → Prop) (d : Dev nD) (s' : Phys nD τ sig (Elt F)) : Prop :=
  s'.mem.mem ((SparseCore.T d : Thread nD τ).loc main_arg0) = m _ ∧ s'.mem.mem ((SparseCore.T d : Thread nD τ).loc main_arg1) = m _
    ∧ s'.mem.mem ((SparseCore.T d : Thread nD τ).loc main_arg2) = m _ ∧ s'.mem.mem ((SparseCore.T d : Thread nD τ).loc main_arg3) = m _
    ∧ OUTP d (s'.mem.mem ((SparseCore.T d : Thread nD τ).loc main_v3))

variable [FloatOps F]

/-- The region's step: the call of the projection's pipeline, from the boundary, the state before, the level facts and the
    pipeline's ghost state, to the boundary and the state after, around any continuation. -/
def RegionStep (OUTP : (d : Dev nD) → Buf (Elt F) ((SparseCore.T d : Thread nD τ).loc main_v3) → Prop) : Prop :=
  ∀ (d : Dev nD) {α : Type} (k : PUnit → Prog (TpuEff nD τ sig (Elt F) (ΛP (F := F)) .tc) α) (Q : α → sProp 𝕄),
    iprop((iprop(boundary (SparseCore.T d : Thread nD τ) ∗ regPost mr OUTP d) -∗ wp frame (wpE (D (F := F)) 𝒱 (SparseCore.T d) none) Set.univ (k ⟨⟩) Q)
        ∗ boundary (SparseCore.T d : Thread nD τ) ∗ regPre mr d ∗ levAts (K (F := F)).L (K (F := F)).lev
        ∗ Pipeline.cellsGhost (Pipeline.pin (pcfgs (F := F)) (fun p => (cfgs p).toPCfg_adm)) EP 0 d
        ∗ Pipeline.toksInit (Pipeline.pin (pcfgs (F := F)) (fun p => (cfgs p).toPCfg_adm)) EP 0 d)
      ⊢ wp frame (wpE (D (F := F)) 𝒱 (SparseCore.T d) none) Set.univ (.op (.customCall (Pipeline.entry 0) ()) k) Q

end Cert.Kernel.Hand

end
-- ==== Proof.ArraysK.lean ====
/-
  The TensorCore's arrays at the two ends of the program.  The arrays that live across regions are exactly the four
  arguments and the four values of the program, so what the launch deals the TensorCore of them is the chain of the eight,
  each whole; and what the program leaves of them — the four arguments at their launch contents, the result at contents of
  which a stated property holds — is read off the final state, since a whole array held at given contents is the
  physical array.
-/
import proofs.«217564_g44109314130489_cont_8to1_b_132_32_alg».proof.Proof.CommonK
import proofs.«217564_g44109314130489_cont_8to1_b_132_32_alg».proof.Proof.RegionIfaceK
import proofs.«217564_g44109314130489_cont_8to1_b_132_32_alg».proof.Proof.PayK

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays the launch deals -/

/-- The arrays of the TensorCore that are not scoped are the eight of the program, so holding them all is holding the
    chain of the eight. -/
theorem unscopedBufs_eq (d : Dev nD) (W : (b : Ref sig .tc) → Buf (Elt F) ((SparseCore.T d : Thread nD τ).loc b)) :
    (unscopedBufs d W : sProp 𝕄)
      = iprop(pl d main_arg0 (W main_arg0) ∗ pl d main_arg1 (W main_arg1) ∗ pl d main_arg2 (W main_arg2) ∗ pl d main_arg3 (W main_arg3)
          ∗ pl d main_v0 (W main_v0) ∗ pl d main_v1 (W main_v1) ∗ pl d main_v2 (W main_v2) ∗ pl d main_v3 (W main_v3)) := by
  unfold unscopedBufs
  rw [show (Finset.univ.filter fun b : Ref sig .tc => ¬ b.isScoped)
        = {main_arg0, main_arg1, main_arg2, main_arg3, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- At contents that are 'mr' everywhere but 'G' at the result array, that chain is 'bufsAt'. -/
theorem unscopedBufs_bufsAt (mr : (ℓ : Loc nD τ sig) → Buf (Elt F) ℓ) (d : Dev nD)
    (G : Buf (Elt F) ((SparseCore.T d : Thread nD τ).loc main_v3)) :
    (unscopedBufs d (fun b => Function.update (fun b' => mr ((SparseCore.T d : Thread nD τ).loc b')) main_v3 G b) : sProp 𝕄)
      = bufsAt mr d G := by
  have h0 : main_arg0 ≠ main_v3 := by decide
  have h1 : main_arg1 ≠ main_v3 := by decide
  have h2 : main_arg2 ≠ main_v3 := by decide
  have h3 : main_arg3 ≠ main_v3 := by decide
  have h4 : main_v0 ≠ main_v3 := by decide
  have h5 : main_v1 ≠ main_v3 := by decide
  have h6 : main_v2 ≠ main_v3 := by decide
  rw [unscopedBufs_eq]
  unfold bufsAt
  simp only [Function.update_of_ne h0, Function.update_of_ne h1, Function.update_of_ne h2, Function.update_of_ne h3,
    Function.update_of_ne h4, Function.update_of_ne h5, Function.update_of_ne h6, Function.update_self]

/-! ## Reading the end -/

set_option maxRecDepth 16384 in
/-- What the program leaves, held beside the state interpretation of a final state, says of that state: each argument's
    physical array is its launch contents, and the stated property holds of the result's physical array (the contents it is
    held at are the physical ones, so the property moves along that equation). -/
theorem hfin (m : (ℓ : Loc nD τ sig) → Buf (Elt F) ℓ)
    (OUTP : (d : Dev nD) → Buf (Elt F) ((SparseCore.T d : Thread nD τ).loc main_v3) → Prop) (d : Dev nD)
    (s' : Phys nD τ sig (Elt F)) : iprop(FIN m OUTP d ∗ SI s') ⊢ (⌜fq m OUTP d s'⌝ : sProp 𝕄) := by
  unfold FIN
  iintro ⟨⟨H0, H1, H2, H3, %G, %hG, H4⟩, HSI⟩
  ihave H := (persistent_entails_right (SI_pointsTo_agree (st := s') (ℓ := (SparseCore.T d : Thread nD τ).loc main_arg0) (I := Finset.univ) (q := fullShare) (f := m _))) $$ [HSI H0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare) (f := m _))) $$ [HSI H1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare) (f := m _))) $$ [HSI H2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare) (f := m _))) $$ [HSI H3]
  · isplitl [HSI] <;> iassumption
  icases H with ⟨%h3, HSI, -⟩
  ihave H := (SI_pointsTo_agree (st := s') (ℓ := (SparseCore.T d : Thread nD τ).loc main_v3) (I := Finset.univ) (q := fullShare) (f := G)) $$ [HSI H4]
  · isplitl [HSI] <;> iassumption
  icases H with %h4
  ipureintro
  have hG' : s'.mem.mem ((SparseCore.T d : Thread nD τ).loc main_v3) = G := funext fun i => h4 i (Finset.mem_univ i)
  exact ⟨funext fun i => h0 i (Finset.mem_univ i), funext fun i => h1 i (Finset.mem_univ i),
    funext fun i => h2 i (Finset.mem_univ i), funext fun i => h3 i (Finset.mem_univ i), hG' ▸ hG⟩

end Cert.Kernel.Hand

end
-- ==== Proof.LaunchElemK.lean ====
/-
  The launch element of the ghost state, and what it pays for.

  The ghost state has three components side by side: the rounds of the handshakes between the TensorCore, the sequencers
  and the tiles; the rounds of the projection's staging semaphores; and the counters of the tiles' own copies.  At launch
  the first holds the handshakes' cells and duties, the second the staging cells and the duties of the transfers the
  projection's loop issues, the third nothing.  Owning the element is owning each component through its embedding; the
  first is handed on as it stands, the second funds, device by device, the launch state of each staging cell and the
  tokens of the loop's transfers, and the third is dropped.
-/
import proofs.«217564_g44109314130489_cont_8to1_b_132_32_alg».proof.Proof.CommonK
import proofs.«217564_g44109314130489_cont_8to1_b_132_32_alg».proof.Proof.RegionIfaceK
import proofs.«217564_g44109314130489_cont_8to1_b_132_32_alg».proof.Proof.PayK

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- No two staging buffers of the projection complete on one semaphore: the projection prefetches no table, so at its one
    admissible table contents it is the configuration the distinctness was decided for. -/
theorem launch_inj :
    Function.Injective (Pipeline.cellOf (nD := nD) (τ := τ) (Pipeline.pin (pcfgs (F := F)) (fun p => (cfgs p).toPCfg_adm))) :=
  cellOf_inj

/-- The launch element: the handshakes' cells and duties; the staging cells and the loop's transfers; no counter. -/
def u₀ : UU :=
  (initOf (K (F := F)).hsCells (K (F := F)).hsToks,
    (initOf (Pipeline.cells (Pipeline.pin (pcfgs (F := F)) (fun p => (cfgs p).toPCfg_adm)) (launch_inj (F := F)))
        (Pipeline.launchToks (Pipeline.pin (pcfgs (F := F)) (fun p => (cfgs p).toPCfg_adm)) (launch_inj (F := F))),
      (1 : Counters)))

/-- What device 'd' is dealt of the staging cells' ghost state: each cell's launch state, and the tokens of the transfers
    the loop issues. -/
def Gd (d : Dev nD) : sProp 𝕄 :=
  iprop(Pipeline.cellsGhost (Pipeline.pin (pcfgs (F := F)) (fun p => (cfgs p).toPCfg_adm)) EP 0 d
    ∗ Pipeline.toksInit (Pipeline.pin (pcfgs (F := F)) (fun p => (cfgs p).toPCfg_adm)) EP 0 d)

/-- The staging semaphores' component reached by first splitting off the handshakes' and then the counters' is the one
    reached through its own embedding: both are the same composite of injections. -/
theorem own_EP (a : UP) :
    (BI.own (((Emb.inl : Emb UP (UP × Counters)).trans (embR : Emb (UP × Counters) 𝕄)) a) : sProp 𝕄) ⊢ BI.own ((EP : Emb UP 𝕄) a) :=
  Entails.of_eq rfl

theorem bigSep_emp' {I : Type} (s : Finset I) : (bigSep s fun _ => iprop(emp)) = (iprop(emp) : sProp 𝕄) := bigSep_emp_const s

variable (fI : (d : Dev nD) → Buf (Elt F) (iLoc d)) (fE : (d : Dev nD) → Buf (Elt F) (xLoc d)) (fO : (d : Dev nD) → Buf (Elt F) (oLoc d))

/-- Owning the launch element pays for the handshakes' rounds, every device's share of the staging cells' ghost state, and
    the (empty) extra holdings of every thread. -/
theorem hu₀ : (ownU (u₀ (F := F)) : sProp 𝕄)
    ⊢ |={Set.univ}=> iprop(BI.own (EH (initOf (K (F := F)).hsCells (K (F := F)).hsToks))
        ∗ (bigSep Finset.univ fun d : Dev nD => Gd d)
        ∗ bigSep Finset.univ fun thr : Thread nD τ => bigSep Finset.univ fun q : Fin 1 => (P fI fE fO).x q thr) := by
  unfold u₀
  iintro Hu
  ihave H := (ownU_pair (initOf (K (F := F)).hsCells (K (F := F)).hsToks)
    (initOf (Pipeline.cells (Pipeline.pin (pcfgs (F := F)) (fun p => (cfgs p).toPCfg_adm)) (launch_inj (F := F)))
        (Pipeline.launchToks (Pipeline.pin (pcfgs (F := F)) (fun p => (cfgs p).toPCfg_adm)) (launch_inj (F := F))),
      (1 : Counters))) $$ Hu
  icases H with ⟨HH, HR⟩
  ihave H2 := (own_pair_emb (embR : Emb (UP × Counters) 𝕄)
    (initOf (Pipeline.cells (Pipeline.pin (pcfgs (F := F)) (fun p => (cfgs p).toPCfg_adm)) (launch_inj (F := F)))
        (Pipeline.launchToks (Pipeline.pin (pcfgs (F := F)) (fun p => (cfgs p).toPCfg_adm)) (launch_inj (F := F))))
    (1 : Counters)) $$ HR
  icases H2 with ⟨HP, -⟩
  ihave HQ := (own_EP (F := F) _) $$ HP
  imod (Pipeline.fund_ghost (Pipeline.pin (pcfgs (F := F)) (fun p => (cfgs p).toPCfg_adm)) EP (launch_inj (F := F))) $$ HQ with ⟨Hg, Ht⟩
  imodintro
  isplitl [HH]; · iexact HH
  isplitl [Hg Ht]
  · have eg : (bigSep Finset.univ fun d : Dev nD => bigSep Finset.univ fun p : Fin 1 =>
          Pipeline.cellsGhost (Pipeline.pin (pcfgs (F := F)) (fun p => (cfgs p).toPCfg_adm)) EP p d : sProp 𝕄)
        = bigSep Finset.univ fun d : Dev nD => Pipeline.cellsGhost (Pipeline.pin (pcfgs (F := F)) (fun p => (cfgs p).toPCfg_adm)) EP 0 d :=
      bigSep_congr fun _ _ => bigSep_univ_of_subsingleton (0 : Fin 1)
    have et : (bigSep Finset.univ fun d : Dev nD => bigSep Finset.univ fun p : Fin 1 =>
          Pipeline.toksInit (Pipeline.pin (pcfgs (F := F)) (fun p => (cfgs p).toPCfg_adm)) EP p d : sProp 𝕄)
        = bigSep Finset.univ fun d : Dev nD => Pipeline.toksInit (Pipeline.pin (pcfgs (F := F)) (fun p => (cfgs p).toPCfg_adm)) EP 0 d :=
      bigSep_congr fun _ _ => bigSep_univ_of_subsingleton (0 : Fin 1)
    unfold Gd
    rw [bigSep_sep']
    isplitl [Hg]
    · ihave Hg' := (Entails.of_eq eg) $$ Hg
      iexact Hg'
    · ihave Ht' := (Entails.of_eq et) $$ Ht
      iexact Ht'
  rw [show (bigSep Finset.univ fun thr : Thread nD τ => bigSep Finset.univ fun q : Fin 1 => (P (F := F) fI fE fO).x q thr) = bigSep Finset.univ fun _ => iprop(emp) from
    bigSep_congr fun _ _ => bigSep_univ_of_subsingleton (0 : Fin 1), bigSep_emp']
  iempintro

end Cert.Kernel.Hand

end
-- ==== Proof.LaunchK.lean ====
/-
  The kernel program's run.  @main on the TensorCore: the index argument reshaped to a [32] array; the row gather on
  the SparseCores (the index array, the table and the hidden array out to the four workers and back, the hidden array
  then holding the table rows the index words name); the bias reshaped to a [1, 100000] row; the projection's region.
  From any memory whose index words name table rows, every weakly fair execution of the whole family of threads
  terminates, the four arguments end as they began, and the result array ends at contents of which the region's stated
  property holds.
-/
import proofs.«217564_g44109314130489_cont_8to1_b_132_32_alg».proof.Proof.TileK
import proofs.«217564_g44109314130489_cont_8to1_b_132_32_alg».proof.Proof.SplitK
import proofs.«217564_g44109314130489_cont_8to1_b_132_32_alg».proof.Proof.ArraysK
import proofs.«217564_g44109314130489_cont_8to1_b_132_32_alg».proof.Proof.LaunchElemK
import proofs.«217564_g44109314130489_cont_8to1_b_132_32_alg».proof.Proof.RegionIfaceK
import Idealize.ShloMosaic.Lib.SparseCore.Launch
import Idealize.ShloMosaic.Lib.StableHlo.Run

noncomputable section

namespace Cert.Kernel.Hand

open Cert.Kernel Cert.Kernel.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## @main on the TensorCore -/

section Main

variable [FloatOps F]
variable (m : (ℓ : Loc nD τ sig) → Buf (Elt F) ℓ) (ρ : Dev nD → PrngReg)

/-- The launch valuation of device `d`. -/
def V0 (d : Dev nD) : Valuation τ sig (Elt F) := fun b => m (d, b)

/-- The two reshapes of @main. -/
abbrev op0 : HloOp τ sig (Elt F) := StableHlo.reshape main_arg0 main_v0 rfl shapeCasts_S32x1_S32
abbrev op1 : HloOp τ sig (Elt F) := StableHlo.reshape main_arg3 main_v2 rfl shapeCasts_S100000_S1x100000

/-- The index array after the first reshape; the bias row after the second. -/
def I0 (d : Dev nD) : Buf (Elt F) (iLoc d) := (op0 (F := F)).result (V0 m d) (Proc.devRef .tc main_v0)
def B2 (d : Dev nD) : Buf (Elt F) ((SparseCore.T d : Thread nD τ).loc main_v2) := (op1 (F := F)).result (V0 m d) (Proc.devRef .tc main_v2)

/-- The hidden array after the gather. -/
abbrev H1 (d : Dev nD) : Buf (Elt F) (oLoc d) := HV (I0 m) (fun d => m (xLoc d)) d

/-- The memory the projection's region is entered from. -/
def mrV (d : Dev nD) : Valuation τ sig (Elt F) :=
  Function.update (Function.update (Function.update (V0 m d) (Proc.devRef .tc main_v0) (I0 m d)) (Proc.devRef .tc main_v1) (H1 m d)) (Proc.devRef .tc main_v2) (B2 m d)
def mr : (ℓ : Loc nD τ sig) → Buf (Elt F) ℓ := fun ℓ => mrV m ℓ.1 ℓ.2

theorem held_pair (d : Dev nD) (x y : Ref sig .tc) (hxy : (Proc.devRef .tc x : DevRef τ sig) ≠ Proc.devRef .tc y) (V : Valuation τ sig (Elt F)) :
    (held (SparseCore.T d) ({(Proc.devRef .tc x : DevRef τ sig), Proc.devRef .tc y} : Finset (DevRef τ sig)) V : sProp 𝕄)
      = iprop(pl d x (V (Proc.devRef .tc x)) ∗ pl d y (V (Proc.devRef .tc y))) := by
  unfold held
  rw [SparseCore.bigSep_insert' (by simpa using hxy), bigSep_singleton]

theorem ne_v0_v1 : (Proc.devRef .tc main_v0 : DevRef τ sig) ≠ Proc.devRef .tc main_v1 := by decide
theorem ne_v0_v2 : (Proc.devRef .tc main_v0 : DevRef τ sig) ≠ Proc.devRef .tc main_v2 := by decide
theorem ne_v1_v2 : (Proc.devRef .tc main_v1 : DevRef τ sig) ≠ Proc.devRef .tc main_v2 := by decide

/-- The region's entry memory off the three arrays the gather and the reshapes wrote is the launch memory. -/
theorem mr_other (d : Dev nD) (b : Ref sig .tc) (h0 : (Proc.devRef .tc b : DevRef τ sig) ≠ Proc.devRef .tc main_v0)
    (h1 : (Proc.devRef .tc b : DevRef τ sig) ≠ Proc.devRef .tc main_v1) (h2 : (Proc.devRef .tc b : DevRef τ sig) ≠ Proc.devRef .tc main_v2) :
    mr m ((SparseCore.T d : Thread nD τ).loc b) = m ((SparseCore.T d : Thread nD τ).loc b) := by
  show mrV m d (Proc.devRef .tc b) = _
  unfold mrV
  rw [Function.update_of_ne h2, Function.update_of_ne h1, Function.update_of_ne h0]; rfl
theorem mr_v0 (d : Dev nD) : mr m ((SparseCore.T d : Thread nD τ).loc main_v0) = I0 m d := by
  show mrV m d (Proc.devRef .tc main_v0) = _
  unfold mrV
  rw [Function.update_of_ne ne_v0_v2, Function.update_of_ne ne_v0_v1, Function.update_self]
theorem mr_v1 (d : Dev nD) : mr m ((SparseCore.T d : Thread nD τ).loc main_v1) = H1 m d := by
  show mrV m d (Proc.devRef .tc main_v1) = _
  unfold mrV
  rw [Function.update_of_ne ne_v1_v2, Function.update_self]
theorem mr_v2 (d : Dev nD) : mr m ((SparseCore.T d : Thread nD τ).loc main_v2) = B2 m d := by
  show mrV m d (Proc.devRef .tc main_v2) = _
  unfold mrV
  rw [Function.update_self]

theorem op0_arg0 (d : Dev nD) : (op0 (F := F)).result (V0 m d) (Proc.devRef .tc main_arg0) = m ((SparseCore.T d : Thread nD τ).loc main_arg0) :=
  (op0 (F := F)).result_of_not_mem (V0 m d) (b := Proc.devRef .tc main_arg0) (show (Proc.devRef .tc main_arg0 : DevRef τ sig) ∉ ({Proc.devRef .tc main_v0} : Finset (DevRef τ sig)) by decide)
theorem op1_arg3 (d : Dev nD) : (op1 (F := F)).result (V0 m d) (Proc.devRef .tc main_arg3) = m ((SparseCore.T d : Thread nD τ).loc main_arg3) :=
  (op1 (F := F)).result_of_not_mem (V0 m d) (b := Proc.devRef .tc main_arg3) (show (Proc.devRef .tc main_arg3 : DevRef τ sig) ∉ ({Proc.devRef .tc main_v2} : Finset (DevRef τ sig)) by decide)

/-- The arrays before the region, from the eight as @main holds them there. -/
theorem bufsAt_intro (d : Dev nD) :
    (iprop(pl d main_arg0 ((op0 (F := F)).result (V0 m d) (Proc.devRef .tc main_arg0)) ∗ pl d main_arg1 (m (xLoc d)) ∗ pl d main_arg2 (m ((SparseCore.T d : Thread nD τ).loc main_arg2))
        ∗ pl d main_arg3 ((op1 (F := F)).result (V0 m d) (Proc.devRef .tc main_arg3)) ∗ pl d main_v0 (I0 m d) ∗ pl d main_v1 (H1 m d)
        ∗ pl d main_v2 ((op1 (F := F)).result (V0 m d) (Proc.devRef .tc main_v2)) ∗ pl d main_v3 (m ((SparseCore.T d : Thread nD τ).loc main_v3))) : sProp 𝕄)
      = bufsAt (mr m) d (mr m _) := by
  unfold bufsAt
  rw [mr_other m d main_arg0 (by decide) (by decide) (by decide), mr_other m d main_arg1 (by decide) (by decide) (by decide),
    mr_other m d main_arg2 (by decide) (by decide) (by decide), mr_other m d main_arg3 (by decide) (by decide) (by decide),
    mr_other m d main_v3 (by decide) (by decide) (by decide), mr_v0, mr_v1, mr_v2, op0_arg0, op1_arg3]
  rfl

/-- After the region: the four arguments at their launch contents and the result, out of the eight. -/
theorem bufsAt_FIN (OUTP : (d : Dev nD) → Buf (Elt F) ((SparseCore.T d : Thread nD τ).loc main_v3) → Prop) (d : Dev nD)
    (G : Buf (Elt F) ((SparseCore.T d : Thread nD τ).loc main_v3)) (hG : OUTP d G) :
    bufsAt (mr m) d G ⊢ (FIN m OUTP d : sProp 𝕄) := by
  unfold bufsAt FIN
  rw [mr_other m d main_arg0 (by decide) (by decide) (by decide), mr_other m d main_arg1 (by decide) (by decide) (by decide),
    mr_other m d main_arg2 (by decide) (by decide) (by decide), mr_other m d main_arg3 (by decide) (by decide) (by decide)]
  iintro ⟨Ha0, Ha1, Ha2, Ha3, -, -, -, Hv3⟩
  isplitl [Ha0]; · iexact Ha0
  isplitl [Ha1]; · iexact Ha1
  isplitl [Ha2]; · iexact Ha2
  isplitl [Ha3]; · iexact Ha3
  iexists G; isplitr; · ipureintro; exact hG
  iexact Hv3

theorem held_op0 (d : Dev nD) (V : Valuation τ sig (Elt F)) :
    (held (SparseCore.T d) (op0 (F := F)).bufs V : sProp 𝕄) = iprop(pl d main_arg0 (V (Proc.devRef .tc main_arg0)) ∗ pl d main_v0 (V (Proc.devRef .tc main_v0))) :=
  held_pair d main_arg0 main_v0 (by decide) V
theorem held_op1 (d : Dev nD) (V : Valuation τ sig (Elt F)) :
    (held (SparseCore.T d) (op1 (F := F)).bufs V : sProp 𝕄) = iprop(pl d main_arg3 (V (Proc.devRef .tc main_arg3)) ∗ pl d main_v2 (V (Proc.devRef .tc main_v2))) :=
  held_pair d main_arg3 main_v2 (by decide) V

set_option maxHeartbeats 1000000 in
/-- @main on device `d`'s TensorCore. -/
theorem hmain (OUTP : (d : Dev nD) → Buf (Elt F) ((SparseCore.T d : Thread nD τ).loc main_v3) → Prop)
    (hreg : RegionStep (mr m) OUTP) (κ : GSem nD τ sig → ℕ) (d : Dev nD) :
    iprop((K (F := F)).ctx EH (P (I0 m) (fun d => m (xLoc d)) (fun d => m (oLoc d))) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m OUTP d) := by
  unfold SparseCore.Cfg.tcRes
  rw [unscopedBufs_eq]
  simp only [main, wp_bind, wp_pure]
  iintro ⟨#Hctx, Hst, ⟨Hb, ⟨Ha0, Ha1, Ha2, Ha3, Hv0, Hv1, Hv2, Hv3⟩, -, -⟩, HG⟩
  ihave Hlev := ((K (F := F)).ctx_levAts κ) $$ Hctx
  -- the first reshape: the index words as a [32] array
  iapply (wp_hlo_within 𝒱 (SparseCore.T d) none Set.univ (op := op0) (S := (op0 (F := F)).bufs) (Finset.Subset.refl _) (V := V0 m d)) $$ [Hb Ha0 Hv0]
  · isplitl [Hb]; · iexact Hb
    iapply (Entails.of_eq (held_op0 d (V0 m d)).symm)
    isplitl [Ha0]; · iexact Ha0
    iexact Hv0
  iintro ⟨Hb, Hheld⟩
  rw [wp_ret]; imodintro
  ihave Hh := (Entails.of_eq (held_op0 d ((op0 (F := F)).result (V0 m d)))) $$ Hheld
  icases Hh with ⟨Ha0, Hv0⟩
  -- the gather on the SparseCores: the three arrays out to the two SparseCores' workers and back
  iapply ((K (F := F)).wp_run (D (F := F)) 𝒱 (EH := EH) (P := P (I0 m) (fun d => m (xLoc d)) (fun d => m (oLoc d))) κ d 0) $$ [Hst Hv0 Ha1 Hv1 Hb Ha0 Ha2 Ha3 Hv2 Hv3 HG]
  isplitr; · iexact Hctx
  isplitl [Hst]; · iexact Hst
  isplitl [Hv0 Ha1 Hv1]
  · rw [st_eq]
    iapply (whole_split d (I0 m d) (m (xLoc d)) (m (oLoc d)))
    isplitl [Hv0]; · iexact Hv0
    isplitl [Ha1]; · iexact Ha1
    iexact Hv1
  iintro ⟨Hst, Hdn⟩
  ihave Hdn' := (Entails.of_eq (dn_eq (I0 m) (fun d => m (xLoc d)) (fun d => m (oLoc d)) d)) $$ Hdn
  ihave Hj := (whole_join d (I0 m d) (m (xLoc d)) (H1 m d)) $$ Hdn'
  icases Hj with ⟨Hv0, Ha1, Hv1⟩
  -- the second reshape: the bias as a [1, 100000] row
  iapply (wp_hlo_within 𝒱 (SparseCore.T d) none Set.univ (op := op1) (S := (op1 (F := F)).bufs) (Finset.Subset.refl _) (V := V0 m d)) $$ [Hb Ha3 Hv2]
  · isplitl [Hb]; · iexact Hb
    iapply (Entails.of_eq (held_op1 d (V0 m d)).symm)
    isplitl [Ha3]; · iexact Ha3
    iexact Hv2
  iintro ⟨Hb, Hheld⟩
  rw [wp_ret]; imodintro
  ihave Hh := (Entails.of_eq (held_op1 d ((op1 (F := F)).result (V0 m d)))) $$ Hheld
  icases Hh with ⟨Ha3, Hv2⟩
  -- the projection's region: the handshake state opened for what the core owes (nothing, its recorded waits low)
  unfold SparseCore.Cfg.tcSt
  icases Hst with ⟨⟨%W, %hW, HO⟩, Htail⟩
  ihave HO' := (Entails.of_eq (congrArg (fun O => (owes (SparseCore.T d) O W : sProp 𝕄)) ((K (F := F)).Otc_end d (n := (0 : Fin 1).val + 1) le_rfl))) $$ HO
  iapply ((K (F := F)).wp_liftProg (D (F := F)) 𝒱 (SparseCore.T d) Set.univ none
      (Prog.op (TpuEff.customCall (Pipeline.entry 0) ()) fun _ => Prog.ret PUnit.unit) _)
  iapply (hreg d (fun _ => Prog.ret PUnit.unit) _) $$ [Hb Ha0 Ha1 Ha2 Ha3 Hv0 Hv1 Hv2 Hv3 HO' HG Htail]
  isplitl [Htail]
  · iintro ⟨Hb, Hpost⟩
    unfold regPost owesLow
    icases Hpost with ⟨⟨%G, %hG, Hbufs⟩, ⟨%W', %hW', HO⟩⟩
    rw [wp_ret]; imodintro; imodintro
    isplitl [HO Htail]
    · isplitl [HO]
      · iexists W'; isplitr
        · ipureintro; intro p hp; exact le_trans (hW' (Finset.mem_coe.mpr hp)) (by decide)
        iexact HO
      iexact Htail
    iapply (bufsAt_FIN m OUTP d G hG); iexact Hbufs
  isplitl [Hb]; · iexact Hb
  isplitl [Ha0 Ha1 Ha2 Ha3 Hv0 Hv1 Hv2 Hv3 HO']
  · unfold regPre
    isplitl [Ha0 Ha1 Ha2 Ha3 Hv0 Hv1 Hv2 Hv3]
    · iapply (Entails.of_eq (bufsAt_intro m d))
      isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      iexact Hv3
    unfold owesLow
    iexists W; isplitr
    · ipureintro; intro p hp; exact le_trans (hW p (Finset.mem_coe.mp hp)) (by decide)
    iexact HO'
  isplitr; · iexact Hlev
  unfold Gd
  iexact HG

/-! ## The program's run -/

/-- What every final memory satisfies. -/
def QC (OUTP : (d : Dev nD) → Buf (Elt F) ((SparseCore.T d : Thread nD τ).loc main_v3) → Prop) : PUnit × MemSt nD τ sig (Elt F) → Prop := fun r =>
  ∀ c : Dev nD, r.2.mem ((SparseCore.T c : Thread nD τ).loc main_arg0) = m _ ∧ r.2.mem ((SparseCore.T c : Thread nD τ).loc main_arg1) = m _
    ∧ r.2.mem ((SparseCore.T c : Thread nD τ).loc main_arg2) = m _ ∧ r.2.mem ((SparseCore.T c : Thread nD τ).loc main_arg3) = m _
    ∧ OUTP c (r.2.mem ((SparseCore.T c : Thread nD τ).loc main_v3))

theorem run_main [∀ e, Nonempty (Elt F e)] (OUTP : (d : Dev nD) → Buf (Elt F) ((SparseCore.T d : Thread nD τ).loc main_v3) → Prop)
    (hI : ∀ d (j : S32.Idx), (I0 m d j).toNat < 100000) (hreg : RegionStep (mr m) OUTP) :
    θ_run (Cert.Kernel.defs (F := F)) (Cert.Kernel.threads (F := F)) ⟨m, fun _ => 0, ρ⟩ (QC m OUTP) :=
  SparseCore.Cfg.θ_run_sc (K := K (F := F)) (D := D (F := F)) (𝒱 := 𝒱) (EH := EH)
    (P := P (I0 m) (fun d => m (xLoc d)) (fun d => m (oLoc d))) facts v₀
    (fun q hq => match q with | 0 => nomatch hq)
    (fun q _ => match q with | 0 => tileObl (I0 m) (fun d => m (xLoc d)) (fun d => m (oLoc d)) facts hI)
    (fun q _ => match q with | 0 => SparseCore.Cfg.VecSplit.of_plain (vecSplit (I0 m) (fun d => m (xLoc d)) (fun d => m (oLoc d))))
    m ρ main Gd (FIN m OUTP) (u₀ (F := F)) (sep_elim_left.trans (hu₀ (I0 m) (fun d => m (xLoc d)) (fun d => m (oLoc d))))
    (hmain m ρ OUTP hreg) (fq m OUTP) (hfin m OUTP) (QC m OUTP) (fun _ h => h)

end Main

end Cert.Kernel.Hand

end
-- ==== Proof.ReshapesK.lean ====
/-
  The two reshapes of @main read at an index.  The first reads index word r of the [32, 1] argument at r of the [32]
  array, so the hidden array the gather leaves is the specification's: row r is the table row the r-th index word names,
  and where every index word names a table row so does every word of the reshaped array.  The second reads the bias at
  v at (0, v) of the [1, 100000] row.
-/
import proofs.«217564_g44109314130489_cont_8to1_b_132_32_alg».proof.Proof.LaunchK
import proofs.«217564_g44109314130489_cont_8to1_b_132_32_alg».proof.Proof.Spec
import Idealize.ShloMosaic.Lib.ValueLayout
import Idealize.ShloMosaic.Lib.Pipeline.Value

noncomputable section

namespace Cert.Kernel.Hand

open Cert.Kernel Cert.Kernel.Gen

open Idealize.ShloMosaic Idealize.ShloMosaic.ValueIdx
open Idealize.ShloMosaic.SparseCore (S V T)
open Idealize.SL Idealize.SL.Sem

variable {F : FTy → Type} [FloatOps F]

/-- An [a, 1] array cast to [a] reads, at i, the operand at (i, 0). -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt F) ℓ)

/-- The index array after the first reshape, at r: the argument's word at (r, 0). -/
theorem I0_apply (d : Dev nD) (r : Fin 32) : I0 m d (ix1 r) = m ((SparseCore.T d : Thread nD τ).loc main_arg0) (ix2 r (0 : Fin 1)) := by
  unfold I0
  rw [StableHlo.reshape_result']
  exact shapeCast_a1_a_apply (V0 m d (Proc.devRef .tc main_arg0)) _ r

/-- The bias row after the second reshape, at (0, v): the argument's bias at v. -/
theorem B2_apply (d : Dev nD) (v : Fin 100000) : B2 m d (ix2 (0 : Fin 1) v) = m ((SparseCore.T d : Thread nD τ).loc main_arg3) (ix1 v) := by
  unfold B2
  rw [StableHlo.reshape_result']
  exact shapeCast_a_1a_apply (V0 m d (Proc.devRef .tc main_arg3)) _ 0 v

/-- Where every index word names a table row, so does every word of the reshaped index array. -/
theorem hI_of_inRange (hx : ∀ d : Dev nD, Cert.Spec.InRange (m ((SparseCore.T d : Thread nD τ).loc main_arg0))) :
    ∀ d (j : S32.Idx), (I0 m d j).toNat < 100000 := by
  intro d j
  have e : I0 m d j = m ((SparseCore.T d : Thread nD τ).loc main_arg0) (ix2 (j 0) (0 : Fin 1)) :=
    (congrArg (I0 m d) (eq_ix1 j)).trans (I0_apply m d (j 0))
  exact lt_of_eq_of_lt (congrArg BitVec.toNat e) (hx d (j 0))

/-- The hidden array the gather leaves is the specification's. -/
theorem H1_eq_hidden (d : Dev nD) :
    H1 m d = Cert.Spec.hidden (m ((SparseCore.T d : Thread nD τ).loc main_arg0)) (m (xLoc d)) := by
  funext j
  show hidV (I0 m d) (m (xLoc d)) j = _
  unfold hidV Cert.Spec.hidden Cert.Spec.row
  exact congrArg (fun w : BitVec 32 => m (xLoc d) (ix2 (n0 := 100000) (n1 := 128) ⟨min w.toNat 99999, by omega⟩ (j 1)))
    (I0_apply m d (j 0))

end Cert.Kernel.Hand

end
-- ==== Proof.RegionDatK.lean ====
/-
  The projection region's proof data.

  The region is one pipelined call over a grid of eight points.  Point `t` reads the hidden vectors `h` (all 32
  rows of 128, the same block at every point), rows `12800·t …` of the weight matrix `W` and the matching
  stretch of the bias `b`, and writes columns `12800·t …` of the result.  Eight blocks of 12800 make 102400, the
  arrays have 100000: the last block of `W`, of `b` and of the result reaches 2400 past the arrays' end, its
  transfers are cut there, and what the staging buffers hold past the cut is not stated by anything.

  After the body at point `t` the staging buffers hold: `h`; block `t` of `W` and of `b` on the part inside the
  arrays, a filler word elsewhere; and the body's payload of those three.  The memory the region starts from is a
  parameter.
-/
import proofs.«217564_g44109314130489_cont_8to1_b_132_32_alg».proof.Proof.CommonK
import proofs.«217564_g44109314130489_cont_8to1_b_132_32_alg».proof.Proof.Gen.Kernel.Points
import proofs.«217564_g44109314130489_cont_8to1_b_132_32_alg».proof.Proof.Gen.Kernel.Skeleton
import Idealize.ShloMosaic.Lib.Pipeline.Frame

noncomputable section

namespace Cert.Kernel.Hand

open Cert.Kernel Cert.Kernel.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

variable (mr : (ℓ : Loc nD τ sig) → Buf (Elt F) ℓ)

-- the waits the core has recorded before the region: a parameter, carried through the region unchanged
variable (Rc : Set (SemLoc sig × HIx 1))

/-! ## What the staging buffers hold after the body -/

/-- The hidden vectors, whole: the one block of their window, at every point. -/
def hstg (c : Dev nD) : S32x128.Idx → Elt F .f32 := mr ((c : Thread nD τ).loc main_v1)

/-- Block `t` of the weight matrix as the fetch reads it: its rows inside the array. -/
def wblk (c : Dev nD) (t : Fin cfg1.N) : (win1_1.xblock (grid1.coords t)).Idx → Elt F .f32 :=
  (win1_1.blk t).view.read (Elt F) (mr ((c : Thread nD τ).loc main_arg2))
/-- Block `t` of the bias likewise: its columns inside the array. -/
def bblk (c : Dev nD) (t : Fin cfg1.N) : (win1_2.xblock (grid1.coords t)).Idx → Elt F .f32 :=
  (win1_2.blk t).view.read (Elt F) (mr ((c : Thread nD τ).loc main_v2))

/-- The weight block filled out to the buffer's size: past the array's end the zero word, which nothing reads. -/
def wstg (c : Dev nD) (t : Fin cfg1.N) : S12800x128.Idx → Elt F .f32 :=
  win1_1.fill (grid1.coords t) (fun _ => Scalar.ofBits .f32 0#32) (wblk mr c t)
/-- The bias block likewise. -/
def bstg (c : Dev nD) (t : Fin cfg1.N) : S1x12800.Idx → Elt F .f32 :=
  win1_2.fill (grid1.coords t) (fun _ => Scalar.ofBits .f32 0#32) (bblk mr c t)
/-- The result's buffer: the projection of the hidden vectors by that weight block, plus that bias block. -/
def ostg (c : Dev nD) (t : Fin cfg1.N) : S32x1x12800.Idx → Elt F .f32 :=
  k1_pay1 (hstg mr c) (wstg mr c t) (bstg mr c t)

/-- The region's proof data on device `c`: the four arrays as the region finds them; after the body the buffers at
    `hstg`, `wstg`, `bstg`, `ostg`; no invariant of the body's own; nothing owed; full shares; the recorded waits
    within `Rc` at every point (the body waits for nothing). -/
def dat1 (c : Dev nD) : Pipeline.Dat τ (Elt F) (HIx 1) ℕ UU ℕ cfg1 c where
  A w := mr ((cfg1.win w).arr.view.loc (c : Thread nD τ))
  after w t := match w with
    | ⟨0, _⟩ => hstg mr c
    | ⟨1, _⟩ => wstg mr c t
    | ⟨2, _⟩ => bstg mr c t
    | ⟨3, _⟩ => ostg mr c t
  Φ _ := iprop(emp)
  q _ := fullShare
  owed _ := 0
  recorded _ := Rc

abbrev adm : (p : Fin 1) → (pcfgs (F := F) p).Adm := fun p => (cfgs p).toPCfg_adm

/-- The proof data of the program's pipelined calls: the one. -/
def pdats : (p : Fin 1) → (c : Dev nD) → Pipeline.Dat τ (Elt F) (HIx 1) ℕ UU ℕ (Pipeline.pin (pcfgs (F := F)) adm p) c
  | 0 => dat1 mr Rc

theorem pdats_A (p : Fin 1) (c : Dev nD) (w : Fin cfg1.W) :
    (pdats mr Rc p c).A w = mr ((cfg1.win w).arr.view.loc (c : Thread nD τ)) := by
  match p with
  | 0 => rfl

end Cert.Kernel.Hand

end
-- ==== Proof.RegionRelK.lean ====
/-
  The projection region with nothing said of the result: its relational proof data.

  The region's body reads the three input buffers whole (the hidden vectors, a block of weight rows, a stretch of the
  bias), and overwrites the result's buffer whole with a function of what it read.  It writes nothing else.  So, whatever
  the four buffers hold when the body starts — the part of a clipped last block that lies past the arrays' end included
  — the inputs' buffers are left as found, and of the result's buffer nothing needs saying for a claim that only asks
  that the input arrays are unchanged.  This holds for every float arithmetic, since no arithmetic fact is used.

  The proof data below state exactly that: each input window's relation is "left as found", the result window's relation
  holds of anything.  An input array is never written back, so after the region it holds what the region found.
-/
import proofs.«217564_g44109314130489_cont_8to1_b_132_32_alg».proof.Proof.CommonK
import proofs.«217564_g44109314130489_cont_8to1_b_132_32_alg».proof.Proof.RegionDatK
import proofs.«217564_g44109314130489_cont_8to1_b_132_32_alg».proof.Proof.Gen.Kernel.Launch
import proofs.«217564_g44109314130489_cont_8to1_b_132_32_alg».proof.Proof.Gen.Kernel.Points
import proofs.«217564_g44109314130489_cont_8to1_b_132_32_alg».proof.Proof.Gen.Kernel.Skeleton
import Idealize.ShloMosaic.Lib.Pipeline.Frame
import Idealize.ShloMosaic.Lib.Pipeline.Regions

noncomputable section

namespace Cert.Kernel.Hand

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)

variable {F : FTy → Type} [FloatOps F]

variable (mr : (ℓ : Loc nD τ sig) → Buf (Elt F) ℓ)

local notation "𝕄" => MM F

/-! ## The proof data -/

/-- The region's relational proof data on device `c`, entered from memory `mr`: the four arrays as the region finds
    them; the body leaves each input's buffer as it found it and the result's buffer at anything; no invariant of the
    body's own; nothing owed, the waits recorded so far within `Rc` at every point; full shares. -/
def rdat1 (Rc : Set (SemLoc sig × HIx 1)) (c : Dev nD) : Pipeline.RDat τ (Elt F) (HIx 1) ℕ UU ℕ cfg1 c where
  A w := mr ((cfg1.win w).arr.view.loc (c : Thread nD τ))
  after w _ Y X := match w with
    | ⟨0, _⟩ => X = Y
    | ⟨1, _⟩ => X = Y
    | ⟨2, _⟩ => X = Y
    | ⟨3, _⟩ => True
  Φ _ := iprop(emp)
  q _ := fullShare
  owed _ := 0
  recorded _ := Rc

/-- The relational proof data of the program's pipelined calls: the one. -/
def rpdats (Rc : Set (SemLoc sig × HIx 1)) :
    (p : Fin 1) → (c : Dev nD) → Pipeline.RDat τ (Elt F) (HIx 1) ℕ UU ℕ (Pipeline.pin (pcfgs (F := F)) adm p) c
  | 0 => rdat1 mr Rc

variable (Rc : Set (SemLoc sig × HIx 1))

theorem rpdats_A (p : Fin 1) (c : Dev nD) (w : Fin cfg1.W) :
    (rpdats mr Rc p c).A w = mr ((cfg1.win w).arr.view.loc (c : Thread nD τ)) := by
  match p with
  | 0 => rfl

theorem rpdats_owed (p : Fin 1) (c : Dev nD) (t : Fin (cfg1.N + 1)) : (rpdats mr Rc p c).owed t = 0 := by
  match p with
  | 0 => rfl

theorem rpdats_recorded (p : Fin 1) (c : Dev nD) (t : Fin (cfg1.N + 1)) : (rpdats mr Rc p c).recorded t = Rc := by
  match p with
  | 0 => rfl

theorem rpdats_share (p : Fin 1) (c : Dev nD) (w : Fin cfg1.W) : (rpdats mr Rc p c).share w = fullShare := by
  match p with
  | 0 => show (if _ then fullShare else fullShare) = fullShare; split <;> rfl

theorem rpdats_Φ (p : Fin 1) (c : Dev nD) (t : Fin (cfg1.N + 1)) : (rpdats mr Rc p c).Φ t = iprop(emp) := by
  match p with
  | 0 => rfl

/-- The first three windows are inputs. -/
theorem Rel.isOut_in (w : Fin cfg1.W) (hw : w.val < 3) : (cfg1.win w).isOut = false := by
  match w with
  | ⟨0, _⟩ => rfl
  | ⟨1, _⟩ => rfl
  | ⟨2, _⟩ => rfl
  | ⟨3, _⟩ => exact absurd hw (Nat.lt_irrefl 3)

/-- An input's array is never written: after the write-backs below any point it holds what the region found. -/
theorem rpdats_arrAt_in (p : Fin 1) (c : Dev nD) (w : Fin cfg1.W) (hw : w.val < 3) (n : Nat) :
    (rpdats mr Rc p c).ArrAt w n = fun G => G = mr ((cfg1.win w).arr.view.loc (c : Thread nD τ)) := by
  match p with
  | 0 => exact (rdat1 mr Rc c).ArrAt_in w (Rel.isOut_in w hw) n

/-! ## The body on arbitrary buffers -/

namespace Rel

theorem hz2 : (![0, 0] : Fin 2 → Nat) = fun _ => 0 := funext fun a => by fin_cases a <;> rfl
theorem hz3 : (![0, 0, 0] : Fin 3 → Nat) = fun _ => 0 := funext fun a => by fin_cases a <;> rfl

theorem hr0_0 : (Memref.whole cc1_stg0_0 : Memref sig .tc _ _ _).view.readAt (Elt F)
    (Rect.unit (s := S32x128) ![0, 0] S32x128.size inb_S32x128_S32x128_0_0).toLoadRect = id :=
  funext (Memref.readAt_unit_zero (Elt F) cc1_stg0_0 hz2 _)
theorem hr1_0 : (Memref.whole cc1_stg1_0 : Memref sig .tc _ _ _).view.readAt (Elt F)
    (Rect.unit (s := S12800x128) ![0, 0] S12800x128.size inb_S12800x128_S12800x128_0_0).toLoadRect = id :=
  funext (Memref.readAt_unit_zero (Elt F) cc1_stg1_0 hz2 _)
theorem hr1_1 : (Memref.whole cc1_stg1_1 : Memref sig .tc _ _ _).view.readAt (Elt F)
    (Rect.unit (s := S12800x128) ![0, 0] S12800x128.size inb_S12800x128_S12800x128_0_0).toLoadRect = id :=
  funext (Memref.readAt_unit_zero (Elt F) cc1_stg1_1 hz2 _)
theorem hr2_0 : (Memref.whole cc1_stg2_0 : Memref sig .tc _ _ _).view.readAt (Elt F)
    (Rect.unit (s := S1x12800) ![0, 0] S1x12800.size inb_S1x12800_S1x12800_0_0).toLoadRect = id :=
  funext (Memref.readAt_unit_zero (Elt F) cc1_stg2_0 hz2 _)
theorem hr2_1 : (Memref.whole cc1_stg2_1 : Memref sig .tc _ _ _).view.readAt (Elt F)
    (Rect.unit (s := S1x12800) ![0, 0] S1x12800.size inb_S1x12800_S1x12800_0_0).toLoadRect = id :=
  funext (Memref.readAt_unit_zero (Elt F) cc1_stg2_1 hz2 _)
theorem hw3_0 : ∀ f w, (((Memref.whole cc1_stg3_0).access (Rect.unit (s := S32x1x12800) ![0, 0, 0] S32x1x12800.size
    inb_S32x1x12800_S32x1x12800_0_0_0)) : View sig .tc _ _ _).write (Elt F) f w Finset.univ = w :=
  Memref.write_access_unit_zero_univ (Elt F) cc1_stg3_0 hz3 _
theorem hw3_1 : ∀ f w, (((Memref.whole cc1_stg3_1).access (Rect.unit (s := S32x1x12800) ![0, 0, 0] S32x1x12800.size
    inb_S32x1x12800_S32x1x12800_0_0_0)) : View sig .tc _ _ _).write (Elt F) f w Finset.univ = w :=
  Memref.write_access_unit_zero_univ (Elt F) cc1_stg3_1 hz3 _

end Rel

open Rel in
-- eight combinations of buffers, each run on its own
set_option maxHeartbeats 3200000 in
/-- The body on any buffers of its four windows, at any contents `X0 … X3`: three whole loads, a load of the result's
    buffer whose value is not used, and one whole store.  The inputs' buffers end as they began; the result's holds the
    payload of the three values read. -/
theorem rsound_body (c : Dev nD) (E : Set ℕ) (i : grid1.Coords) (s0 : Fin 1) (s1 s2 s3 : Fin 2)
    (X0 : S32x128.Idx → Elt F .f32) (X1 : S12800x128.Idx → Elt F .f32) (X2 : S1x12800.Idx → Elt F .f32)
    (X3 : S32x1x12800.Idx → Elt F .f32) (K : PUnit → sProp 𝕄) :
    iprop((owns (c : Thread nD τ) (stage1_0 s0) fullShare X0 ∗ owns (c : Thread nD τ) (stage1_1 s1) fullShare X1
            ∗ owns (c : Thread nD τ) (stage1_2 s2) fullShare X2 ∗ owns (c : Thread nD τ) (stage1_3 s3) fullShare X3)
          ∗ (iprop(owns (c : Thread nD τ) (stage1_0 s0) fullShare X0 ∗ owns (c : Thread nD τ) (stage1_1 s1) fullShare X1
                  ∗ owns (c : Thread nD τ) (stage1_2 s2) fullShare X2
                  ∗ owns (c : Thread nD τ) (stage1_3 s3) fullShare (k1_pay1 X0 X1 X2)) -∗ K ⟨⟩))
      ⊢ wp frame (wpE (defs₀ (F := F)) 𝒱₀ c none) E
          (cc1__proj_body i (stage1_0 s0) (hstage1_0 s0) (stage1_1 s1) (hstage1_1 s1) (stage1_2 s2) (hstage1_2 s2)
            (stage1_3 s3) (hstage1_3 s3)) K := by
  fin_cases s0 <;> fin_cases s1 <;> fin_cases s2 <;> fin_cases s3
  all_goals
    simp only [owns_whole_eq, cc1__proj_body_eq_skeleton]; unfold cc1__proj_body_skel
    simp only [Prog.lift, Prog.bind_op, Prog.bind_ret]
    iintro ⟨⟨⟨%f0, %hf0, H0⟩, ⟨%f1, %hf1, H1⟩, ⟨%f2, %hf2, H2⟩, ⟨%f3, %hf3, H3⟩⟩, Hk⟩
    sl_steps
    iapply Hk
    rw [hr0_0]
    first | rw [hr1_0] | rw [hr1_1]
    first | rw [hr2_0] | rw [hr2_1]
    first | rw [hw3_0] | rw [hw3_1]
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    · iexists k1_pay1 f0 f1 f2; isplitr; · ipureintro; rw [hf0, hf1, hf2]
      iexact H3

end Cert.Kernel.Hand

end
-- ==== Proof.RegionRelStepK.lean ====
/-
  The projection region's step for a claim that says nothing of the result.

  From the relational proof data (inputs left as found, result unconstrained): the body obligation, which is the body's run
  on arbitrary buffers; the arrays after the region — the three inputs at what the region found, the result at something;
  and the region's record for the launch, entered from the TensorCore's eight arrays with nothing owed and left the same way.
  What the core's waits have recorded stays at the levels of the handshakes that came before: the region's own waits
  are at the pipeline's index, whose level is 0.
-/
import proofs.«217564_g44109314130489_cont_8to1_b_132_32_alg».proof.Proof.RegionRelK
import proofs.«217564_g44109314130489_cont_8to1_b_132_32_alg».proof.Proof.RegionIfaceK
import proofs.«217564_g44109314130489_cont_8to1_b_132_32_alg».proof.Proof.ArraysK

noncomputable section

namespace Cert.Kernel.Hand

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

variable (mr : (ℓ : Loc nD τ sig) → Buf (Elt F) ℓ) (Rc : Set (SemLoc sig × HIx 1))

local notation "𝕄" => MM F

/-! ## The body obligation -/

/-- The body obligation of the relational data: at every point, whatever the current buffers hold, the body runs, leaves
    the three inputs' buffers as they were and the result's at some contents; the invariant is empty and what the core
    owes, and the bound on its recorded waits, are the same before and after. -/
theorem rbody1 (c : Dev nD) : (rdat1 (F := F) mr Rc c).BodyObligation (defs₀ (F := F)) 𝒱₀ (none : HIx 1) Set.univ := by
  intro t Y _
  rw [bigSep_W1, bigSep_W1]
  rw [show (rdat1 mr Rc c).Φ t.succ = (rdat1 mr Rc c).Φ t.castSucc from rfl,
    show (rdat1 mr Rc c).owesAt (none : HIx 1) t.succ = (rdat1 mr Rc c).owesAt (none : HIx 1) t.castSucc from rfl]
  iintro ⟨HΦ, Ho, H0, H1, H2, H3⟩
  iapply (rsound_body (F := F) c Set.univ (grid1.coords t) ((cfg1.slots t 0).cast nbuf1_0) ((cfg1.slots t 1).cast nbuf1_1)
    ((cfg1.slots t 2).cast nbuf1_2) ((cfg1.slots t 3).cast nbuf1_3) (Y 0) (Y 1) (Y 2) (Y 3) _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  isplitl [H2]
  · iexists (Y 2); isplitr; · ipureintro; exact rfl
    iexact H2
  · iexists k1_pay1 (Y 0) (Y 1) (Y 2); isplitr; · ipureintro; exact trivial
    iexact H3

/-- The same of the program's one pipelined call. -/
theorem rbody (p : Fin 1) (c : Dev nD) :
    (rpdats (F := F) mr Rc p c).BodyObligation (defs₀ (F := F)) 𝒱₀ (none : HIx 1) Set.univ := by
  match p with
  | 0 => exact rbody1 mr Rc c

/-- Nothing is owed at the staging cells at any point, so the region's waits need no evidence. -/
theorem rhwaits (L : GSem nD τ sig → Finset (HIx 1)) (lv : GSem nD τ sig → HIx 1 → ℕ) (p : Fin 1) (c : Dev nD) :
    (levAts L lv : sProp 𝕄) ⊢ RDat.cellsWaits (Pipeline.pin (pcfgs (F := F)) adm) (rpdats mr Rc) (none : HIx 1) p c :=
  Pipeline.RDat.hwaits_of_owed_zero (pcfgs (F := F)) adm (rpdats mr Rc) (none : HIx 1) L lv p (fun c t => rpdats_owed mr Rc p c t) c

/-! ## The arrays after the region -/

/-- After the write-backs below any point the three input arrays hold what the region found, each whole at the full
    share, and the result array holds something. -/
theorem rpdats_arraysAt (c : Dev nD) (n : Nat) :
    ((rpdats mr Rc 0 c).arraysAt n : sProp 𝕄)
      ⊢ iprop((((c : Thread nD τ).loc main_v1) ↦{fullShare} mr ((c : Thread nD τ).loc main_v1))
          ∗ (((c : Thread nD τ).loc main_arg2) ↦{fullShare} mr ((c : Thread nD τ).loc main_arg2))
          ∗ (((c : Thread nD τ).loc main_v2) ↦{fullShare} mr ((c : Thread nD τ).loc main_v2))
          ∗ ∃ G, (((c : Thread nD τ).loc main_v3) ↦{fullShare} G)) := by
  show ((rdat1 mr Rc c).arraysAt n : sProp 𝕄) ⊢ _
  unfold RDat.arraysAt
  rw [bigSep_W1]
  have hs0 : (cfg1.win 0).arr.view.set = Finset.univ := (arr_whole1 0).set_eq_univ
  have hs1 : (cfg1.win 1).arr.view.set = Finset.univ := (arr_whole1 1).set_eq_univ
  have hs2 : (cfg1.win 2).arr.view.set = Finset.univ := (arr_whole1 2).set_eq_univ
  have hs3 : (cfg1.win 3).arr.view.set = Finset.univ := (arr_whole1 3).set_eq_univ
  rw [hs0, hs1, hs2, hs3, show (rdat1 mr Rc c).share 0 = fullShare from rpdats_share mr Rc 0 c 0,
    show (rdat1 mr Rc c).share 1 = fullShare from rpdats_share mr Rc 0 c 1,
    show (rdat1 mr Rc c).share 2 = fullShare from rpdats_share mr Rc 0 c 2,
    show (rdat1 mr Rc c).share 3 = fullShare from rpdats_share mr Rc 0 c 3]
  iintro ⟨⟨%G0, %h0, H0⟩, ⟨%G1, %h1, H1⟩, ⟨%G2, %h2, H2⟩, ⟨%G3, %h3, H3⟩⟩
  have e0 := Eq.mp (congrFun (rpdats_arrAt_in mr Rc 0 c 0 (by decide) n) G0) h0
  have e1 := Eq.mp (congrFun (rpdats_arrAt_in mr Rc 0 c 1 (by decide) n) G1) h1
  have e2 := Eq.mp (congrFun (rpdats_arrAt_in mr Rc 0 c 2 (by decide) n) G2) h2
  subst e0 e1 e2
  isplitl [H0]; · iexact H0
  isplitl [H1]; · iexact H1
  isplitl [H2]; · iexact H2
  iexists G3; iexact H3

/-! ## The region as the launch meets it -/

/-- The pairs at the handshakes' levels on every device. -/
def Rlow : Set (SemLoc sig × HIx 1) := {p | ∀ d : Dev nD, (K (F := F)).lev ((SparseCore.T d : Thread nD τ), p.1) p.2 ≤ 8}

/-- There is one device, so a pair at those levels on one device is at them on every device. -/
theorem lowPairs_sub_Rlow (c : Dev nD) : lowPairs (F := F) c ⊆ Rlow (F := F) := fun x hx d => by
  have hd : d = c := Subsingleton.elim (α := Fin 1) d c
  rw [hd]; exact hx

/-- What the core's waits may have recorded by any point of the region — pairs at the handshakes' levels, and the region's
    own staging waits, whose index is the pipeline's and whose level is therefore 0 — is at the handshakes' levels. -/
theorem bound_sub_lowPairs (c : Dev nD) (t : Fin (cfg1.N + 1)) :
    (rpdats mr (Rlow (F := F)) 0 c).bound (none : HIx 1) t ⊆ lowPairs (F := F) c := fun x hx => by
  rcases hx with h | ⟨w, s, rfl⟩
  · exact h c
  · exact Nat.zero_le _

/-- The region's record for the launch: the windows' layout, no semaphores of the body's own, the body obligation, no
    wait evidence needed; entered from the eight arrays at `mr` with nothing owed, left with the result array at some
    contents and the rest as before.  The three input arrays and the result array enter the pipeline; the other four
    arrays bypass it. -/
def regR : Pipeline.RDat.RegionSeg (pcfgs (F := F)) adm (rpdats mr (Rlow (F := F))) (none : HIx 1) (defs₀ (F := F)) 𝒱₀
    (K (F := F)).L (K (F := F)).lev (0 : Fin 1) where
  win := launch1.win.to₀
  block_pos := launch1.block_pos
  stage_whole := launch1.stage_whole
  K := PEmpty
  osem k := k.elim
  ho := Pipeline.OwnSemFacts.none _
  hbody c := rbody mr Rlow 0 c
  hwaits c := rhwaits mr Rlow _ _ 0 c
  pre := regPre mr
  post := regPost mr (fun _ _ => True)
  X _ := iprop(emp)
  Y _ := iprop(emp)
  Z c := Pipeline.unscopedRest (Ix := HIx 1) (Name := ℕ) (U := UU) (Lvl := ℕ) spec1 c (fun b => mr ((c : Thread nD τ).loc b))
  hentry c := by
    rw [Pipeline.ownSems0_none]
    have hsplit := Pipeline.RDat.arrays_of_unscopedBufs (pcfgs (F := F)) adm (rpdats mr (Rlow (F := F))) launch1.win launch1.arr_whole c
      (fun w => rpdats_share mr Rlow 0 c w) (fun b => mr ((c : Thread nD τ).loc b)) (fun _ => rfl)
    have hb : (bufsAt mr c (mr _) : sProp 𝕄) = unscopedBufs c (fun b => mr ((c : Thread nD τ).loc b)) := by
      rw [← unscopedBufs_bufsAt mr c (mr _), Function.update_eq_self]
    unfold regPre; rw [hb]
    iintro ⟨⟨Hub, HO⟩, -, -⟩
    ihave H := hsplit $$ Hub
    icases H with ⟨Ha, Hr⟩
    unfold owesLow
    icases HO with ⟨%W, %hW, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      iexists W; isplitr
      · ipureintro; exact fun x hx => Or.inl (lowPairs_sub_Rlow c (hW hx))
      iexact HO
    isplitr; · iempintro
    iexact Hr
  hin c := by iintro -; iempintro
  hout c := by
    rw [Pipeline.ownSems0_none, scopedRest1_eq]
    iintro -; isplitr; · iempintro
    isplitr <;> iempintro
  hexit c := by
    unfold regPost; rw [unscopedRest1_eq]
    iintro ⟨Ha, HO, -, ⟨Ha0, Ha1, Ha3, Hv0⟩⟩
    ihave Ha := (rpdats_arraysAt mr Rlow c _) $$ Ha
    icases Ha with ⟨Hv1, Ha2, Hv2, ⟨%G, Hv3⟩⟩
    unfold Pipeline.RDat.owesAt Pipeline.owesWithin
    icases HO with ⟨%W, %hW, HO⟩
    imodintro
    isplitl [Hv1 Ha2 Hv2 Hv3 Ha0 Ha1 Ha3 Hv0]
    · iexists G; isplitr; · ipureintro; trivial
      unfold bufsAt
      isplitl [Ha0]; · iexact Ha0
      isplitl [Ha1]; · iexact Ha1
      isplitl [Ha2]; · iexact Ha2
      isplitl [Ha3]; · iexact Ha3
      isplitl [Hv0]; · iexact Hv0
      isplitl [Hv1]; · iexact Hv1
      isplitl [Hv2]; · iexact Hv2
      iexact Hv3
    · unfold owesLow
      iexists W; isplitr
      · ipureintro; exact fun x hx => bound_sub_lowPairs mr c _ (hW hx)
      iexact HO

/-- The region's step with nothing said of the result: the launch's rule for a pipelined call at the record above. -/
theorem regionStep_rel [∀ e, Nonempty (Elt F e)] : RegionStep (F := F) mr (fun _ _ => True) := fun d _ k Q =>
  Pipeline.RDat.RegionSeg.wp (pcfgs (F := F)) adm (rpdats mr (Rlow (F := F))) (none : HIx 1) cellOf_inj EP (defs₀ (F := F)) 𝒱₀
    (K (F := F)).L (K (F := F)).lev (regR mr) d none (by intro u hu; cases hu) k Q

end Cert.Kernel.Hand

end
-- ==== Proof.RefRun.lean ====
/-
  The reference program's run.

  The program is a straight line of twenty-eight host operations: the table lookup (an index wrapped by the table
  height when negative, a row gather, a mask saying whether the wrapped index lies inside the table, and a
  choice between the gathered row and a not-a-number filler), then the product of the looked-up rows with the
  weight matrix, the bias broadcast to the result's shape, and their sum.  The lookup is written in the
  program as a function called once, itself calling a one-line choice function; executing a call is executing
  the callee's lines on the caller's buffers, so the run is the run of the flat list below.

  'term' is the value the result buffer ends with, as one function of the four argument arrays, and 'run' says
  that every execution ends with that value in the result buffer and the arguments untouched.
-/
import proofs.«217564_g44109314130489_cont_8to1_b_132_32_alg».proof.Proof.Gen.ReferenceIdeal
import Idealize.ShloMosaic.Lib.StableHlo.Run
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The program's operations in execution order: the lookup's twenty-four (the seventh is the choice function's
    single line), then the product, the two broadcasts of the bias, and the sum. -/
abbrev ops : List (HloOp τ sig (Elt F)) :=
  [ TRef.nullary main_call0.c (constantI S_ 32 0#32),
    TRef.unary main_call0.c main_call0.v0 (broadcastInDim S32x1 ![] bcast_S_S32x1),
    TRef.binary (.of main_arg0) main_call0.v0 main_call0.v1 (cmpi .slt),
    TRef.nullary main_call0.c_0 (constantI S_ 32 100000#32),
    TRef.unary main_call0.c_0 main_call0.v2 (broadcastInDim S32x1 ![] bcast_S_S32x1),
    TRef.binary (.of main_arg0) main_call0.v2 main_call0.v3 addi,
    TRef.ternary main_call0.v1 main_call0.v3 (.of main_arg0) main_call0.call0.v0 select,
    TRef.unary main_call0.call0.v0 main_call0.v5 (broadcastInDim S32x1x1 ![0, 1] bcast_S32x1_S32x1x1_0_1),
    TRef.nullary main_call0.c_1 (constantI S1 32 99999#32),
    TRef.nullary main_call0.c_2 (constantI S_ 32 0#32),
    TRef.unary main_call0.c_2 main_call0.v6 (broadcastInDim S32x1x1 ![] bcast_S_S32x1x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S32x1x1 ![0, 1, 2] bcast_S1x1x1_S32x1x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S32x1x1_S32x1_d2 h_S_),
    TRef.binary (.of main_arg1) main_call0.v5 main_call0.v13 (fun x i => Host.gather gather_S100000x128_S32x1x1_S32x1x128_2_0_n_n_0_2_1128 x i),
    TRef.unary main_call0.v12 main_call0.v14 (broadcastInDim S32x1x128 ![0, 1] bcast_S32x1_S32x1x128_0_1),
    TRef.nullary main_call0.cst (constant S_ .f32 0x7FC00000#32),
    TRef.unary main_call0.cst main_call0.v15 (broadcastInDim S32x1x128 ![] bcast_S_S32x1x128),
    TRef.ternary main_call0.v14 main_call0.v13 main_call0.v15 main_call0.v16 select,
    binary main_v0 main_arg2 main_v1 ((fun l r => Host.dotGeneral dot_S32x1x128_S100000x128_S32x1x100000_2_1_01_0_n_n none l r) : (⟨S32x1x128, .f32⟩ : BufTy).Contents (Elt F) → (⟨S100000x128, .f32⟩ : BufTy).Contents (Elt F) → (⟨S32x1x100000, .f32⟩ : BufTy).Contents (Elt F)),
    unary main_arg3 main_v2 (broadcastInDim S1x1x100000 ![2] bcast_S100000_S1x1x100000_2 : (⟨S100000, .f32⟩ : BufTy).Contents (Elt F) → (⟨S1x1x100000, .f32⟩ : BufTy).Contents (Elt F)),
    unary main_v2 main_v3 (broadcastInDim S32x1x100000 ![0, 1, 2] bcast_S1x1x100000_S32x1x100000_0_1_2 : (⟨S1x1x100000, .f32⟩ : BufTy).Contents (Elt F) → (⟨S32x1x100000, .f32⟩ : BufTy).Contents (Elt F)),
    binary main_v1 main_v3 main_v4 (addf : (⟨S32x1x100000, .f32⟩ : BufTy).Contents (Elt F) → (⟨S32x1x100000, .f32⟩ : BufTy).Contents (Elt F) → (⟨S32x1x100000, .f32⟩ : BufTy).Contents (Elt F)) ]

set_option maxRecDepth 1024 in
/-- The program is that straight line: with the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., unary_bufs_sub .., unary_bufs_sub .., binary_bufs_sub ..⟩

/-! ## The value the result buffer ends with -/

/-- The gather's start indices: each index word, with the table height added where the word is negative as a signed
    number, laid out as a column of one-component index vectors. -/
def starts (x : IVec S32x1 32) : IVec S32x1x1 32 :=
  broadcastInDim S32x1x1 ![0, 1] bcast_S32x1_S32x1x1_0_1
    (select (cmpi .slt x (broadcastInDim S32x1 ![] bcast_S_S32x1 (constantI S_ 32 0#32)))
      (addi x (broadcastInDim S32x1 ![] bcast_S_S32x1 (constantI S_ 32 100000#32))) x)

/-- The mask: for each batch row, whether its start index lies between zero and the last table row, as signed numbers
    (the conjunction over the one component of the index vector). -/
def inside (x : IVec S32x1 32) : IVec S32x1 1 :=
  Host.reduce IntOp.andi
    (andi (cmpi .sge (starts x) (broadcastInDim S32x1x1 ![] bcast_S_S32x1x1 (constantI S_ 32 0#32)))
      (cmpi .sle (starts x)
        (broadcastInDim S32x1x1 ![0, 1, 2] bcast_S1x1x1_S32x1x1_0_1_2
          (broadcastInDim S1x1x1 ![2] bcast_S1_S1x1x1_2 (constantI S1 32 99999#32)))))
    (constantI S_ 1 1#1) reducesTo_S32x1x1_S32x1_d2 h_S_

/-- The looked-up rows: the gathered table row where the mask holds, the not-a-number filler elsewhere. -/
def looked (x : IVec S32x1 32) (E : FVec F S100000x128 .f32) : FVec F S32x1x128 .f32 :=
  select (broadcastInDim S32x1x128 ![0, 1] bcast_S32x1_S32x1x128_0_1 (inside x))
    (Host.gather gather_S100000x128_S32x1x1_S32x1x128_2_0_n_n_0_2_1128 E (starts x))
    (broadcastInDim S32x1x128 ![] bcast_S_S32x1x128 (constant S_ .f32 0x7FC00000#32))

/-- The result as one function of the four arguments, for any float values: the product of the looked-up rows with the
    weight matrix, plus the bias broadcast along the batch. -/
def termOf (x : IVec S32x1 32) (E W : FVec F S100000x128 .f32) (b : FVec F S100000 .f32) : FVec F S32x1x100000 .f32 :=
  addf (Host.dotGeneral dot_S32x1x128_S100000x128_S32x1x100000_2_1_01_0_n_n none (looked x E) W)
    (broadcastInDim S32x1x100000 ![0, 1, 2] bcast_S1x1x100000_S32x1x100000_0_1_2
      (broadcastInDim S1x1x100000 ![2] bcast_S100000_S1x1x100000_2 b))

/-- The result at the extended reals. -/
def term (x : IVec Cert.ReferenceIdeal.S32x1 32) (E W : FVec Ideal Cert.ReferenceIdeal.S100000x128 .f32)
    (b : FVec Ideal Cert.ReferenceIdeal.S100000 .f32) : FVec Ideal Cert.ReferenceIdeal.S32x1x100000 .f32 :=
  termOf (F := Ideal) x E W b

attribute [local irreducible] Host.reduce Host.gather in
set_option maxRecDepth 8192 in
set_option maxHeartbeats 400000 in
/-- What the fold of the operations leaves in the result buffer is that function of the arguments' contents. Going
    back through the list from the result buffer: an operation's result at the buffer it writes is its function of the
    contents of the buffers it reads, and at any other buffer what was there before it; the buffers are told apart as
    literal references. What is left is the composed term, which is 'termOf' with its named parts unfolded (the typed
    references' transports are the identity at literal references). The reduction and the gather stay folded: the
    equation never looks inside them. -/
theorem after_v4 (V : Valuation τ sig (Elt F)) :
    after ops V (main_v4 : DevRef τ sig)
      = termOf (V (main_arg0 : DevRef τ sig)) (V (main_arg1 : DevRef τ sig)) (V (main_arg2 : DevRef τ sig)) (V (main_arg3 : DevRef τ sig)) := by
  after_results_simp
  rfl

/-- No operation writes an argument's buffer: each keeps its contents through the fold. -/
theorem after_arg0 (V : Valuation τ sig (Elt F)) : after ops V (main_arg0 : DevRef τ sig) = V (main_arg0 : DevRef τ sig) := by
  after_results_simp
theorem after_arg1 (V : Valuation τ sig (Elt F)) : after ops V (main_arg1 : DevRef τ sig) = V (main_arg1 : DevRef τ sig) := by
  after_results_simp
theorem after_arg2 (V : Valuation τ sig (Elt F)) : after ops V (main_arg2 : DevRef τ sig) = V (main_arg2 : DevRef τ sig) := by
  after_results_simp
theorem after_arg3 (V : Valuation τ sig (Elt F)) : after ops V (main_arg3 : DevRef τ sig) = V (main_arg3 : DevRef τ sig) := by
  after_results_simp

/-- From any memory with zero counters, every weakly fair execution of the program terminates with the result buffer at
    'term' of the arguments' launch contents, and the four arguments unchanged. No condition on the input is needed: the
    host operations are total. -/
theorem run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v4)
            = term (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v4).trans (after_v4 _),
      (h c main_arg0).trans (after_arg0 _), (h c main_arg1).trans (after_arg1 _),
      (h c main_arg2).trans (after_arg2 _), (h c main_arg3).trans (after_arg3 _)⟩)
    (run_seq scopedRefs_eq scopedSems_eq defs main (fun _ => ops) main_eq (fun _ => ops_sub) m g)

end Cert.RefSide

end
-- ==== Proof.RefValue.lean ====
/-
  The reference program's value.

  Where every index word names a row of the table, the value the reference program leaves in its result buffer is the
  function both programs are compared against: at (r, 0, v), the dot product of table row x[r, 0] with weight row v, plus
  the bias at v.  Read at one index: an index word below the table height is non-negative as a signed number, so the
  wrap leaves it alone; it lies between zero and the last row, so the mask holds and the gather's clamp does nothing;
  the choice takes the gathered row; the product on the extended reals is the plain sum over the 128 columns; the
  twice-broadcast bias reads the bias at the last coordinate; and the final operation is addition.
-/
import proofs.«217564_g44109314130489_cont_8to1_b_132_32_alg».proof.Proof.RefRun
import proofs.«217564_g44109314130489_cont_8to1_b_132_32_alg».proof.Proof.Spec
import Idealize.ShloMosaic.PureOps.Ideal.Laws
import Idealize.ShloMosaic.Lib.ValueIdx

noncomputable section

open scoped BigOperators

namespace Cert.RefSide

open Cert.ReferenceIdeal Cert.ReferenceIdeal.Gen Idealize.ShloMosaic Idealize.ShloMosaic.ValueIdx

/-! ## The three array operations read at an index -/

theorem gather_row {α : Type} (E : S100000x128.Idx → α) (idx : IVec S32x1x1 32) (r : Fin 32) (z : Fin 1) (k : Fin 128) :
    Host.gather gather_S100000x128_S32x1x1_S32x1x128_2_0_n_n_0_2_1128 E idx (ix3 r z k)
      = E (ix2 ⟨min (idx (ix3 r z (0 : Fin 1))).toInt.toNat 99999, by omega⟩ k) := by
  unfold Host.gather
  congr 1
  funext a
  refine Fin.ext ?_
  show gather_S100000x128_S32x1x1_S32x1x128_2_0_n_n_0_2_1128.start _ idx a
      + gather_S100000x128_S32x1x1_S32x1x128_2_0_n_n_0_2_1128.batchCoord _ a
      + gather_S100000x128_S32x1x1_S32x1x128_2_0_n_n_0_2_1128.offCoord _ a = _
  rw [GatherDims.batchCoord_eq_zero _ _ _ List.not_mem_nil]
  have h2 : ∀ a : Fin 2, a = 0 ∨ a = 1 := by decide
  rcases h2 a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S32x1x1_S32x1x128_2_0_n_n_0_2_1128.startIndexMap from List.mem_singleton.mpr rfl)]
    have hsi : gather_S100000x128_S32x1x1_S32x1x128_2_0_n_n_0_2_1128.siIdx (ix3 r z k)
        ⟨List.idxOf (0 : Fin 2) gather_S100000x128_S32x1x1_S32x1x128_2_0_n_n_0_2_1128.startIndexMap,
          List.idxOf_lt_length_iff.2 (List.mem_singleton.mpr rfl)⟩ = ix3 r z (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ gather_S100000x128_S32x1x1_S32x1x128_2_0_n_n_0_2_1128.startIndexMap from by
      show ¬ (1 : Fin 2) ∈ [0]
      decide)]
    unfold GatherDims.offCoord
    rw [dif_pos ((GatherDims.mem_sKept _ _).mpr
      ⟨(show ¬ (1 : Fin 2) ∈ [0] from by decide), List.not_mem_nil⟩)]
    simp only [Nat.zero_add]
    rfl

theorem dot_row (L : FVec Ideal S32x1x128 .f32) (W : FVec Ideal S100000x128 .f32) (r : Fin 32) (z : Fin 1) (v : Fin 100000) :
    Host.dotGeneral (F := Ideal) dot_S32x1x128_S100000x128_S32x1x100000_2_1_01_0_n_n none L W (ix3 r z v)
      = ∑ k : Fin 128, L (ix3 r z k) * W (ix2 v k) := by
  simp only [Host.dotGeneral]
  rw [Ideal.dotGeneral_apply]
  have hr : dot_S32x1x128_S100000x128_S32x1x100000_2_1_01_0_n_n.contr.rank = 1 := rfl
  have hs : dot_S32x1x128_S100000x128_S32x1x100000_2_1_01_0_n_n.contr.size ⟨0, by omega⟩ = 128 := rfl
  rw [← Equiv.sum_comp (contrEquiv1 dot_S32x1x128_S100000x128_S32x1x100000_2_1_01_0_n_n 128 hr hs).symm]
  refine Finset.sum_congr rfl fun k _ => ?_
  have hl : dot_S32x1x128_S100000x128_S32x1x100000_2_1_01_0_n_n.lhsIdx (ix3 r z v)
      ((contrEquiv1 dot_S32x1x128_S100000x128_S32x1x100000_2_1_01_0_n_n 128 hr hs).symm k) = ix3 r z k := by
    funext a; refine Fin.ext ?_
    have h3 : ∀ a : Fin 3, a = 0 ∨ a = 1 ∨ a = 2 := by decide
    rcases h3 a with rfl | rfl | rfl
    · rfl
    · rfl
    · exact (DotDims.lhsIdx_val_of_single _ (cl := (2 : Fin 3)) rfl _ _).trans (contrEquiv1_symm_val _ 128 hr hs k)
  have hrr : dot_S32x1x128_S100000x128_S32x1x100000_2_1_01_0_n_n.rhsIdx (ix3 r z v)
      ((contrEquiv1 dot_S32x1x128_S100000x128_S32x1x100000_2_1_01_0_n_n 128 hr hs).symm k) = ix2 v k := by
    funext a; refine Fin.ext ?_
    have h2 : ∀ a : Fin 2, a = 0 ∨ a = 1 := by decide
    rcases h2 a with rfl | rfl
    · rfl
    · exact (DotDims.rhsIdx_val_of_single _ (cr := (1 : Fin 2)) rfl _ _).trans (contrEquiv1_symm_val _ 128 hr hs k)
  rw [hl, hrr]

theorem bias_at {α : Type} (b : S100000.Idx → α) (r : Fin 32) (z : Fin 1) (v : Fin 100000) :
    broadcastInDim S32x1x100000 ![0, 1, 2] bcast_S1x1x100000_S32x1x100000_0_1_2
        (broadcastInDim S1x1x100000 ![2] bcast_S100000_S1x1x100000_2 b) (ix3 r z v) = b (ix1 v) := by
  unfold broadcastInDim
  congr 1
  funext a
  obtain rfl : a = 0 := Subsingleton.elim _ _
  refine Fin.ext ?_
  rfl

/-- A row index laid out as a column of one-component vectors reads the row index of the same batch row. -/
theorem column_at {α : Type} (y : S32x1.Idx → α) (i : S32x1x1.Idx) :
    broadcastInDim S32x1x1 ![0, 1] bcast_S32x1_S32x1x1_0_1 y i = y (ix2 (i 0) (0 : Fin 1)) := by
  unfold broadcastInDim
  congr 1
  funext a
  refine Fin.ext ?_
  have h2 : ∀ a : Fin 2, a = 0 ∨ a = 1 := by decide
  rcases h2 a with rfl | rfl
  · rfl
  · rfl

/-! ## An index word below the table height -/

section Words

variable {a : BitVec 32}

/-- Read as a signed number it is its unsigned value. -/
theorem toInt_of_small (h : a.toNat < 100000) : a.toInt = (a.toNat : Int) :=
  BitVec.toInt_eq_toNat_of_lt (by
    have : (2 : Nat) ^ 32 = 4294967296 := by norm_num
    omega)

/-- It is not negative … -/
theorem slt_zero_of_small (h : a.toNat < 100000) : IntOp.cmpi .slt a 0#32 = 0#1 := by
  show BitVec.ofBool (a.slt 0#32) = 0#1
  rw [BitVec.slt_eq_decide, toInt_of_small h, BitVec.toInt_zero, decide_eq_false (by omega)]
  rfl

/-- … it is at least zero … -/
theorem sge_zero_of_small (h : a.toNat < 100000) : IntOp.cmpi .sge a 0#32 = 1#1 := by
  show BitVec.ofBool ((0#32).sle a) = 1#1
  rw [BitVec.sle_eq_decide, toInt_of_small h, BitVec.toInt_zero, decide_eq_true (by omega)]
  rfl

/-- … and at most the last row. -/
theorem sle_last_of_small (h : a.toNat < 100000) : IntOp.cmpi .sle a 99999#32 = 1#1 := by
  have h9 : (99999#32 : BitVec 32).toInt = 99999 := by decide
  show BitVec.ofBool (a.sle 99999#32) = 1#1
  rw [BitVec.sle_eq_decide, toInt_of_small h, h9, decide_eq_true (by omega)]
  rfl

end Words

/-- A conjunction, from true, of bits that are all true is true. -/
theorem foldl_andi_one {ι : Type} (y : ι → BitVec 1) (hy : ∀ n, y n = 1#1) (l : List ι) :
    l.foldl (fun r n => IntOp.andi r (y n)) 1#1 = 1#1 := by
  induction l with
  | nil => rfl
  | cons n l ih =>
    have h11 : IntOp.andi 1#1 1#1 = 1#1 := by decide
    rw [List.foldl_cons, hy n, h11]
    exact ih

/-! ## The lookup where every index word names a table row -/

/-- The wrap leaves the index words alone. -/
theorem starts_apply (x : IVec S32x1 32) (hx : Cert.Spec.InRange x) (i : S32x1x1.Idx) :
    starts x i = x (ix2 (i 0) (0 : Fin 1)) := by
  unfold starts
  rw [column_at, select_apply]
  show Scalar.select (IntOp.cmpi .slt (x (ix2 (i 0) (0 : Fin 1))) 0#32) _ _ = _
  rw [slt_zero_of_small (hx (i 0)), select_zero]

/-- So every start index is below the table height. -/
theorem starts_small (x : IVec S32x1 32) (hx : Cert.Spec.InRange x) (i : S32x1x1.Idx) : (starts x i).toNat < 100000 := by
  rw [starts_apply x hx]
  exact hx (i 0)

/-- The mask holds on every batch row. -/
theorem inside_apply (x : IVec S32x1 32) (hx : Cert.Spec.InRange x) (j : S32x1.Idx) : inside x j = 1#1 := by
  unfold inside Host.reduce
  refine foldl_andi_one _ (fun n => ?_) _
  show IntOp.andi (IntOp.cmpi .sge (starts x (S32x1x1.rowMajor.symm n)) 0#32)
      (IntOp.cmpi .sle (starts x (S32x1x1.rowMajor.symm n)) 99999#32) = 1#1
  rw [sge_zero_of_small (starts_small x hx _), sle_last_of_small (starts_small x hx _)]
  decide

/-- The looked-up row of batch row 'r' is the table row its index word names. -/
theorem looked_apply (x : IVec S32x1 32) (hx : Cert.Spec.InRange x) (E : FVec Ideal S100000x128 .f32)
    (r : Fin 32) (z : Fin 1) (k : Fin 128) :
    looked (F := Ideal) x E (ix3 r z k) = E (ix2 (Cert.Spec.row x r) k) := by
  unfold looked
  have hm : broadcastInDim S32x1x128 ![0, 1] bcast_S32x1_S32x1x128_0_1 (inside x) (ix3 r z k) = 1#1 := by
    unfold broadcastInDim
    exact inside_apply x hx _
  have hs : starts x (ix3 r z (0 : Fin 1)) = x (ix2 r (0 : Fin 1)) := starts_apply x hx _
  rw [select_apply, hm, select_one, gather_row]
  congr 2
  refine Fin.ext ?_
  show min (starts x (ix3 r z (0 : Fin 1))).toInt.toNat 99999 = min (x (ix2 r (0 : Fin 1))).toNat 99999
  rw [hs, toInt_of_small (hx r), Int.toNat_natCast]

/-! ## The result -/

/-- Where every index word names a table row, the reference program's result is the specified function of its four
    arguments. -/
theorem term_eq_G (x : IVec Cert.ReferenceIdeal.S32x1 32) (E W : FVec Ideal Cert.ReferenceIdeal.S100000x128 .f32)
    (b : FVec Ideal Cert.ReferenceIdeal.S100000 .f32) (hx : Cert.Spec.InRange x) :
    term x E W b = Cert.Spec.G x E W b := by
  funext i
  obtain ⟨r, z, v, rfl⟩ : ∃ r z v, i = ix3 r z v := ⟨i 0, i 1, i 2, eq_ix3 i⟩
  rw [Cert.Spec.G_apply]
  unfold term termOf Cert.Spec.logit
  rw [addf_apply, dot_row, bias_at]
  congr 1
  exact Finset.sum_congr rfl fun k _ => by rw [looked_apply x hx]

end Cert.RefSide

end
-- ==== Proof.lean ====
/-
  The five claims of the certificate, assembled.

  Both programs compute, at (r, 0, v) of a [32, 1, 100000] array, the logit

      (Σ_{k < 128} E[x[r, 0], k] · W[v, k]) + b[v]

  over the extended reals (Proof/Spec.lean).  The kernel does it in two stages: a row gather on the SparseCores — four
  tiles, each fetching eight index words, gathering the eight table rows they name and writing them to its eight rows of
  a hidden [32, 128] array — and a projection on the TensorCore, a product with the transposed weights into a zero
  accumulator plus the bias row, in eight blocks of 12800 columns, the last of which overhangs the 100000 columns and is
  cut at both its fetches and its write-back.  The reference does it on the host: a take of the table rows (which wraps a
  negative index, clamps it and masks rows whose index is out of range — all idle where 0 ≤ x ≤ 99999), a contraction
  and an addition.  The two sums are the same sum of the same products in the same order, so no law of the extended
  reals is needed and the precondition's finiteness is never used; its range of the index words is: every indexed copy
  names a row of the table, and the reference's mask is all true.

  The frames of the two kernel programs are the run through the launch of the SparseCore program (Proof/Launch.lean); the
  word-level one goes through relational data for the projection (what its staging buffers hold past the array's end,
  and so what the matrix unit makes of it, is not named), the idealized one through exact data, which also gives the
  value (Proof/KernelValue.lean).  The reference's frame and value are its host run (Proof/RefRun.lean, RefValue.lean).
  No operation of the kernel is rewritten by the idealization, so there is nothing to preserve.
-/
import proofs.«217564_g44109314130489_cont_8to1_b_132_32_alg».proof.Defs
import proofs.«217564_g44109314130489_cont_8to1_b_132_32_alg».proof.Proof.Gen.Kernel
import proofs.«217564_g44109314130489_cont_8to1_b_132_32_alg».proof.Proof.Gen.KernelIdeal
import proofs.«217564_g44109314130489_cont_8to1_b_132_32_alg».proof.Proof.Gen.ReferenceIdeal
import proofs.«217564_g44109314130489_cont_8to1_b_132_32_alg».proof.Proof.Gen.Pre_input_domain
import proofs.«217564_g44109314130489_cont_8to1_b_132_32_alg».proof.Proof.PreRange
import proofs.«217564_g44109314130489_cont_8to1_b_132_32_alg».proof.Proof.KernelValue
import proofs.«217564_g44109314130489_cont_8to1_b_132_32_alg».proof.Proof.ReshapesK
import proofs.«217564_g44109314130489_cont_8to1_b_132_32_alg».proof.Proof.RegionRelStepK
import proofs.«217564_g44109314130489_cont_8to1_b_132_32_alg».proof.Proof.RefValue

noncomputable section

namespace Cert.Proof

open Idealize.ShloMosaic Idealize.SL.Sem

/-- Under the precondition every index word names a table row (idealized kernel's memory). -/
theorem inRange_ideal (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) (d : Dev Cert.KernelIdeal.nD) :
    Cert.Spec.InRange (m ((SparseCore.T d : Thread Cert.KernelIdeal.nD Cert.KernelIdeal.τ).loc Cert.KernelIdeal.main_arg0)) :=
  Cert.PreSide.inRange_of_pre _ _ _ _ (h d)

/-- The word-level kernel runs and keeps its arguments. -/
theorem frame_kernel : Cert.frame_Kernel (hKernel := Cert.Kernel.Gen.facts) (hPre_input_domain := Cert.Pre_input_domain.Gen.facts) :=
  fun m g hpre =>
    (θ_run (Cert.Kernel.defs (F := Bits)) _ _).mono (fun _ h c => ⟨(h c).1, (h c).2.1, (h c).2.2.1, (h c).2.2.2.1⟩)
      (Cert.Kernel.Hand.run_main (F := Bits) m g (fun _ _ => True)
        (Cert.Kernel.Hand.hI_of_inRange m fun d => Cert.PreSide.inRange_of_pre _ _ _ _ (hpre d))
        (Cert.Kernel.Hand.regionStep_rel (Cert.Kernel.Hand.mr m)))

/-- The idealized kernel runs and keeps its arguments. -/
theorem frame_kernelIdeal : Cert.frame_KernelIdeal (hKernelIdeal := Cert.KernelIdeal.Gen.facts) (hPre_input_domain := Cert.Pre_input_domain.Gen.facts) :=
  fun m g hpre =>
    (θ_run (Cert.KernelIdeal.defs (F := Ideal)) _ _).mono (fun _ h c => (h c).2)
      (Cert.KernelIdeal.Hand.kernel_value_run m g (inRange_ideal m hpre))

/-- The idealized reference runs and keeps its arguments. -/
theorem frame_referenceIdeal : Cert.frame_ReferenceIdeal (hReferenceIdeal := Cert.ReferenceIdeal.Gen.facts) (hPre_input_domain := Cert.Pre_input_domain.Gen.facts) :=
  fun m g _ => (θ_run (Cert.ReferenceIdeal.defs (F := Ideal)) _ _).mono (fun _ h c => (h c).2) (Cert.RefSide.run m g)

/-- The two idealized programs end with the same result: the specification's, on both sides. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.G (m ((SparseCore.T c : Thread Cert.KernelIdeal.nD Cert.KernelIdeal.τ).loc Cert.KernelIdeal.main_arg0))
      (m ((SparseCore.T c : Thread Cert.KernelIdeal.nD Cert.KernelIdeal.τ).loc Cert.KernelIdeal.main_arg1))
      (m ((SparseCore.T c : Thread Cert.KernelIdeal.nD Cert.KernelIdeal.τ).loc Cert.KernelIdeal.main_arg2))
      (m ((SparseCore.T c : Thread Cert.KernelIdeal.nD Cert.KernelIdeal.τ).loc Cert.KernelIdeal.main_arg3)),
    Cert.KernelIdeal.Hand.kernel_value_run m g (inRange_ideal m hpre), ?_⟩
  refine (θ_run (Cert.ReferenceIdeal.defs (F := Ideal)) _ _).mono (fun _ h c => ⟨(h c).1.trans ?_, (h c).2⟩) (Cert.RefSide.run m' g')
  rw [(hagree c).1, (hagree c).2.1, (hagree c).2.2.1, (hagree c).2.2.2]
  exact Cert.RefSide.term_eq_G _ _ _ _ (inRange_ideal m hpre c)

theorem claim : Cert.Claim :=
  ⟨Cert.Kernel.Gen.facts, Cert.KernelIdeal.Gen.facts, Cert.ReferenceIdeal.Gen.facts, Cert.Pre_input_domain.Gen.facts,
    frame_kernel, frame_kernelIdeal, frame_referenceIdeal, trivial, algebraic⟩

end Cert.Proof

end
